-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S2304 : S_.BroadcastsInDim S2304 (![] : Fin 0 → Fin S2304.rank)
  reducesTo_S2304_S_d0 : S2304.ReducesTo [0] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S4x2048x768 .f32) (main_arg1 : FVec F S2304x768 .f32) (main_arg2 : FVec F S2304 .f32) (main_arg3 : FVec F S768x768 .f32) (main_arg4 : FVec F S768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S2304 .f32 := Host.absf main_arg2
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  let main_c_3 : IVec S_ 1 := constantI S_ 1 1#1
  let main_v12 : IVec S_ 1 := (fun x v => Host.reduce IntOp.andi x v reducesTo_S2304_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_v13 main_v16
-- ==== Kernel.lean ====
abbrev S4x2048x768 : Shape := ⟨3, ![4, 2048, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S768x2304 : Shape := ⟨2, ![768, 2304]⟩
abbrev S4x2048x2304 : Shape := ⟨3, ![4, 2048, 2304]⟩
abbrev S1x512x768 : Shape := ⟨3, ![1, 512, 768]⟩
abbrev S1x512x2304 : Shape := ⟨3, ![1, 512, 2304]⟩
abbrev S512x768 : Shape := ⟨2, ![512, 768]⟩
abbrev S512x2304 : Shape := ⟨2, ![512, 2304]⟩
abbrev S1x2304 : Shape := ⟨2, ![1, 2304]⟩
abbrev S1x256x768 : Shape := ⟨3, ![1, 256, 768]⟩
abbrev S1x2048x768 : Shape := ⟨3, ![1, 2048, 768]⟩
abbrev S256x768 : Shape := ⟨2, ![256, 768]⟩
abbrev S1x256x64 : Shape := ⟨3, ![1, 256, 64]⟩
abbrev S256x64 : Shape := ⟨2, ![256, 64]⟩
abbrev S1x2048x64 : Shape := ⟨3, ![1, 2048, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S1x768 : Shape := ⟨2, ![1, 768]⟩

abbrev nBuf : Space → Nat
  | .hbm => 11
  | .vmem => 17
  | .smem => 0
  | _ => 0

abbrev bufTy : (tb : Table) → Fin (tcTables nBuf tb) → BufTy
  | .hbm, ⟨0, _⟩ => ⟨S4x2048x768, .f32⟩
  | .hbm, ⟨1, _⟩ => ⟨S2304x768, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S768x2304, .f32⟩
  | .hbm, ⟨6, _⟩ => ⟨S768x2304, .bf16⟩
  | .hbm, ⟨7, _⟩ => ⟨S768x768, .f32⟩
  | .hbm, ⟨8, _⟩ => ⟨S768x768, .bf16⟩
  | .hbm, ⟨9, _⟩ => ⟨S4x2048x2304, .bf16⟩
  | .hbm, ⟨10, _⟩ => ⟨S4x2048x768, .f32⟩
  | .local _ .vmem, ⟨0, _⟩ => ⟨S1x512x768, .f32⟩
  | .local _ .vmem, ⟨1, _⟩ => ⟨S1x512x768, .f32⟩
  | .local _ .vmem, ⟨2, _⟩ => ⟨S768x2304, .bf16⟩
  | .local _ .vmem, ⟨3, _⟩ => ⟨S2304, .f32⟩
  | .local _ .vmem, ⟨4, _⟩ => ⟨S1x512x2304, .bf16⟩
  | .local _ .vmem, ⟨5, _⟩ => ⟨S1x512x2304, .bf16⟩
  | .local _ .vmem, ⟨6, _⟩ => ⟨S1x256x768, .bf16⟩
  | .local _ .vmem, ⟨7, _⟩ => ⟨S1x256x768, .bf16⟩
  | .local _ .vmem, ⟨8, _⟩ => ⟨S1x2048x768, .bf16⟩
  | .local _ .vmem, ⟨9, _⟩ => ⟨S1x2048x768, .bf16⟩
  | .local _ .vmem, ⟨10, _⟩ => ⟨S1x2048x768, .bf16⟩
  | .local _ .vmem, ⟨11, _⟩ => ⟨S1x2048x768, .bf16⟩
  | .local _ .vmem, ⟨12, _⟩ => ⟨S768x768, .bf16⟩
  | .local _ .vmem, ⟨13, _⟩ => ⟨S768, .f32⟩
  | .local _ .vmem, ⟨14, _⟩ => ⟨S1x256x768, .f32⟩
  | .local _ .vmem, ⟨15, _⟩ => ⟨S1x256x768, .f32⟩
  | .local _ .vmem, ⟨16, _⟩ => ⟨S256x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S768x768 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  transposes_S2304x768_S768x2304_1_0 : S2304x768.Transposes [1, 0] S768x2304
  bitsLt_bf16_f32 : FTy.bits .bf16 < FTy.bits .f32
  transposes_S768x768_S768x768_1_0 : S768x768.Transposes [1, 0] S768x768
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S2304_S2304_0 : ∀ a, (![0] : Fin 1 → Nat) a + S2304.size a ≤ S2304.size a
  h_S2304 : 0 < S2304.numel
  shapeCasts_S2304_S1x2304 : S2304.ShapeCasts S1x2304
  broadcasts_S1x2304_S512x2304 : S1x2304.Broadcasts S512x2304
  inb_S1x512x2304_S1x512x2304_0_0_0 : ∀ a, (![0, 0, 0] : Fin 3 → Nat) a + S1x512x2304.size a ≤ S1x512x2304.size a
  h_S1x512x2304 : 0 < S1x512x2304.numel
  shapeCasts_S1x512x2304_S512x2304 : S1x512x2304.ShapeCasts S512x2304
  shapeCasts_S512x2304_S1x512x2304 : S512x2304.ShapeCasts S1x512x2304
  packedbf16_S1x512x2304_S1x512x2304_0_0_0 : (Rect.unit (s := S1x512x2304) ![0, 0, 0] S1x512x2304.size inb_S1x512x2304_S1x512x2304_0_0_0).PackedRows (EltTy.packing .bf16)
  inb_S1x256x768_S1x256x64_0_0_0 : ∀ a, (![0, 0, 0] : Fin 3 → Nat) a + S1x256x64.size a ≤ S1x256x768.size a
  h_S1x256x64 : 0 < S1x256x64.numel
  shapeCasts_S1x256x64_S256x64 : S1x256x64.ShapeCasts S256x64
  inb_S1x2048x768_S1x2048x64_0_0_0 : ∀ a, (![0, 0, 0] : Fin 3 → Nat) a + S1x2048x64.size a ≤ S1x2048x768.size a
  h_S1x2048x64 : 0 < S1x2048x64.numel
  shapeCasts_S1x2048x64_S2048x64 : S1x2048x64.ShapeCasts S2048x64
  reduces_S256x2048_S256 : S256x2048.Reduces [1] S256
  shapeCasts_S256_S256x1 : S256.ShapeCasts S256x1
  broadcasts_S256x1_S256x2048 : S256x1.Broadcasts S256x2048
  broadcasts_S256x1_S256x64 : S256x1.Broadcasts S256x64
  inb_S256x768_S256x64_0_0 : ∀ a, (![0, 0] : Fin 2 → Nat) a + S256x64.size a ≤ S256x768.size a
  h_S256x64 : 0 < S256x64.numel
  shapeCasts_S256x64_S256x64 : S256x64.ShapeCasts S256x64
  inb_S1x256x768_S1x256x64_0_0_64 : ∀ a, (![0, 0, 64] : Fin 3 → Nat) a + S1x256x64.size a ≤ S1x256x768.size a
  inb_S1x2048x768_S1x2048x64_0_0_64 : ∀ a, (![0, 0, 64] : Fin 3 → Nat) a + S1x2048x64.size a ≤ S1x2048x768.size a
  inb_S256x768_S256x64_0_64 : ∀ a, (![0, 64] : Fin 2 → Nat) a + S256x64.size a ≤ S256x768.size a
  inb_S1x256x768_S1x256x64_0_0_128 : ∀ a, (![0, 0, 128] : Fin 3 → Nat) a + S1x256x64.size a ≤ S1x256x768.size a
  inb_S1x2048x768_S1x2048x64_0_0_128 : ∀ a, (![0, 0, 128] : Fin 3 → Nat) a + S1x2048x64.size a ≤ S1x2048x768.size a
  inb_S256x768_S256x64_0_128 : ∀ a, (![0, 128] : Fin 2 → Nat) a + S256x64.size a ≤ S256x768.size a
  inb_S1x256x768_S1x256x64_0_0_192 : ∀ a, (![0, 0, 192] : Fin 3 → Nat) a + S1x256x64.size a ≤ S1x256x768.size a
  inb_S1x2048x768_S1x2048x64_0_0_192 : ∀ a, (![0, 0, 192] : Fin 3 → Nat) a + S1x2048x64.size a ≤ S1x2048x768.size a
  inb_S256x768_S256x64_0_192 : ∀ a, (![0, 192] : Fin 2 → Nat) a + S256x64.size a ≤ S256x768.size a
  inb_S1x256x768_S1x256x64_0_0_256 : ∀ a, (![0, 0, 256] : Fin 3 → Nat) a + S1x256x64.size a ≤ S1x256x768.size a
  inb_S1x2048x768_S1x2048x64_0_0_256 : ∀ a, (![0, 0, 256] : Fin 3 → Nat) a + S1x2048x64.size a ≤ S1x2048x768.size a
  inb_S256x768_S256x64_0_256 : ∀ a, (![0, 256] : Fin 2 → Nat) a + S256x64.size a ≤ S256x768.size a
  inb_S1x256x768_S1x256x64_0_0_320 : ∀ a, (![0, 0, 320] : Fin 3 → Nat) a + S1x256x64.size a ≤ S1x256x768.size a
  inb_S1x2048x768_S1x2048x64_0_0_320 : ∀ a, (![0, 0, 320] : Fin 3 → Nat) a + S1x2048x64.size a ≤ S1x2048x768.size a
  inb_S256x768_S256x64_0_320 : ∀ a, (![0, 320] : Fin 2 → Nat) a + S256x64.size a ≤ S256x768.size a
  inb_S1x256x768_S1x256x64_0_0_384 : ∀ a, (![0, 0, 384] : Fin 3 → Nat) a + S1x256x64.size a ≤ S1x256x768.size a
  inb_S1x2048x768_S1x2048x64_0_0_384 : ∀ a, (![0, 0, 384] : Fin 3 → Nat) a + S1x2048x64.size a ≤ S1x2048x768.size a
  inb_S256x768_S256x64_0_384 : ∀ a, (![0, 384] : Fin 2 → Nat) a + S256x64.size a ≤ S256x768.size a
  inb_S1x256x768_S1x256x64_0_0_448 : ∀ a, (![0, 0, 448] : Fin 3 → Nat) a + S1x256x64.size a ≤ S1x256x768.size a
  inb_S1x2048x768_S1x2048x64_0_0_448 : ∀ a, (![0, 0, 448] : Fin 3 → Nat) a + S1x2048x64.size a ≤ S1x2048x768.size a
  inb_S256x768_S256x64_0_448 : ∀ a, (![0, 448] : Fin 2 → Nat) a + S256x64.size a ≤ S256x768.size a
  inb_S1x256x768_S1x256x64_0_0_512 : ∀ a, (![0, 0, 512] : Fin 3 → Nat) a + S1x256x64.size a ≤ S1x256x768.size a
  inb_S1x2048x768_S1x2048x64_0_0_512 : ∀ a, (![0, 0, 512] : Fin 3 → Nat) a + S1x2048x64.size a ≤ S1x2048x768.size a
  inb_S256x768_S256x64_0_512 : ∀ a, (![0, 512] : Fin 2 → Nat) a + S256x64.size a ≤ S256x768.size a
  inb_S1x256x768_S1x256x64_0_0_576 : ∀ a, (![0, 0, 576] : Fin 3 → Nat) a + S1x256x64.size a ≤ S1x256x768.size a
  inb_S1x2048x768_S1x2048x64_0_0_576 : ∀ a, (![0, 0, 576] : Fin 3 → Nat) a + S1x2048x64.size a ≤ S1x2048x768.size a
  inb_S256x768_S256x64_0_576 : ∀ a, (![0, 576] : Fin 2 → Nat) a + S256x64.size a ≤ S256x768.size a
  inb_S1x256x768_S1x256x64_0_0_640 : ∀ a, (![0, 0, 640] : Fin 3 → Nat) a + S1x256x64.size a ≤ S1x256x768.size a
  inb_S1x2048x768_S1x2048x64_0_0_640 : ∀ a, (![0, 0, 640] : Fin 3 → Nat) a + S1x2048x64.size a ≤ S1x2048x768.size a
  inb_S256x768_S256x64_0_640 : ∀ a, (![0, 640] : Fin 2 → Nat) a + S256x64.size a ≤ S256x768.size a
  inb_S1x256x768_S1x256x64_0_0_704 : ∀ a, (![0, 0, 704] : Fin 3 → Nat) a + S1x256x64.size a ≤ S1x256x768.size a
  inb_S1x2048x768_S1x2048x64_0_0_704 : ∀ a, (![0, 0, 704] : Fin 3 → Nat) a + S1x2048x64.size a ≤ S1x2048x768.size a
  inb_S256x768_S256x64_0_704 : ∀ a, (![0, 704] : Fin 2 → Nat) a + S256x64.size a ≤ S256x768.size a
  inb_S256x768_S256x768_0_0 : ∀ a, (![0, 0] : Fin 2 → Nat) a + S256x768.size a ≤ S256x768.size a
  h_S256x768 : 0 < S256x768.numel
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768_S768_0 : ∀ a, (![0] : Fin 1 → Nat) a + S768.size a ≤ S768.size a
  h_S768 : 0 < S768.numel
  shapeCasts_S768_S1x768 : S768.ShapeCasts S1x768
  broadcasts_S1x768_S256x768 : S1x768.Broadcasts S256x768
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  shapeCasts_S256x768_S1x256x768 : S256x768.ShapeCasts S1x256x768
  dot_S512x768_S768x2304_S512x2304_1_0_0_1_n_n_wf : DotDims.WF S512x768 S768x2304 S512x2304 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x768_S768x768_S256x768_1_0_0_1_n_n_wf : DotDims.WF S256x768 S768x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S4x2048x768.size a
  hwx0_0 : ∀ i : grid0.Coords, EltTy.bits .f32 = 32 ∨ (Rect.block (s := S4x2048x768) S1x512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2304.size a ≤ S2304.size a
  hwx0_2 : ∀ i : grid0.Coords, EltTy.bits .f32 = 32 ∨ (Rect.block (s := S2304) S2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2304.size a ≤ S4x2048x2304.size a
  hwx0_3 : ∀ i : grid0.Coords, EltTy.bits .bf16 = 32 ∨ (Rect.block (s := S4x2048x2304) S1x512x2304.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x768.size a ≤ S4x2048x2304.size a
  hwx1_0 : ∀ i : grid1.Coords, EltTy.bits .bf16 = 32 ∨ (Rect.block (s := S4x2048x2304) S1x256x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x768.size a ≤ S4x2048x2304.size a
  hwx1_1 : ∀ i : grid1.Coords, EltTy.bits .bf16 = 32 ∨ (Rect.block (s := S4x2048x2304) S1x2048x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x768.size a ≤ S4x2048x2304.size a
  hwx1_2 : ∀ i : grid1.Coords, EltTy.bits .bf16 = 32 ∨ (Rect.block (s := S4x2048x2304) S1x2048x768.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S768x768.size a ≤ S768x768.size a
  hwx1_3 : ∀ i : grid1.Coords, EltTy.bits .bf16 = 32 ∨ (Rect.block (s := S768x768) S768x768.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S768.size a ≤ S768.size a
  hwx1_4 : ∀ i : grid1.Coords, EltTy.bits .f32 = 32 ∨ (Rect.block (s := S768) S768.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x768.size a ≤ S4x2048x768.size a
  hwx1_5 : ∀ i : grid1.Coords, EltTy.bits .f32 = 32 ∨ (Rect.block (s := S4x2048x768) S1x256x768.size (cc1_transform_5 i) (hinb1_5 i)).WholeWords (EltTy.packing .f32)

variable [Facts₀]

def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x768_S768x768_S256x768_1_0_0_1_n_n : DotDims S256x768 S768x768 S256x768 where
  lhsContracting := [1]
  rhsContracting := [0]
  lhsNonContracting := [0]
  rhsNonContracting := [1]
  lhsBatch := []
  rhsBatch := []
  wf := dot_S256x768_S768x768_S256x768_1_0_0_1_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512x2304.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1x256x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x2048x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x2048x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S768x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x256x768.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x768 : Shape := ⟨3, ![4, 2048, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S4x2048x2304 : Shape := ⟨3, ![4, 2048, 2304]⟩
abbrev S1x1x2304 : Shape := ⟨3, ![1, 1, 2304]⟩
abbrev S4x2048x3x12x64 : Shape := ⟨5, ![4, 2048, 3, 12, 64]⟩
abbrev S4x2048x1x12x64 : Shape := ⟨5, ![4, 2048, 1, 12, 64]⟩
abbrev S4x2048x12x64 : Shape := ⟨4, ![4, 2048, 12, 64]⟩
abbrev S4x12x2048x64 : Shape := ⟨4, ![4, 12, 2048, 64]⟩
abbrev S4x12x2048x2048 : Shape := ⟨4, ![4, 12, 2048, 2048]⟩
abbrev S_ : Shape := ⟨0, ![]⟩
abbrev S4x12x2048 : Shape := ⟨3, ![4, 12, 2048]⟩
abbrev S4x12x2048x1 : Shape := ⟨4, ![4, 12, 2048, 1]⟩
abbrev S1x1x768 : Shape := ⟨3, ![1, 1, 768]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S2304x768, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S4x2048x2304, .f32⟩
  | .hbm, ⟨6, _⟩ => ⟨S1x1x2304, .f32⟩
  | .hbm, ⟨7, _⟩ => ⟨S4x2048x2304, .f32⟩
  | .hbm, ⟨8, _⟩ => ⟨S4x2048x2304, .f32⟩
  | .hbm, ⟨9, _⟩ => ⟨S4x2048x3x12x64, .f32⟩
  | .hbm, ⟨10, _⟩ => ⟨S4x2048x1x12x64, .f32⟩
  | .hbm, ⟨11, _⟩ => ⟨S4x2048x12x64, .f32⟩
  | .hbm, ⟨12, _⟩ => ⟨S4x12x2048x64, .f32⟩
  | .hbm, ⟨13, _⟩ => ⟨S4x2048x1x12x64, .f32⟩
  | .hbm, ⟨14, _⟩ => ⟨S4x2048x12x64, .f32⟩
  | .hbm, ⟨15, _⟩ => ⟨S4x12x2048x64, .f32⟩
  | .hbm, ⟨16, _⟩ => ⟨S4x2048x1x12x64, .f32⟩
  | .hbm, ⟨17, _⟩ => ⟨S4x2048x12x64, .f32⟩
  | .hbm, ⟨18, _⟩ => ⟨S4x12x2048x64, .f32⟩
  | .hbm, ⟨19, _⟩ => ⟨S4x12x2048x2048, .f32⟩
  | .hbm, ⟨20, _⟩ => ⟨S_, .f32⟩
  | .hbm, ⟨21, _⟩ => ⟨S4x12x2048x2048, .f32⟩
  | .hbm, ⟨22, _⟩ => ⟨S4x12x2048x2048, .f32⟩
  | .hbm, ⟨23, _⟩ => ⟨S_, .f32⟩
  | .hbm, ⟨24, _⟩ => ⟨S4x12x2048, .f32⟩
  | .hbm, ⟨25, _⟩ => ⟨S_, .f32⟩
  | .hbm, ⟨26, _⟩ => ⟨S4x12x2048, .f32⟩
  | .hbm, ⟨27, _⟩ => ⟨S4x12x2048, .f32⟩
  | .hbm, ⟨28, _⟩ => ⟨S4x12x2048x1, .f32⟩
  | .hbm, ⟨29, _⟩ => ⟨S4x12x2048x2048, .f32⟩
  | .hbm, ⟨30, _⟩ => ⟨S4x12x2048x2048, .f32⟩
  | .hbm, ⟨31, _⟩ => ⟨S4x12x2048x2048, .f32⟩
  | .hbm, ⟨32, _⟩ => ⟨S_, .f32⟩
  | .hbm, ⟨33, _⟩ => ⟨S4x12x2048, .f32⟩
  | .hbm, ⟨34, _⟩ => ⟨S4x12x2048x1, .f32⟩
  | .hbm, ⟨35, _⟩ => ⟨S4x12x2048x2048, .f32⟩
  | .hbm, ⟨36, _⟩ => ⟨S4x12x2048x2048, .f32⟩
  | .hbm, ⟨37, _⟩ => ⟨S4x12x2048x64, .f32⟩
  | .hbm, ⟨38, _⟩ => ⟨S4x2048x12x64, .f32⟩
  | .hbm, ⟨39, _⟩ => ⟨S4x2048x768, .f32⟩
  | .hbm, ⟨40, _⟩ => ⟨S4x2048x768, .f32⟩
  | .hbm, ⟨41, _⟩ => ⟨S1x1x768, .f32⟩
  | .hbm, ⟨42, _⟩ => ⟨S4x2048x768, .f32⟩
  | .hbm, ⟨43, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]

class Facts₀ : Prop where
  bcast_S2304_S1x1x2304_2 : S2304.BroadcastsInDim S1x1x2304 (![2] : Fin 1 → Fin S1x1x2304.rank)
  bcast_S1x1x2304_S4x2048x2304_0_1_2 : S1x1x2304.BroadcastsInDim S4x2048x2304 (![0, 1, 2] : Fin 3 → Fin S4x2048x2304.rank)
  shapeCasts_S4x2048x2304_S4x2048x3x12x64 : S4x2048x2304.ShapeCasts S4x2048x3x12x64
  slices_S4x2048x3x12x64_S4x2048x1x12x64_0_0_0_0_0 : S4x2048x3x12x64.Slices ![0, 0, 0, 0, 0] S4x2048x1x12x64
  shapeCasts_S4x2048x1x12x64_S4x2048x12x64 : S4x2048x1x12x64.ShapeCasts S4x2048x12x64
  transposes_S4x2048x12x64_S4x12x2048x64_0_2_1_3 : S4x2048x12x64.Transposes [0, 2, 1, 3] S4x12x2048x64
  slices_S4x2048x3x12x64_S4x2048x1x12x64_0_0_1_0_0 : S4x2048x3x12x64.Slices ![0, 0, 1, 0, 0] S4x2048x1x12x64
  slices_S4x2048x3x12x64_S4x2048x1x12x64_0_0_2_0_0 : S4x2048x3x12x64.Slices ![0, 0, 2, 0, 0] S4x2048x1x12x64
  bcast_S_S4x12x2048x2048 : S_.BroadcastsInDim S4x12x2048x2048 (![] : Fin 0 → Fin S4x12x2048x2048.rank)
  reducesTo_S4x12x2048x2048_S4x12x2048_d3 : S4x12x2048x2048.ReducesTo [3] S4x12x2048
  h_S_ : 0 < S_.numel
  bcast_S_S4x12x2048 : S_.BroadcastsInDim S4x12x2048 (![] : Fin 0 → Fin S4x12x2048.rank)
  bcast_S4x12x2048_S4x12x2048x1_0_1_2 : S4x12x2048.BroadcastsInDim S4x12x2048x1 (![0, 1, 2] : Fin 3 → Fin S4x12x2048x1.rank)
  bcast_S4x12x2048x1_S4x12x2048x2048_0_1_2_3 : S4x12x2048x1.BroadcastsInDim S4x12x2048x2048 (![0, 1, 2, 3] : Fin 4 → Fin S4x12x2048x2048.rank)
  transposes_S4x12x2048x64_S4x2048x12x64_0_2_1_3 : S4x12x2048x64.Transposes [0, 2, 1, 3] S4x2048x12x64
  shapeCasts_S4x2048x12x64_S4x2048x768 : S4x2048x12x64.ShapeCasts S4x2048x768
  bcast_S768_S1x1x768_2 : S768.BroadcastsInDim S1x1x768 (![2] : Fin 1 → Fin S1x1x768.rank)
  bcast_S1x1x768_S4x2048x768_0_1_2 : S1x1x768.BroadcastsInDim S4x2048x768 (![0, 1, 2] : Fin 3 → Fin S4x2048x768.rank)
  dot_S4x2048x768_S2304x768_S4x2048x2304_2_1_01_0_n_n_wf : DotDims.WF S4x2048x768 S2304x768 S4x2048x2304 [2] [1] [0, 1] [0] [] []
  dot_S4x12x2048x64_S4x12x2048x64_S4x12x2048x2048_3_3_2_2_01_01_wf : DotDims.WF S4x12x2048x64 S4x12x2048x64 S4x12x2048x2048 [3] [3] [2] [2] [0, 1] [0, 1]
  dot_S4x12x2048x2048_S4x12x2048x64_S4x12x2048x64_3_2_2_3_01_01_wf : DotDims.WF S4x12x2048x2048 S4x12x2048x64 S4x12x2048x64 [3] [2] [2] [3] [0, 1] [0, 1]
  dot_S4x2048x768_S768x768_S4x2048x768_2_1_01_0_n_n_wf : DotDims.WF S4x2048x768 S768x768 S4x2048x768 [2] [1] [0, 1] [0] [] []

variable [Facts₀]

def dot_S4x2048x768_S2304x768_S4x2048x2304_2_1_01_0_n_n : DotDims S4x2048x768 S2304x768 S4x2048x2304 where
  lhsContracting := [2]
  rhsContracting := [1]
  lhsNonContracting := [0, 1]
  rhsNonContracting := [0]
  lhsBatch := []
  rhsBatch := []
  wf := dot_S4x2048x768_S2304x768_S4x2048x2304_2_1_01_0_n_n_wf
def dot_S4x12x2048x64_S4x12x2048x64_S4x12x2048x2048_3_3_2_2_01_01 : DotDims S4x12x2048x64 S4x12x2048x64 S4x12x2048x2048 where
  lhsContracting := [3]
  rhsContracting := [3]
  lhsNonContracting := [2]
  rhsNonContracting := [2]
  lhsBatch := [0, 1]
  rhsBatch := [0, 1]
  wf := dot_S4x12x2048x64_S4x12x2048x64_S4x12x2048x2048_3_3_2_2_01_01_wf
def dot_S4x12x2048x2048_S4x12x2048x64_S4x12x2048x64_3_2_2_3_01_01 : DotDims S4x12x2048x2048 S4x12x2048x64 S4x12x2048x64 where
  lhsContracting := [3]
  rhsContracting := [2]
  lhsNonContracting := [2]
  rhsNonContracting := [3]
  lhsBatch := [0, 1]
  rhsBatch := [0, 1]
  wf := dot_S4x12x2048x2048_S4x12x2048x64_S4x12x2048x64_3_2_2_3_01_01_wf
def dot_S4x2048x768_S768x768_S4x2048x768_2_1_01_0_n_n : DotDims S4x2048x768 S768x768 S4x2048x768 where
  lhsContracting := [2]
  rhsContracting := [1]
  lhsNonContracting := [0, 1]
  rhsNonContracting := [0]
  lhsBatch := []
  rhsBatch := []
  wf := dot_S4x2048x768_S768x768_S4x2048x768_2_1_01_0_n_n_wf

class Facts : Prop extends Facts₀ where

variable [Facts]
-- ==== Proof.K1Body.lean ====
/-
  The body of the fused attention + output-projection kernel, as a triple.

  The body runs twelve heads. Head `h` reads the column slabs `64 h … 64 h + 63` of the query block
  `[1,256,768]`, of the key block `[1,2048,768]` and of the value block `[1,2048,768]`, computes a
  `[256,64]` result from them alone, and stores it into columns `64 h … 64 h + 63` of a `[256,768]` scratch
  (the slab it loads from the scratch just before is not used). The twelve slabs tile the scratch, so what the
  whole-scratch load then reads is a function of the three input blocks only, whatever the scratch held before:
  `scr1`. One store of the whole output block follows, of the output projection of that scratch by the weight
  block plus the bias: `out1_5`. The input blocks are only read, and end as they were.
-/
import proofs.«161869_j30837865185684_2_alg».proof.Proof.Gen.Kernel.Skeleton
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes

Head `h` (of twelve) reads columns `64 h … 64 h + 63` of the query, key and value blocks and writes the same
columns of the scratch. -/

abbrev rq0 : Rect S1x256x768 := Rect.unit (s := S1x256x768) ![0, 0, 0] S1x256x64.size inb_S1x256x768_S1x256x64_0_0_0
abbrev rk0 : Rect S1x2048x768 := Rect.unit (s := S1x2048x768) ![0, 0, 0] S1x2048x64.size inb_S1x2048x768_S1x2048x64_0_0_0
abbrev rs0 : Rect S256x768 := Rect.unit (s := S256x768) ![0, 0] S256x64.size inb_S256x768_S256x64_0_0
abbrev rq1 : Rect S1x256x768 := Rect.unit (s := S1x256x768) ![0, 0, 64] S1x256x64.size inb_S1x256x768_S1x256x64_0_0_64
abbrev rk1 : Rect S1x2048x768 := Rect.unit (s := S1x2048x768) ![0, 0, 64] S1x2048x64.size inb_S1x2048x768_S1x2048x64_0_0_64
abbrev rs1 : Rect S256x768 := Rect.unit (s := S256x768) ![0, 64] S256x64.size inb_S256x768_S256x64_0_64
abbrev rq2 : Rect S1x256x768 := Rect.unit (s := S1x256x768) ![0, 0, 128] S1x256x64.size inb_S1x256x768_S1x256x64_0_0_128
abbrev rk2 : Rect S1x2048x768 := Rect.unit (s := S1x2048x768) ![0, 0, 128] S1x2048x64.size inb_S1x2048x768_S1x2048x64_0_0_128
abbrev rs2 : Rect S256x768 := Rect.unit (s := S256x768) ![0, 128] S256x64.size inb_S256x768_S256x64_0_128
abbrev rq3 : Rect S1x256x768 := Rect.unit (s := S1x256x768) ![0, 0, 192] S1x256x64.size inb_S1x256x768_S1x256x64_0_0_192
abbrev rk3 : Rect S1x2048x768 := Rect.unit (s := S1x2048x768) ![0, 0, 192] S1x2048x64.size inb_S1x2048x768_S1x2048x64_0_0_192
abbrev rs3 : Rect S256x768 := Rect.unit (s := S256x768) ![0, 192] S256x64.size inb_S256x768_S256x64_0_192
abbrev rq4 : Rect S1x256x768 := Rect.unit (s := S1x256x768) ![0, 0, 256] S1x256x64.size inb_S1x256x768_S1x256x64_0_0_256
abbrev rk4 : Rect S1x2048x768 := Rect.unit (s := S1x2048x768) ![0, 0, 256] S1x2048x64.size inb_S1x2048x768_S1x2048x64_0_0_256
abbrev rs4 : Rect S256x768 := Rect.unit (s := S256x768) ![0, 256] S256x64.size inb_S256x768_S256x64_0_256
abbrev rq5 : Rect S1x256x768 := Rect.unit (s := S1x256x768) ![0, 0, 320] S1x256x64.size inb_S1x256x768_S1x256x64_0_0_320
abbrev rk5 : Rect S1x2048x768 := Rect.unit (s := S1x2048x768) ![0, 0, 320] S1x2048x64.size inb_S1x2048x768_S1x2048x64_0_0_320
abbrev rs5 : Rect S256x768 := Rect.unit (s := S256x768) ![0, 320] S256x64.size inb_S256x768_S256x64_0_320
abbrev rq6 : Rect S1x256x768 := Rect.unit (s := S1x256x768) ![0, 0, 384] S1x256x64.size inb_S1x256x768_S1x256x64_0_0_384
abbrev rk6 : Rect S1x2048x768 := Rect.unit (s := S1x2048x768) ![0, 0, 384] S1x2048x64.size inb_S1x2048x768_S1x2048x64_0_0_384
abbrev rs6 : Rect S256x768 := Rect.unit (s := S256x768) ![0, 384] S256x64.size inb_S256x768_S256x64_0_384
abbrev rq7 : Rect S1x256x768 := Rect.unit (s := S1x256x768) ![0, 0, 448] S1x256x64.size inb_S1x256x768_S1x256x64_0_0_448
abbrev rk7 : Rect S1x2048x768 := Rect.unit (s := S1x2048x768) ![0, 0, 448] S1x2048x64.size inb_S1x2048x768_S1x2048x64_0_0_448
abbrev rs7 : Rect S256x768 := Rect.unit (s := S256x768) ![0, 448] S256x64.size inb_S256x768_S256x64_0_448
abbrev rq8 : Rect S1x256x768 := Rect.unit (s := S1x256x768) ![0, 0, 512] S1x256x64.size inb_S1x256x768_S1x256x64_0_0_512
abbrev rk8 : Rect S1x2048x768 := Rect.unit (s := S1x2048x768) ![0, 0, 512] S1x2048x64.size inb_S1x2048x768_S1x2048x64_0_0_512
abbrev rs8 : Rect S256x768 := Rect.unit (s := S256x768) ![0, 512] S256x64.size inb_S256x768_S256x64_0_512
abbrev rq9 : Rect S1x256x768 := Rect.unit (s := S1x256x768) ![0, 0, 576] S1x256x64.size inb_S1x256x768_S1x256x64_0_0_576
abbrev rk9 : Rect S1x2048x768 := Rect.unit (s := S1x2048x768) ![0, 0, 576] S1x2048x64.size inb_S1x2048x768_S1x2048x64_0_0_576
abbrev rs9 : Rect S256x768 := Rect.unit (s := S256x768) ![0, 576] S256x64.size inb_S256x768_S256x64_0_576
abbrev rq10 : Rect S1x256x768 := Rect.unit (s := S1x256x768) ![0, 0, 640] S1x256x64.size inb_S1x256x768_S1x256x64_0_0_640
abbrev rk10 : Rect S1x2048x768 := Rect.unit (s := S1x2048x768) ![0, 0, 640] S1x2048x64.size inb_S1x2048x768_S1x2048x64_0_0_640
abbrev rs10 : Rect S256x768 := Rect.unit (s := S256x768) ![0, 640] S256x64.size inb_S256x768_S256x64_0_640
abbrev rq11 : Rect S1x256x768 := Rect.unit (s := S1x256x768) ![0, 0, 704] S1x256x64.size inb_S1x256x768_S1x256x64_0_0_704
abbrev rk11 : Rect S1x2048x768 := Rect.unit (s := S1x2048x768) ![0, 0, 704] S1x2048x64.size inb_S1x2048x768_S1x2048x64_0_0_704
abbrev rs11 : Rect S256x768 := Rect.unit (s := S256x768) ![0, 704] S256x64.size inb_S256x768_S256x64_0_704
abbrev rsW : Rect S256x768 := Rect.unit (s := S256x768) ![0, 0] S256x768.size inb_S256x768_S256x768_0_0
abbrev rw5 : Rect S768x768 := Rect.unit (s := S768x768) ![0, 0] S768x768.size inb_S768x768_S768x768_0_0
abbrev rb6 : Rect S768 := Rect.unit (s := S768) ![0] S768.size inb_S768_S768_0
abbrev ro7 : Rect S1x256x768 := Rect.unit (s := S1x256x768) ![0, 0, 0] S1x256x768.size inb_S1x256x768_S1x256x768_0_0_0

/-! ## What the body leaves -/

/-- The scratch after the twelve slab stores: the canonical contents of the twelve pieces, last first; piece `h`
    is the rectangle of columns `64 h … 64 h + 63` with head `h`'s result over the three column slabs. -/
def scr1 (x0 : Vec F S1x256x768 .bf16) (x1 x2 : Vec F S1x2048x768 .bf16) : Vec F S256x768 .f32 :=
  View.canon [
    ⟨rs11, k1_pay1 (k1_pay25 (View.ld x0 rq11) (View.ld x1 rk11) (View.ld x2 rk11))⟩,
    ⟨rs10, k1_pay24 (k1_pay22 (View.ld x2 rk10)) (k1_pay23 (View.ld x0 rq10) (View.ld x1 rk10)) (Scalar.ofBits .f32 0x3E000000#32)⟩,
    ⟨rs9, k1_pay21 (View.ld x0 rq9) (View.ld x1 rk9) (View.ld x2 rk9)⟩,
    ⟨rs8, k1_pay20 (k1_pay19 (View.ld x0 rq8) (View.ld x1 rk8) (View.ld x2 rk8))⟩,
    ⟨rs7, k1_pay18 (k1_pay16 (View.ld x2 rk7)) (k1_pay17 (View.ld x0 rq7) (View.ld x1 rk7)) (Scalar.ofBits .f32 0x3E000000#32)⟩,
    ⟨rs6, k1_pay15 (View.ld x0 rq6) (View.ld x1 rk6) (View.ld x2 rk6)⟩,
    ⟨rs5, k1_pay14 (k1_pay13 (View.ld x0 rq5) (View.ld x1 rk5) (View.ld x2 rk5))⟩,
    ⟨rs4, k1_pay12 (k1_pay10 (View.ld x2 rk4)) (k1_pay11 (View.ld x0 rq4) (View.ld x1 rk4)) (Scalar.ofBits .f32 0x3E000000#32)⟩,
    ⟨rs3, k1_pay9 (View.ld x0 rq3) (View.ld x1 rk3) (View.ld x2 rk3)⟩,
    ⟨rs2, k1_pay8 (k1_pay7 (View.ld x0 rq2) (View.ld x1 rk2) (View.ld x2 rk2))⟩,
    ⟨rs1, k1_pay6 (k1_pay4 (View.ld x2 rk1)) (k1_pay5 (View.ld x0 rq1) (View.ld x1 rk1)) (Scalar.ofBits .f32 0x3E000000#32)⟩,
    ⟨rs0, k1_pay3 (View.ld x0 rq0) (View.ld x1 rk0) (View.ld x2 rk0)⟩]

/-- The output block after its one store: the output projection of the whole scratch, plus the bias. -/
def out1_5 (x0 : Vec F S1x256x768 .bf16) (x1 x2 : Vec F S1x2048x768 .bf16) (x3 : Vec F S768x768 .bf16) (x4 : Vec F S768 .f32) : Vec F S1x256x768 .f32 :=
  View.canon [⟨ro7, k1_pay2 (View.ld (scr1 x0 x1 x2) rsW) (View.ld x3 rw5) (View.ld x4 rb6)⟩]

/-- The one store of the output block covers it. -/
theorem cover1_5 (p0 : ro7.shape.Idx → Elt F .f32) (y : S1x256x768.Idx) :
    ∃ pc ∈ ([⟨ro7, p0⟩] : List (View.Piece (Elt F) S1x256x768 .f32)), y ∈ pc.1.set :=
  View.cover_of_tiled [⟨ro7, p0⟩] S1x256x768.size (by rfl) y

/-! ## The body's triple -/

set_option maxHeartbeats 4000000 in
/-- From the five input blocks held whole at `x0 … x4`, and the output block and the scratch held whole at
    anything, the body runs to its return holding the inputs as they were, the output block at `out1_5` of the
    inputs, and the scratch at something. The value the whole-scratch load reads is the canonical contents of the
    twelve slab stores read through the whole rectangle — no cover is needed for that, since a read of stores over
    arbitrary prior contents through a box the stores fill is the canonical contents at the box's indices —, and the
    output's one store covers the output block. -/
theorem sound_kernel1 (c : Dev nD) (E : Set ℕ) (i : grid1.Coords)
    (arg2 : Memref sig .tc .vmem S1x256x768 .bf16) (harg2 : arg2.IsWhole) (arg3 : Memref sig .tc .vmem S1x2048x768 .bf16) (harg3 : arg3.IsWhole)
    (arg4 : Memref sig .tc .vmem S1x2048x768 .bf16) (harg4 : arg4.IsWhole) (arg5 : Memref sig .tc .vmem S768x768 .bf16) (harg5 : arg5.IsWhole)
    (arg6 : Memref sig .tc .vmem S768 .f32) (harg6 : arg6.IsWhole) (arg7 : Memref sig .tc .vmem S1x256x768 .f32) (harg7 : arg7.IsWhole)
    (arg8 : Memref sig .tc .vmem S256x768 .f32) (harg8 : arg8.IsWhole)
    (x0 : Vec F S1x256x768 .bf16) (x1 x2 : Vec F S1x2048x768 .bf16) (x3 : Vec F S768x768 .bf16) (x4 : Vec F S768 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4) ∗ (∃ d, owns (c : Thread nD τ) arg8 fullShare d)) -∗ K ⟨⟩))
      ⊢ wp frame (wpE (defs₀ (F := F)) Variants.none c none) E
          (cc1__fused_attn_out_kernel i arg2 harg2 arg3 harg3 arg4 harg4 arg5 harg5 arg6 harg6 arg7 harg7 arg8 harg8) K := by
  simp only [cc1__fused_attn_out_kernel_eq_skeleton]; unfold cc1__fused_attn_out_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf2 hf3 hf4 hf5 hf6
  sl_exec_parts
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover1_5 _)).trans ?_
    unfold out1_5 scr1
    sl_unfold_run_names
    rw [View.readCov_eq_canon']
    rfl
  iexists _; iexists _; isplitr
  swap; · iexact H8
  ipureintro; rfl

end Cert.Kernel.R1

end
-- ==== Proof.K0.lean ====
/- REGION 0 of the word-level kernel's @main: the fused QKV projection `cc0__linear_bias_kernel` on its 4×4 grid.

   Each point of the grid takes one block of 512 rows of one batch of the activations (window 0), the whole
   transposed weight (window 1) and the whole bias (window 2), and leaves in the output window's buffer (window 3)
   the one value the body stores: rows · weight + bias, cut to bf16. The body also loads the output buffer before
   it overwrites it; that load's value is used nowhere, so the buffer may hold anything when the body starts.

   Everything here is stated at a parameter `V`, the TensorCore's buffer contents when the region is entered, and
   generic in the float instance. -/
import proofs.«161869_j30837865185684_2_alg».proof.Proof.Gen.Kernel.Launch
import proofs.«161869_j30837865185684_2_alg».proof.Proof.Gen.Kernel.Skeleton
import proofs.«161869_j30837865185684_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the part of its array, as the region finds it, that the window's index map
    selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' buffer holds the point's block whenever the body is called: it is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's buffer holds the (one) block at every point although it is fetched only at the first: its block
    index never moves and the body leaves the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the bias. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every one is the whole of its buffer -/

abbrev r0_0 : Rect S1x512x768 := Rect.unit (s := S1x512x768) ![0, 0, 0] S1x512x768.size inb_S1x512x768_S1x512x768_0_0_0
abbrev r0_1 : Rect S768x2304 := Rect.unit (s := S768x2304) ![0, 0] S768x2304.size inb_S768x2304_S768x2304_0_0
abbrev r0_2 : Rect S2304 := Rect.unit (s := S2304) ![0] S2304.size inb_S2304_S2304_0
abbrev r0_3 : Rect S1x512x2304 := Rect.unit (s := S1x512x2304) ![0, 0, 0] S1x512x2304.size inb_S1x512x2304_S1x512x2304_0_0_0

/-! ## What the body leaves in the output window's buffer -/

/-- The output buffer after the body, from the three input blocks: its one store, of the skeleton's payload of the
    three loads, laid over the buffer. -/
def out0_3 (x0 : Vec F S1x512x768 .f32) (x1 : Vec F S768x2304 .bf16) (x2 : Vec F S2304 .f32) : Vec F S1x512x2304 .bf16 :=
  View.canon [⟨r0_3, k0_pay1 (View.ld x0 r0_0) (View.ld x1 r0_1) (View.ld x2 r0_2)⟩]

/-- The one store is of the whole buffer, so it covers it. -/
theorem cover0_3 (p0 : Vec F S1x512x2304 .bf16) (y : S1x512x2304.Idx) :
    ∃ pc ∈ ([⟨r0_3, p0⟩] : List (View.Piece (Elt F) S1x512x2304 .bf16)), y ∈ pc.1.set :=
  View.cover_of_tiled [⟨r0_3, p0⟩] S1x512x2304.size (by rfl) y

/-! ## The body's triple -/

set_option maxHeartbeats 1000000 in
/-- The body on whole staging memrefs, the three inputs' at contents `x0 x1 x2` and the output's at anything, runs to
    the continuation with the inputs' as they were and the output's at `out0_3 x0 x1 x2`. -/
theorem sound_kernel0 (c : Dev nD) (E : Set ℕ) (i : grid0.Coords)
    (arg0 : Memref sig .tc .vmem S1x512x768 .f32) (harg0 : arg0.IsWhole) (arg1 : Memref sig .tc .vmem S768x2304 .bf16) (harg1 : arg1.IsWhole)
    (arg2 : Memref sig .tc .vmem S2304 .f32) (harg2 : arg2.IsWhole) (arg3 : Memref sig .tc .vmem S1x512x2304 .bf16) (harg3 : arg3.IsWhole)
    (x0 : Vec F S1x512x768 .f32) (x1 : Vec F S768x2304 .bf16) (x2 : Vec F S2304 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__linear_bias_kernel i arg0 harg0 arg1 harg1 arg2 harg2 arg3 harg3) K := by
  simp only [cc0__linear_bias_kernel_eq_skeleton]; unfold cc0__linear_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each
    input's buffer still at its block and the output's at `out0_3` of the three input blocks; the invariant that
    the scoped rest and the generator register are untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.K1Data.lean ====
/-
  The second kernel region (attention and output projection) as the pipeline sees it: at each of the 4 × 8 grid points
  the body is handed a query block of 256 rows, the whole key and value blocks of the point's batch, the output weight
  and bias, and leaves in the output window's buffer one function `out` of those five blocks; every value the body reads
  from the scratch buffer and uses was stored there earlier at the same point, so nothing is carried from point to point. The query, key and
  value windows read ONE array (the fused projection), so the array's share is dealt among the three: the left half,
  and the two halves of the right half.
  Everything here is stated for an arbitrary result function `out` and under the hypothesis `BodyRuns out` (the body's
  triple: run on whole buffers holding the five blocks, it ends with the output buffer at `out` of them).
-/
import proofs.«161869_j30837865185684_2_alg».proof.Proof.Gen.Kernel.Launch
import proofs.«161869_j30837865185684_2_alg».proof.Proof.Gen.Kernel.Skeleton
import proofs.«161869_j30837865185684_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A result block as a function of the query, key and value blocks, the output weight and the output bias. -/
abbrev OutFn (F : FTy → Type) [FloatOps F] : Type :=
  Vec F S1x256x768 .bf16 → Vec F S1x2048x768 .bf16 → Vec F S1x2048x768 .bf16 → Vec F S768x768 .bf16 → Vec F S768 .f32 → Vec F S1x256x768 .f32

/-- The body's triple for a result function: on whole buffers holding the five blocks, the output buffer and the scratch at
    any contents, the body runs and leaves the five as they were, the output buffer at `out` of them, the scratch at some
    contents. -/
def BodyRuns (out : OutFn F) : Prop :=
  ∀ (c : Dev nD) (E : Set ℕ) (i : grid1.Coords) (arg2 : Memref sig .tc .vmem S1x256x768 .bf16) (harg2 : arg2.IsWhole) (arg3 : Memref sig .tc .vmem S1x2048x768 .bf16) (harg3 : arg3.IsWhole) (arg4 : Memref sig .tc .vmem S1x2048x768 .bf16) (harg4 : arg4.IsWhole) (arg5 : Memref sig .tc .vmem S768x768 .bf16) (harg5 : arg5.IsWhole) (arg6 : Memref sig .tc .vmem S768 .f32) (harg6 : arg6.IsWhole) (arg7 : Memref sig .tc .vmem S1x256x768 .f32) (harg7 : arg7.IsWhole) (arg8 : Memref sig .tc .vmem S256x768 .f32) (harg8 : arg8.IsWhole)
    (x0 : Vec F S1x256x768 .bf16) (x1 x2 : Vec F S1x2048x768 .bf16) (x3 : Vec F S768x768 .bf16) (x4 : Vec F S768 .f32) (K : PUnit → sProp 𝕄),
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out x0 x1 x2 x3 x4) ∗ (∃ d, owns (c : Thread nD τ) arg8 fullShare d)) -∗ K ⟨⟩))
      ⊢ wp frame (wpE (defs₀ (F := F)) Variants.none c none) E (cc1__fused_attn_out_kernel i arg2 harg2 arg3 harg3 arg4 harg4 arg5 harg5 arg6 harg6 arg7 harg7 arg8 harg8) K

variable (V : (c : Dev nD) → (b : Ref sig .tc) → Buf (Elt F) ((c : Thread nD τ).loc b)) (out : OutFn F)

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The share of its array each window holds: the fused projection's is dealt among the query, key and value windows. -/
def shares : Fin cfg1.W → PosShare TreeShare
  | ⟨0, _⟩ => fullShare.left
  | ⟨1, _⟩ => fullShare.right.left
  | ⟨2, _⟩ => fullShare.right.right
  | ⟨3, _⟩ => fullShare
  | ⟨4, _⟩ => fullShare
  | ⟨5, _⟩ => fullShare

/-! ## The proof data -/

/-- Pipeline 1's proof data on core `c`: the arrays as the region finds them; after the body each input's buffer at its
    block and the output's at `out` of the five blocks; the invariant the scoped rest (the scratch among it) and the
    generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out (iblk1 V c 0 t) (iblk1 V c 1 t) (iblk1 V c 2 t) (iblk1 V c 3 t) (iblk1 V c 4 t)
  Φ _ := Pipeline.ΦA spec1 c
  q := shares
  owed _ := 0

theorem A_eq1 (c : Dev nD) (w : Fin cfg1.W) : (dat1 V out c).A w = V c (Pipeline.arrRef spec1 w) := by
  dsimp only [dat1]

theorem after1_0 (c : Dev nD) (t : Fin cfg1.N) : (dat1 V out c).after 0 t = iblk1 V c 0 t := by dsimp only [dat1]
theorem after1_1 (c : Dev nD) (t : Fin cfg1.N) : (dat1 V out c).after 1 t = iblk1 V c 1 t := by dsimp only [dat1]
theorem after1_2 (c : Dev nD) (t : Fin cfg1.N) : (dat1 V out c).after 2 t = iblk1 V c 2 t := by dsimp only [dat1]
theorem after1_3 (c : Dev nD) (t : Fin cfg1.N) : (dat1 V out c).after 3 t = iblk1 V c 3 t := by dsimp only [dat1]
theorem after1_4 (c : Dev nD) (t : Fin cfg1.N) : (dat1 V out c).after 4 t = iblk1 V c 4 t := by dsimp only [dat1]
theorem after1_5 (c : Dev nD) (t : Fin cfg1.N) :
    (dat1 V out c).after 5 t = out (iblk1 V c 0 t) (iblk1 V c 1 t) (iblk1 V c 2 t) (iblk1 V c 3 t) (iblk1 V c 4 t) := by dsimp only [dat1]

/-! ## Each input's buffer holds its block when the body runs, fetched at that point or not -/

theorem before1_0 (c : Dev nD) (t : Fin cfg1.N) (d) : (dat1 V out c).before 0 t d = iblk1 V c 0 t :=
  ((dat1 V out c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V out c).before 1 t d = iblk1 V c 1 t :=
  ((dat1 V out c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V out c).before 2 t d = iblk1 V c 2 t :=
  ((dat1 V out c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V out c).before 3 t d = iblk1 V c 3 t :=
  ((dat1 V out c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V out c).before 4 t d = iblk1 V c 4 t :=
  ((dat1 V out c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body obligation -/

/-- What the body is called with at point `t`, the windows one by one, -/
def bodyPre1 (c : Dev nD) (t : Fin cfg1.N) : sProp 𝕄 :=
  iprop((dat1 V out c).Φ t.castSucc ∗ (dat1 V out c).owesAt () t.castSucc
    ∗ (∃ d, owns (c : Thread nD τ) (st1_0 t) fullShare ((dat1 V out c).before 0 t d))
    ∗ (∃ d, owns (c : Thread nD τ) (st1_1 t) fullShare ((dat1 V out c).before 1 t d))
    ∗ (∃ d, owns (c : Thread nD τ) (st1_2 t) fullShare ((dat1 V out c).before 2 t d))
    ∗ (∃ d, owns (c : Thread nD τ) (st1_3 t) fullShare ((dat1 V out c).before 3 t d))
    ∗ (∃ d, owns (c : Thread nD τ) (st1_4 t) fullShare ((dat1 V out c).before 4 t d))
    ∗ (∃ d, owns (c : Thread nD τ) (st1_5 t) fullShare ((dat1 V out c).before 5 t d)))

/-- and what it returns. -/
def bodyPost1 (c : Dev nD) (t : Fin cfg1.N) : sProp 𝕄 :=
  iprop((dat1 V out c).Φ t.succ ∗ (dat1 V out c).owesAt () t.succ
    ∗ owns (c : Thread nD τ) (st1_0 t) fullShare ((dat1 V out c).after 0 t)
    ∗ owns (c : Thread nD τ) (st1_1 t) fullShare ((dat1 V out c).after 1 t)
    ∗ owns (c : Thread nD τ) (st1_2 t) fullShare ((dat1 V out c).after 2 t)
    ∗ owns (c : Thread nD τ) (st1_3 t) fullShare ((dat1 V out c).after 3 t)
    ∗ owns (c : Thread nD τ) (st1_4 t) fullShare ((dat1 V out c).after 4 t)
    ∗ owns (c : Thread nD τ) (st1_5 t) fullShare ((dat1 V out c).after 5 t))

/-- The body at any point: the inputs' buffers hold their blocks, the scratch is taken out of the invariant's scoped rest
    and put back, the invariant's other parts and the core's dues pass through unread. -/
theorem sound_body1 (hrun : BodyRuns out) (c : Dev nD) (t : Fin cfg1.N) :
    bodyPre1 V out c t ⊢ wp frame (wpE (defs₀ (F := F)) Variants.none c none) Set.univ (bodyAt1 t) (fun _ => bodyPost1 V out c t) := by
  unfold bodyPre1 bodyPost1 bodyAt1
  simp only [before1_0, before1_1, before1_2, before1_3, before1_4]
  rw [show (dat1 V out c).Φ t.succ = (dat1 V out c).Φ t.castSucc from rfl,
    show (dat1 V out c).owesAt () t.succ = (dat1 V out c).owesAt () t.castSucc from rfl,
    after1_0, after1_1, after1_2, after1_3, after1_4, after1_5,
    show (dat1 V out c).Φ t.castSucc = Pipeline.ΦA spec1 c from rfl]
  unfold Pipeline.ΦA
  rw [scopedRest1_eq]
  iintro ⟨⟨⟨Hs0, Hs1, Hs2, Hs3, Hs4, Hs5, ⟨%fs, Hscr⟩⟩, Hp⟩, Ho, ⟨%d0, H0⟩, ⟨%d1, H1⟩, ⟨%d2, H2⟩, ⟨%d3, H3⟩, ⟨%d4, H4⟩, ⟨%d5, H5⟩⟩
  iapply (hrun c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [Hscr]
  · iexists fs; rw [owns_whole]; iexact Hscr
  iintro ⟨H0, H1, H2, H3, H4, H5, ⟨%fs', Hscr⟩⟩
  isplitl [Hs0 Hs1 Hs2 Hs3 Hs4 Hs5 Hscr Hp]
  · isplitr [Hp]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexists fs'; rw [owns_whole]; exact .rfl
    iexact Hp
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (hrun : BodyRuns out) (c : Dev nD) :
    BodyObligation (dat1 (F := F) V out c) (defs₀ (F := F)) Variants.none () Set.univ := fun t => by
  rw [bigSep_W1, bigSep_W1]
  exact sound_body1 V out hrun c t

end Cert.Kernel.R1

end
-- ==== Proof.KRun.lean ====
/-
  The program's run, segment by segment: the host stretch (two transposes, at the ideal values the format changes being the
  identity), the projection region, the attention region. Between segments every unscoped buffer is held at a named
  valuation: `Gen.V1` after the host stretch; then the same with the fused projection's array at what the first
  region's write-backs leave (`ar0`); then that with the result array at what the second region's write-backs leave
  (`ar1`). The first region's arrays are distinct buffers. The second reads ONE array through three windows: at its
  entry the array's full share is dealt among them (left half, and the two halves of the right half) and at its exit,
  the three holding the same unchanged contents, put back together.
-/
import proofs.«161869_j30837865185684_2_alg».proof.Proof.K0
import proofs.«161869_j30837865185684_2_alg».proof.Proof.K1Data
import proofs.«161869_j30837865185684_2_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (out : R1.OutFn F)

/-! ## The buffers' contents at each boundary -/

/-- The first region's entry contents, read at the TensorCore's references. -/
abbrev E1 (c : Dev nD) (b : Ref sig .tc) : Buf (Elt F) ((c : Thread nD τ).loc b) := Gen.V1 m c b
/-- What the first region's write-backs leave in the fused projection's array. -/
def ar0 (c : Dev nD) : Buf (Elt F) ((c : Thread nD τ).loc main_v4) := (R0.dat0 (E1 m) c).arrAt 3 cfg0.N
/-- Every unscoped buffer after the first region. -/
abbrev W2 (c : Dev nD) : Valuation τ sig (Elt F) := Function.update (Gen.V1 m c) main_v4 (ar0 m c)
abbrev E2 (c : Dev nD) (b : Ref sig .tc) : Buf (Elt F) ((c : Thread nD τ).loc b) := W2 m c b
/-- What the second region's write-backs leave in the result array. -/
def ar1 (c : Dev nD) : Buf (Elt F) ((c : Thread nD τ).loc main_v5) := (R1.dat1 (E2 m) out c).arrAt 5 cfg1.N
/-- Every unscoped buffer after the second region. -/
abbrev W3 (c : Dev nD) : Valuation τ sig (Elt F) := Function.update (W2 m c) main_v5 (ar1 m out c)
abbrev E3 (c : Dev nD) (b : Ref sig .tc) : Buf (Elt F) ((c : Thread nD τ).loc b) := W3 m out c b

/-! ## The proof data family and what rides along -/

/-- Both pipelines' proof data, each at its region's entry contents. -/
def pdats : (p : Fin 2) → (c : Dev nD) → Dat τ (Elt F) Unit ℕ (UR sig nD τ) ℕ (cfgs p) c
  | ⟨0, _⟩ => fun c => R0.dat0 (E1 m) c
  | ⟨1, _⟩ => fun c => R1.dat1 (E2 m) out c

abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)

/-! ## The first region -/

/-- Off the fused projection's array the first region changes nothing. -/
theorem E2_of_ne (c : Dev nD) (b : Ref sig .tc) (h : b ≠ main_v4) : E2 m c b = E1 m c b :=
  Function.update_of_ne (StableHlo.devRef_ne_of_ne h : (Proc.devRef .tc b : DevRef τ sig) ≠ Proc.devRef .tc main_v4) _ _
theorem E2_v4 (c : Dev nD) : E2 m c main_v4 = ar0 m c := Function.update_self _ _ _

theorem hF0 (c : Dev nD) (w : Fin cfg0.W) : (R0.dat0 (E1 m) c).arrAt w cfg0.N = E2 m c (Pipeline.arrRef spec0 w) := by
  match w with
  | ⟨0, _⟩ => exact ((R0.dat0 (E1 m) c).arrAt_in 0 rfl _).trans ((R0.A_eq0 (E1 m) c 0).trans (E2_of_ne m c _ (by decide)).symm)
  | ⟨1, _⟩ => exact ((R0.dat0 (E1 m) c).arrAt_in 1 rfl _).trans ((R0.A_eq0 (E1 m) c 1).trans (E2_of_ne m c _ (by decide)).symm)
  | ⟨2, _⟩ => exact ((R0.dat0 (E1 m) c).arrAt_in 2 rfl _).trans ((R0.A_eq0 (E1 m) c 2).trans (E2_of_ne m c _ (by decide)).symm)
  | ⟨3, _⟩ => exact (E2_v4 m c).symm

theorem hrest0 (c : Dev nD) : ∀ b, b ∉ Finset.univ.image (Pipeline.arrRef spec0) → E2 m c b = E1 m c b := fun b hb =>
  E2_of_ne m c b fun e => hb (Finset.mem_image.mpr ⟨3, Finset.mem_univ _, e.symm⟩)

set_option backward.isDefEq.respectTransparency.types false in
/-- The first region over the thread state: entered with every unscoped buffer at `Gen.V1`, left with them at `W2`. -/
def reg0 (hrun : R1.BodyRuns out) : Pipeline.RegionSeg (pcfgs (F := F)) Gen.adm (pdats m out) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m out) launch0.win launch0.arr_whole c
      ((pdats m out 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m out 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m out 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m out) ((pdats m out 0 c).share_full fun _ => rfl)
      (E1 m c) (E2 m c) ((pdats m out 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region -/

/-- Off the result array the second region changes nothing. -/
theorem E3_of_ne (c : Dev nD) (b : Ref sig .tc) (h : b ≠ main_v5) : E3 m out c b = E2 m c b :=
  Function.update_of_ne (StableHlo.devRef_ne_of_ne h : (Proc.devRef .tc b : DevRef τ sig) ≠ Proc.devRef .tc main_v5) _ _
theorem E3_v5 (c : Dev nD) : E3 m out c main_v5 = ar1 m out c := Function.update_self _ _ _

/-- The buffers behind the second region's six windows are four: the fused projection (three windows), the output
    weight, the output bias and the result. -/
theorem arrRefs1 : Finset.univ.image (Pipeline.arrRef spec1) = {main_v4, main_v3, main_arg4, main_v5} := by decide

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v4) ↦{fullShare} V main_v4) ∗ (((c : Thread nD τ).loc main_v3) ↦{fullShare} V main_v3)
          ∗ (((c : Thread nD τ).loc main_arg4) ↦{fullShare} V main_arg4) ∗ (((c : Thread nD τ).loc main_v5) ↦{fullShare} V main_v5)) := by
  unfold Pipeline.arrBufs
  rw [arrRefs1, bigSep_insert (by decide), bigSep_insert (by decide), bigSep_insert (by decide), bigSep_singleton]
  rfl

/-- The second region's arrays, window by window, each a whole buffer at the window's share. -/
theorem arrays1_eq (c : Dev nD) (Fn : (w : Fin cfg1.W) → Buf (Elt F) ((cfg1.win w).arr.view.loc (c : Thread nD τ))) :
    (R1.dat1 (E2 m) out c).arrays Fn
      = iprop((((c : Thread nD τ).loc main_v4) ↦{fullShare.left} Fn 0) ∗ (((c : Thread nD τ).loc main_v4) ↦{fullShare.right.left} Fn 1)
          ∗ (((c : Thread nD τ).loc main_v4) ↦{fullShare.right.right} Fn 2) ∗ (((c : Thread nD τ).loc main_v3) ↦{fullShare} Fn 3)
          ∗ (((c : Thread nD τ).loc main_arg4) ↦{fullShare} Fn 4) ∗ (((c : Thread nD τ).loc main_v5) ↦{fullShare} Fn 5)) := by
  unfold Dat.arrays
  rw [bigSep_W1, (arr_whole1 0).set_eq_univ, (arr_whole1 3).set_eq_univ, (arr_whole1 4).set_eq_univ, (arr_whole1 5).set_eq_univ]
  rfl

/-- ENTRY: the unscoped buffers make the second region's arrays at their entry contents — the fused projection's full
    share dealt among its three windows — and the rest. -/
theorem entry1 (c : Dev nD) :
    (unscopedBufs (Ix := Unit) (Name := ℕ) (U := UR sig nD τ) (Lvl := ℕ) c (E2 m c) : sProp 𝕄)
      ⊢ iprop((R1.dat1 (E2 m) out c).arrays ((R1.dat1 (E2 m) out c).arrAt · 0)
          ∗ Pipeline.unscopedRest (Ix := Unit) (Name := ℕ) (U := UR sig nD τ) (Lvl := ℕ) spec1 c (E2 m c)) := by
  rw [Pipeline.unscopedBufs_split₀ cfgs 1 winFacts₀1.arr_unscoped c (E2 m c)]
  refine sep_mono ?_ .rfl
  refine (Entails.of_eq (arrBufs1_eq c (E2 m c))).trans ?_
  rw [arrays1_eq]
  iintro ⟨H4, H3, Ha, H5⟩
  ihave H4 := (pointsTo_share (PosShare.mem_left_op_right fullShare)).1 $$ H4
  icases H4 with ⟨H4l, H4r⟩
  ihave H4r := (pointsTo_share (PosShare.mem_left_op_right fullShare.right)).1 $$ H4r
  icases H4r with ⟨H4rl, H4rr⟩
  isplitl [H4l]; · iexact H4l
  isplitl [H4rl]; · iexact H4rl
  isplitl [H4rr]; · iexact H4rr
  isplitl [H3]; · iexact H3
  isplitl [Ha]; · iexact Ha
  iexact H5

/-- EXIT: the arrays at their final contents — the three windows on the fused projection holding the same unchanged
    contents, their shares put back together; the result array at what the write-backs left — and the rest make the
    unscoped buffers at `W3`. -/
theorem exit1 (c : Dev nD) :
    iprop((R1.dat1 (E2 m) out c).arrays ((R1.dat1 (E2 m) out c).arrAt · cfg1.N)
        ∗ Pipeline.unscopedRest (Ix := Unit) (Name := ℕ) (U := UR sig nD τ) (Lvl := ℕ) spec1 c (E2 m c))
      ⊢ (unscopedBufs (Ix := Unit) (Name := ℕ) (U := UR sig nD τ) (Lvl := ℕ) c (E3 m out c) : sProp 𝕄) := by
  rw [Pipeline.unscopedBufs_split₀ cfgs 1 winFacts₀1.arr_unscoped c (E3 m out c)]
  refine sep_mono ?_ (Entails.of_eq ?_)
  · refine BIBase.Entails.trans ?_ (Entails.of_eq (arrBufs1_eq c (E3 m out c)).symm)
    rw [arrays1_eq,
      show (R1.dat1 (E2 m) out c).arrAt 0 cfg1.N = E3 m out c main_v4 from
        ((R1.dat1 (E2 m) out c).arrAt_in 0 rfl _).trans ((R1.A_eq1 (E2 m) out c 0).trans (E3_of_ne m out c main_v4 (by decide)).symm),
      show (R1.dat1 (E2 m) out c).arrAt 1 cfg1.N = E3 m out c main_v4 from
        ((R1.dat1 (E2 m) out c).arrAt_in 1 rfl _).trans ((R1.A_eq1 (E2 m) out c 1).trans (E3_of_ne m out c main_v4 (by decide)).symm),
      show (R1.dat1 (E2 m) out c).arrAt 2 cfg1.N = E3 m out c main_v4 from
        ((R1.dat1 (E2 m) out c).arrAt_in 2 rfl _).trans ((R1.A_eq1 (E2 m) out c 2).trans (E3_of_ne m out c main_v4 (by decide)).symm),
      show (R1.dat1 (E2 m) out c).arrAt 3 cfg1.N = E3 m out c main_v3 from
        ((R1.dat1 (E2 m) out c).arrAt_in 3 rfl _).trans ((R1.A_eq1 (E2 m) out c 3).trans (E3_of_ne m out c main_v3 (by decide)).symm),
      show (R1.dat1 (E2 m) out c).arrAt 4 cfg1.N = E3 m out c main_arg4 from
        ((R1.dat1 (E2 m) out c).arrAt_in 4 rfl _).trans ((R1.A_eq1 (E2 m) out c 4).trans (E3_of_ne m out c main_arg4 (by decide)).symm),
      show (R1.dat1 (E2 m) out c).arrAt 5 cfg1.N = E3 m out c main_v5 from (E3_v5 m out c).symm]
    iintro ⟨H0, H1, H2, H3, Ha, H5⟩
    ihave H12 := (pointsTo_share (PosShare.mem_left_op_right fullShare.right)).2 $$ [H1 H2]
    · isplitl [H1]; · iexact H1
      iexact H2
    ihave H4 := (pointsTo_share (PosShare.mem_left_op_right fullShare)).2 $$ [H0 H12]
    · isplitl [H0]; · iexact H0
      iexact H12
    isplitl [H4]; · iexact H4
    isplitl [H3]; · iexact H3
    isplitl [Ha]; · iexact Ha
    iexact H5
  · unfold Pipeline.unscopedRest
    exact bigSep_congr fun b hb => by
      rw [E3_of_ne m out c b fun e => (Finset.mem_sdiff.mp hb).2 (Finset.mem_image.mpr ⟨5, Finset.mem_univ _, e.symm⟩)]

set_option backward.isDefEq.respectTransparency.types false in
/-- The second region over the thread state: entered with every unscoped buffer at `W2`, left with them at `W3`. -/
def reg1 (hrun : R1.BodyRuns out) : Pipeline.RegionSeg (pcfgs (F := F)) Gen.adm (pdats m out) () defs₀ 𝒱₀ L lv 1 where
  win := winFacts₀1
  block_pos := block_pos1
  stage_whole := stage_whole1
  K := PEmpty
  osem k := k.elim
  ho := Pipeline.OwnSemFacts.none _
  hbody c := (R1.body_obligation1 (E2 m) out hrun c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m out c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := entry1 m out c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m out 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m out 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m out c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at `W3`, the generator register at some state. -/
abbrev Tₙ (c : Dev nD) : sProp 𝕄 := iprop(StableHlo.held (c : Thread nD τ) (Pipeline.ucRefs τ sig) (W3 m out c) ∗ ∃ r, prngReg c r)

set_option backward.isDefEq.respectTransparency.types false in
/-- THE RUN: from any memory with zero counters every weakly fair execution of the program terminates, nothing faulting,
    and the final memory holds every unscoped buffer at `W3`: the launch contents through the host stretch, the fused
    projection's array at what the first region leaves, the result array at what the second leaves. -/
theorem run_named (hrun : R1.BodyRuns out) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W3 m out c b) :=
  Pipeline.θ_run_regions_kit_dev (pcfgs (F := F)) Gen.adm (pdats m out) () cellOf_inj emb₁ defs₀ 𝒱₀ L lv m ρ main
    (fun _ => [.host (Gen.seg0 m 𝒱₀ L lv (fun _ => R)), .region (reg0 m out hrun), .region (reg1 m out hrun)])
    (fun c Q => by
      rewrite [main_chain c, Pipeline.Seg.run_eq_chain,
        show (([.host (Gen.seg0 m 𝒱₀ L lv (fun _ => R)), .region (reg0 m out hrun), .region (reg1 m out hrun)]
            : List (Pipeline.Seg (pcfgs (F := F)) Gen.adm (pdats m out) () defs₀ 𝒱₀ L lv)).map Pipeline.Seg.prog) = [
          StableHlo.seq hostOps0,
          Prog.lift (.customCall (Pipeline.entry 0) ()),
          Prog.lift (.customCall (Pipeline.entry 1) ()) ] from rfl]
      exact .rfl)
    (fun c => by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m out)
    (hch := fun c => ⟨.rfl, .rfl, .rfl,
      (show (iprop(StableHlo.held (c : Thread nD τ) (Pipeline.ucRefs τ sig) (W3 m out c) ∗ R c) : sProp 𝕄)
          ⊢ iprop(Tₙ m out c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m out c b)
    (hfin := fun c s' => by
      iintro ⟨⟨Hh, -⟩, HSI⟩
      unfold StableHlo.held
      imodintro
      iapply (pointsTo_read_all (Pipeline.ucRefs τ sig) (fun b => (((c : Thread nD τ)).1, b)) (W3 m out c) s')
      isplitl [Hh] <;> iassumption)
    (hQ := fun _ h => h)

/-! ## What the run says of the arguments and of the result -/

theorem W3_arg (c : Dev nD) (b : Ref sig .tc) (h5 : b ≠ main_v5) (h4 : b ≠ main_v4) (hW : b ∉ Gen.hostOps0_W) :
    W3 m out c b = m ((c : Thread nD τ).loc b) :=
  (E3_of_ne m out c b h5).trans ((E2_of_ne m c b h4).trans ((Gen.V1_of m c b hW).trans rfl))

/-- Every argument array ends as launched. -/
theorem frame (hrun : R1.BodyRuns out) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_arg m out c main_arg0 (by decide) (by decide) (by decide)),
     (h c _ (mem_uc main_arg1 (by decide))).trans (W3_arg m out c main_arg1 (by decide) (by decide) (by decide)),
     (h c _ (mem_uc main_arg2 (by decide))).trans (W3_arg m out c main_arg2 (by decide) (by decide) (by decide)),
     (h c _ (mem_uc main_arg3 (by decide))).trans (W3_arg m out c main_arg3 (by decide) (by decide) (by decide)),
     (h c _ (mem_uc main_arg4 (by decide))).trans (W3_arg m out c main_arg4 (by decide) (by decide) (by decide))⟩)
    (run_named m out hrun ρ)

/-- The result array ends at what the second region's write-backs leave, and every argument as launched. -/
theorem run_result (hrun : R1.BodyRuns out) (ρ : Dev nD → PrngReg) :
    θ_run defs (onTc (τ := τ) (main (F := F))) ⟨m, fun _ => 0, ρ⟩ (fun r => ∀ c : Dev nD,
      r.2.mem ((c.tc : Thread nD τ).loc main_v5) = ar1 m out c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v5 (by decide))).trans (E3_v5 m out c),
     (h c _ (mem_uc main_arg0 (by decide))).trans (W3_arg m out c main_arg0 (by decide) (by decide) (by decide)),
     (h c _ (mem_uc main_arg1 (by decide))).trans (W3_arg m out c main_arg1 (by decide) (by decide) (by decide)),
     (h c _ (mem_uc main_arg2 (by decide))).trans (W3_arg m out c main_arg2 (by decide) (by decide) (by decide)),
     (h c _ (mem_uc main_arg3 (by decide))).trans (W3_arg m out c main_arg3 (by decide) (by decide) (by decide)),
     (h c _ (mem_uc main_arg4 (by decide))).trans (W3_arg m out c main_arg4 (by decide) (by decide) (by decide))⟩)
    (run_named m out hrun ρ)

end Cert.Kernel.Run

end
-- ==== Proof.KI1Body.lean ====
/-
  The body of the fused attention + output-projection kernel, as a triple.

  The body runs twelve heads. Head `h` reads the column slabs `64 h … 64 h + 63` of the query block
  `[1,256,768]`, of the key block `[1,2048,768]` and of the value block `[1,2048,768]`, computes a
  `[256,64]` result from them alone, and stores it into columns `64 h … 64 h + 63` of a `[256,768]` scratch
  (the slab it loads from the scratch just before is not used). The twelve slabs tile the scratch, so what the
  whole-scratch load then reads is a function of the three input blocks only, whatever the scratch held before:
  `scr1`. One store of the whole output block follows, of the output projection of that scratch by the weight
  block plus the bias: `out1_5`. The input blocks are only read, and end as they were.
-/
import proofs.«161869_j30837865185684_2_alg».proof.Proof.Gen.KernelIdeal.Skeleton
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes

Head `h` (of twelve) reads columns `64 h … 64 h + 63` of the query, key and value blocks and writes the same
columns of the scratch. -/

abbrev rq0 : Rect S1x256x768 := Rect.unit (s := S1x256x768) ![0, 0, 0] S1x256x64.size inb_S1x256x768_S1x256x64_0_0_0
abbrev rk0 : Rect S1x2048x768 := Rect.unit (s := S1x2048x768) ![0, 0, 0] S1x2048x64.size inb_S1x2048x768_S1x2048x64_0_0_0
abbrev rs0 : Rect S256x768 := Rect.unit (s := S256x768) ![0, 0] S256x64.size inb_S256x768_S256x64_0_0
abbrev rq1 : Rect S1x256x768 := Rect.unit (s := S1x256x768) ![0, 0, 64] S1x256x64.size inb_S1x256x768_S1x256x64_0_0_64
abbrev rk1 : Rect S1x2048x768 := Rect.unit (s := S1x2048x768) ![0, 0, 64] S1x2048x64.size inb_S1x2048x768_S1x2048x64_0_0_64
abbrev rs1 : Rect S256x768 := Rect.unit (s := S256x768) ![0, 64] S256x64.size inb_S256x768_S256x64_0_64
abbrev rq2 : Rect S1x256x768 := Rect.unit (s := S1x256x768) ![0, 0, 128] S1x256x64.size inb_S1x256x768_S1x256x64_0_0_128
abbrev rk2 : Rect S1x2048x768 := Rect.unit (s := S1x2048x768) ![0, 0, 128] S1x2048x64.size inb_S1x2048x768_S1x2048x64_0_0_128
abbrev rs2 : Rect S256x768 := Rect.unit (s := S256x768) ![0, 128] S256x64.size inb_S256x768_S256x64_0_128
abbrev rq3 : Rect S1x256x768 := Rect.unit (s := S1x256x768) ![0, 0, 192] S1x256x64.size inb_S1x256x768_S1x256x64_0_0_192
abbrev rk3 : Rect S1x2048x768 := Rect.unit (s := S1x2048x768) ![0, 0, 192] S1x2048x64.size inb_S1x2048x768_S1x2048x64_0_0_192
abbrev rs3 : Rect S256x768 := Rect.unit (s := S256x768) ![0, 192] S256x64.size inb_S256x768_S256x64_0_192
abbrev rq4 : Rect S1x256x768 := Rect.unit (s := S1x256x768) ![0, 0, 256] S1x256x64.size inb_S1x256x768_S1x256x64_0_0_256
abbrev rk4 : Rect S1x2048x768 := Rect.unit (s := S1x2048x768) ![0, 0, 256] S1x2048x64.size inb_S1x2048x768_S1x2048x64_0_0_256
abbrev rs4 : Rect S256x768 := Rect.unit (s := S256x768) ![0, 256] S256x64.size inb_S256x768_S256x64_0_256
abbrev rq5 : Rect S1x256x768 := Rect.unit (s := S1x256x768) ![0, 0, 320] S1x256x64.size inb_S1x256x768_S1x256x64_0_0_320
abbrev rk5 : Rect S1x2048x768 := Rect.unit (s := S1x2048x768) ![0, 0, 320] S1x2048x64.size inb_S1x2048x768_S1x2048x64_0_0_320
abbrev rs5 : Rect S256x768 := Rect.unit (s := S256x768) ![0, 320] S256x64.size inb_S256x768_S256x64_0_320
abbrev rq6 : Rect S1x256x768 := Rect.unit (s := S1x256x768) ![0, 0, 384] S1x256x64.size inb_S1x256x768_S1x256x64_0_0_384
abbrev rk6 : Rect S1x2048x768 := Rect.unit (s := S1x2048x768) ![0, 0, 384] S1x2048x64.size inb_S1x2048x768_S1x2048x64_0_0_384
abbrev rs6 : Rect S256x768 := Rect.unit (s := S256x768) ![0, 384] S256x64.size inb_S256x768_S256x64_0_384
abbrev rq7 : Rect S1x256x768 := Rect.unit (s := S1x256x768) ![0, 0, 448] S1x256x64.size inb_S1x256x768_S1x256x64_0_0_448
abbrev rk7 : Rect S1x2048x768 := Rect.unit (s := S1x2048x768) ![0, 0, 448] S1x2048x64.size inb_S1x2048x768_S1x2048x64_0_0_448
abbrev rs7 : Rect S256x768 := Rect.unit (s := S256x768) ![0, 448] S256x64.size inb_S256x768_S256x64_0_448
abbrev rq8 : Rect S1x256x768 := Rect.unit (s := S1x256x768) ![0, 0, 512] S1x256x64.size inb_S1x256x768_S1x256x64_0_0_512
abbrev rk8 : Rect S1x2048x768 := Rect.unit (s := S1x2048x768) ![0, 0, 512] S1x2048x64.size inb_S1x2048x768_S1x2048x64_0_0_512
abbrev rs8 : Rect S256x768 := Rect.unit (s := S256x768) ![0, 512] S256x64.size inb_S256x768_S256x64_0_512
abbrev rq9 : Rect S1x256x768 := Rect.unit (s := S1x256x768) ![0, 0, 576] S1x256x64.size inb_S1x256x768_S1x256x64_0_0_576
abbrev rk9 : Rect S1x2048x768 := Rect.unit (s := S1x2048x768) ![0, 0, 576] S1x2048x64.size inb_S1x2048x768_S1x2048x64_0_0_576
abbrev rs9 : Rect S256x768 := Rect.unit (s := S256x768) ![0, 576] S256x64.size inb_S256x768_S256x64_0_576
abbrev rq10 : Rect S1x256x768 := Rect.unit (s := S1x256x768) ![0, 0, 640] S1x256x64.size inb_S1x256x768_S1x256x64_0_0_640
abbrev rk10 : Rect S1x2048x768 := Rect.unit (s := S1x2048x768) ![0, 0, 640] S1x2048x64.size inb_S1x2048x768_S1x2048x64_0_0_640
abbrev rs10 : Rect S256x768 := Rect.unit (s := S256x768) ![0, 640] S256x64.size inb_S256x768_S256x64_0_640
abbrev rq11 : Rect S1x256x768 := Rect.unit (s := S1x256x768) ![0, 0, 704] S1x256x64.size inb_S1x256x768_S1x256x64_0_0_704
abbrev rk11 : Rect S1x2048x768 := Rect.unit (s := S1x2048x768) ![0, 0, 704] S1x2048x64.size inb_S1x2048x768_S1x2048x64_0_0_704
abbrev rs11 : Rect S256x768 := Rect.unit (s := S256x768) ![0, 704] S256x64.size inb_S256x768_S256x64_0_704
abbrev rsW : Rect S256x768 := Rect.unit (s := S256x768) ![0, 0] S256x768.size inb_S256x768_S256x768_0_0
abbrev rw5 : Rect S768x768 := Rect.unit (s := S768x768) ![0, 0] S768x768.size inb_S768x768_S768x768_0_0
abbrev rb6 : Rect S768 := Rect.unit (s := S768) ![0] S768.size inb_S768_S768_0
abbrev ro7 : Rect S1x256x768 := Rect.unit (s := S1x256x768) ![0, 0, 0] S1x256x768.size inb_S1x256x768_S1x256x768_0_0_0

/-! ## What the body leaves -/

/-- The scratch after the twelve slab stores: the canonical contents of the twelve pieces, last first; piece `h`
    is the rectangle of columns `64 h … 64 h + 63` with head `h`'s result over the three column slabs. -/
def scr1 (x0 : Vec F S1x256x768 .bf16) (x1 x2 : Vec F S1x2048x768 .bf16) : Vec F S256x768 .f32 :=
  View.canon [
    ⟨rs11, k1_pay1 (k1_pay25 (View.ld x0 rq11) (View.ld x1 rk11) (View.ld x2 rk11))⟩,
    ⟨rs10, k1_pay24 (k1_pay22 (View.ld x2 rk10)) (k1_pay23 (View.ld x0 rq10) (View.ld x1 rk10)) (Scalar.ofBits .f32 0x3E000000#32)⟩,
    ⟨rs9, k1_pay21 (View.ld x0 rq9) (View.ld x1 rk9) (View.ld x2 rk9)⟩,
    ⟨rs8, k1_pay20 (k1_pay19 (View.ld x0 rq8) (View.ld x1 rk8) (View.ld x2 rk8))⟩,
    ⟨rs7, k1_pay18 (k1_pay16 (View.ld x2 rk7)) (k1_pay17 (View.ld x0 rq7) (View.ld x1 rk7)) (Scalar.ofBits .f32 0x3E000000#32)⟩,
    ⟨rs6, k1_pay15 (View.ld x0 rq6) (View.ld x1 rk6) (View.ld x2 rk6)⟩,
    ⟨rs5, k1_pay14 (k1_pay13 (View.ld x0 rq5) (View.ld x1 rk5) (View.ld x2 rk5))⟩,
    ⟨rs4, k1_pay12 (k1_pay10 (View.ld x2 rk4)) (k1_pay11 (View.ld x0 rq4) (View.ld x1 rk4)) (Scalar.ofBits .f32 0x3E000000#32)⟩,
    ⟨rs3, k1_pay9 (View.ld x0 rq3) (View.ld x1 rk3) (View.ld x2 rk3)⟩,
    ⟨rs2, k1_pay8 (k1_pay7 (View.ld x0 rq2) (View.ld x1 rk2) (View.ld x2 rk2))⟩,
    ⟨rs1, k1_pay6 (k1_pay4 (View.ld x2 rk1)) (k1_pay5 (View.ld x0 rq1) (View.ld x1 rk1)) (Scalar.ofBits .f32 0x3E000000#32)⟩,
    ⟨rs0, k1_pay3 (View.ld x0 rq0) (View.ld x1 rk0) (View.ld x2 rk0)⟩]

/-- The output block after its one store: the output projection of the whole scratch, plus the bias. -/
def out1_5 (x0 : Vec F S1x256x768 .bf16) (x1 x2 : Vec F S1x2048x768 .bf16) (x3 : Vec F S768x768 .bf16) (x4 : Vec F S768 .f32) : Vec F S1x256x768 .f32 :=
  View.canon [⟨ro7, k1_pay2 (View.ld (scr1 x0 x1 x2) rsW) (View.ld x3 rw5) (View.ld x4 rb6)⟩]

/-- The one store of the output block covers it. -/
theorem cover1_5 (p0 : ro7.shape.Idx → Elt F .f32) (y : S1x256x768.Idx) :
    ∃ pc ∈ ([⟨ro7, p0⟩] : List (View.Piece (Elt F) S1x256x768 .f32)), y ∈ pc.1.set :=
  View.cover_of_tiled [⟨ro7, p0⟩] S1x256x768.size (by rfl) y

/-! ## The body's triple -/

set_option maxHeartbeats 4000000 in
/-- From the five input blocks held whole at `x0 … x4`, and the output block and the scratch held whole at
    anything, the body runs to its return holding the inputs as they were, the output block at `out1_5` of the
    inputs, and the scratch at something. The value the whole-scratch load reads is the canonical contents of the
    twelve slab stores read through the whole rectangle — no cover is needed for that, since a read of stores over
    arbitrary prior contents through a box the stores fill is the canonical contents at the box's indices —, and the
    output's one store covers the output block. -/
theorem sound_kernel1 (c : Dev nD) (E : Set ℕ) (i : grid1.Coords)
    (arg2 : Memref sig .tc .vmem S1x256x768 .bf16) (harg2 : arg2.IsWhole) (arg3 : Memref sig .tc .vmem S1x2048x768 .bf16) (harg3 : arg3.IsWhole)
    (arg4 : Memref sig .tc .vmem S1x2048x768 .bf16) (harg4 : arg4.IsWhole) (arg5 : Memref sig .tc .vmem S768x768 .bf16) (harg5 : arg5.IsWhole)
    (arg6 : Memref sig .tc .vmem S768 .f32) (harg6 : arg6.IsWhole) (arg7 : Memref sig .tc .vmem S1x256x768 .f32) (harg7 : arg7.IsWhole)
    (arg8 : Memref sig .tc .vmem S256x768 .f32) (harg8 : arg8.IsWhole)
    (x0 : Vec F S1x256x768 .bf16) (x1 x2 : Vec F S1x2048x768 .bf16) (x3 : Vec F S768x768 .bf16) (x4 : Vec F S768 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4) ∗ (∃ d, owns (c : Thread nD τ) arg8 fullShare d)) -∗ K ⟨⟩))
      ⊢ wp frame (wpE (defs₀ (F := F)) Variants.none c none) E
          (cc1__fused_attn_out_kernel i arg2 harg2 arg3 harg3 arg4 harg4 arg5 harg5 arg6 harg6 arg7 harg7 arg8 harg8) K := by
  simp only [cc1__fused_attn_out_kernel_eq_skeleton]; unfold cc1__fused_attn_out_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf2 hf3 hf4 hf5 hf6
  sl_exec_parts
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover1_5 _)).trans ?_
    unfold out1_5 scr1
    sl_unfold_run_names
    rw [View.readCov_eq_canon']
    rfl
  iexists _; iexists _; isplitr
  swap; · iexact H8
  ipureintro; rfl

end Cert.KernelIdeal.R1

end
-- ==== Proof.KI0.lean ====
/- REGION 0 of the idealized kernel's @main: the fused QKV projection `cc0__linear_bias_kernel` on its 4×4 grid.

   Each point of the grid takes one block of 512 rows of one batch of the activations (window 0), the whole
   transposed weight (window 1) and the whole bias (window 2), and leaves in the output window's buffer (window 3)
   the one value the body stores: rows · weight + bias, cut to bf16. The body also loads the output buffer before
   it overwrites it; that load's value is used nowhere, so the buffer may hold anything when the body starts.

   Everything here is stated at a parameter `V`, the TensorCore's buffer contents when the region is entered, and
   generic in the float instance. -/
import proofs.«161869_j30837865185684_2_alg».proof.Proof.Gen.KernelIdeal.Launch
import proofs.«161869_j30837865185684_2_alg».proof.Proof.Gen.KernelIdeal.Skeleton
import proofs.«161869_j30837865185684_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the part of its array, as the region finds it, that the window's index map
    selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' buffer holds the point's block whenever the body is called: it is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's buffer holds the (one) block at every point although it is fetched only at the first: its block
    index never moves and the body leaves the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the bias. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every one is the whole of its buffer -/

abbrev r0_0 : Rect S1x512x768 := Rect.unit (s := S1x512x768) ![0, 0, 0] S1x512x768.size inb_S1x512x768_S1x512x768_0_0_0
abbrev r0_1 : Rect S768x2304 := Rect.unit (s := S768x2304) ![0, 0] S768x2304.size inb_S768x2304_S768x2304_0_0
abbrev r0_2 : Rect S2304 := Rect.unit (s := S2304) ![0] S2304.size inb_S2304_S2304_0
abbrev r0_3 : Rect S1x512x2304 := Rect.unit (s := S1x512x2304) ![0, 0, 0] S1x512x2304.size inb_S1x512x2304_S1x512x2304_0_0_0

/-! ## What the body leaves in the output window's buffer -/

/-- The output buffer after the body, from the three input blocks: its one store, of the skeleton's payload of the
    three loads, laid over the buffer. -/
def out0_3 (x0 : Vec F S1x512x768 .f32) (x1 : Vec F S768x2304 .bf16) (x2 : Vec F S2304 .f32) : Vec F S1x512x2304 .bf16 :=
  View.canon [⟨r0_3, k0_pay1 (View.ld x0 r0_0) (View.ld x1 r0_1) (View.ld x2 r0_2)⟩]

/-- The one store is of the whole buffer, so it covers it. -/
theorem cover0_3 (p0 : Vec F S1x512x2304 .bf16) (y : S1x512x2304.Idx) :
    ∃ pc ∈ ([⟨r0_3, p0⟩] : List (View.Piece (Elt F) S1x512x2304 .bf16)), y ∈ pc.1.set :=
  View.cover_of_tiled [⟨r0_3, p0⟩] S1x512x2304.size (by rfl) y

/-! ## The body's triple -/

set_option maxHeartbeats 1000000 in
/-- The body on whole staging memrefs, the three inputs' at contents `x0 x1 x2` and the output's at anything, runs to
    the continuation with the inputs' as they were and the output's at `out0_3 x0 x1 x2`. -/
theorem sound_kernel0 (c : Dev nD) (E : Set ℕ) (i : grid0.Coords)
    (arg0 : Memref sig .tc .vmem S1x512x768 .f32) (harg0 : arg0.IsWhole) (arg1 : Memref sig .tc .vmem S768x2304 .bf16) (harg1 : arg1.IsWhole)
    (arg2 : Memref sig .tc .vmem S2304 .f32) (harg2 : arg2.IsWhole) (arg3 : Memref sig .tc .vmem S1x512x2304 .bf16) (harg3 : arg3.IsWhole)
    (x0 : Vec F S1x512x768 .f32) (x1 : Vec F S768x2304 .bf16) (x2 : Vec F S2304 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__linear_bias_kernel i arg0 harg0 arg1 harg1 arg2 harg2 arg3 harg3) K := by
  simp only [cc0__linear_bias_kernel_eq_skeleton]; unfold cc0__linear_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each
    input's buffer still at its block and the output's at `out0_3` of the three input blocks; the invariant that
    the scoped rest and the generator register are untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.KI1Data.lean ====
/-
  The second kernel region (attention and output projection) as the pipeline sees it: at each of the 4 × 8 grid points
  the body is handed a query block of 256 rows, the whole key and value blocks of the point's batch, the output weight
  and bias, and leaves in the output window's buffer one function `out` of those five blocks; every value the body reads
  from the scratch buffer and uses was stored there earlier at the same point, so nothing is carried from point to point. The query, key and
  value windows read ONE array (the fused projection), so the array's share is dealt among the three: the left half,
  and the two halves of the right half.
  Everything here is stated for an arbitrary result function `out` and under the hypothesis `BodyRuns out` (the body's
  triple: run on whole buffers holding the five blocks, it ends with the output buffer at `out` of them).
-/
import proofs.«161869_j30837865185684_2_alg».proof.Proof.Gen.KernelIdeal.Launch
import proofs.«161869_j30837865185684_2_alg».proof.Proof.Gen.KernelIdeal.Skeleton
import proofs.«161869_j30837865185684_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A result block as a function of the query, key and value blocks, the output weight and the output bias. -/
abbrev OutFn (F : FTy → Type) [FloatOps F] : Type :=
  Vec F S1x256x768 .bf16 → Vec F S1x2048x768 .bf16 → Vec F S1x2048x768 .bf16 → Vec F S768x768 .bf16 → Vec F S768 .f32 → Vec F S1x256x768 .f32

/-- The body's triple for a result function: on whole buffers holding the five blocks, the output buffer and the scratch at
    any contents, the body runs and leaves the five as they were, the output buffer at `out` of them, the scratch at some
    contents. -/
def BodyRuns (out : OutFn F) : Prop :=
  ∀ (c : Dev nD) (E : Set ℕ) (i : grid1.Coords) (arg2 : Memref sig .tc .vmem S1x256x768 .bf16) (harg2 : arg2.IsWhole) (arg3 : Memref sig .tc .vmem S1x2048x768 .bf16) (harg3 : arg3.IsWhole) (arg4 : Memref sig .tc .vmem S1x2048x768 .bf16) (harg4 : arg4.IsWhole) (arg5 : Memref sig .tc .vmem S768x768 .bf16) (harg5 : arg5.IsWhole) (arg6 : Memref sig .tc .vmem S768 .f32) (harg6 : arg6.IsWhole) (arg7 : Memref sig .tc .vmem S1x256x768 .f32) (harg7 : arg7.IsWhole) (arg8 : Memref sig .tc .vmem S256x768 .f32) (harg8 : arg8.IsWhole)
    (x0 : Vec F S1x256x768 .bf16) (x1 x2 : Vec F S1x2048x768 .bf16) (x3 : Vec F S768x768 .bf16) (x4 : Vec F S768 .f32) (K : PUnit → sProp 𝕄),
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out x0 x1 x2 x3 x4) ∗ (∃ d, owns (c : Thread nD τ) arg8 fullShare d)) -∗ K ⟨⟩))
      ⊢ wp frame (wpE (defs₀ (F := F)) Variants.none c none) E (cc1__fused_attn_out_kernel i arg2 harg2 arg3 harg3 arg4 harg4 arg5 harg5 arg6 harg6 arg7 harg7 arg8 harg8) K

variable (V : (c : Dev nD) → (b : Ref sig .tc) → Buf (Elt F) ((c : Thread nD τ).loc b)) (out : OutFn F)

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The share of its array each window holds: the fused projection's is dealt among the query, key and value windows. -/
def shares : Fin cfg1.W → PosShare TreeShare
  | ⟨0, _⟩ => fullShare.left
  | ⟨1, _⟩ => fullShare.right.left
  | ⟨2, _⟩ => fullShare.right.right
  | ⟨3, _⟩ => fullShare
  | ⟨4, _⟩ => fullShare
  | ⟨5, _⟩ => fullShare

/-! ## The proof data -/

/-- Pipeline 1's proof data on core `c`: the arrays as the region finds them; after the body each input's buffer at its
    block and the output's at `out` of the five blocks; the invariant the scoped rest (the scratch among it) and the
    generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out (iblk1 V c 0 t) (iblk1 V c 1 t) (iblk1 V c 2 t) (iblk1 V c 3 t) (iblk1 V c 4 t)
  Φ _ := Pipeline.ΦA spec1 c
  q := shares
  owed _ := 0

theorem A_eq1 (c : Dev nD) (w : Fin cfg1.W) : (dat1 V out c).A w = V c (Pipeline.arrRef spec1 w) := by
  dsimp only [dat1]

theorem after1_0 (c : Dev nD) (t : Fin cfg1.N) : (dat1 V out c).after 0 t = iblk1 V c 0 t := by dsimp only [dat1]
theorem after1_1 (c : Dev nD) (t : Fin cfg1.N) : (dat1 V out c).after 1 t = iblk1 V c 1 t := by dsimp only [dat1]
theorem after1_2 (c : Dev nD) (t : Fin cfg1.N) : (dat1 V out c).after 2 t = iblk1 V c 2 t := by dsimp only [dat1]
theorem after1_3 (c : Dev nD) (t : Fin cfg1.N) : (dat1 V out c).after 3 t = iblk1 V c 3 t := by dsimp only [dat1]
theorem after1_4 (c : Dev nD) (t : Fin cfg1.N) : (dat1 V out c).after 4 t = iblk1 V c 4 t := by dsimp only [dat1]
theorem after1_5 (c : Dev nD) (t : Fin cfg1.N) :
    (dat1 V out c).after 5 t = out (iblk1 V c 0 t) (iblk1 V c 1 t) (iblk1 V c 2 t) (iblk1 V c 3 t) (iblk1 V c 4 t) := by dsimp only [dat1]

/-! ## Each input's buffer holds its block when the body runs, fetched at that point or not -/

theorem before1_0 (c : Dev nD) (t : Fin cfg1.N) (d) : (dat1 V out c).before 0 t d = iblk1 V c 0 t :=
  ((dat1 V out c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V out c).before 1 t d = iblk1 V c 1 t :=
  ((dat1 V out c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V out c).before 2 t d = iblk1 V c 2 t :=
  ((dat1 V out c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V out c).before 3 t d = iblk1 V c 3 t :=
  ((dat1 V out c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V out c).before 4 t d = iblk1 V c 4 t :=
  ((dat1 V out c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body obligation -/

/-- What the body is called with at point `t`, the windows one by one, -/
def bodyPre1 (c : Dev nD) (t : Fin cfg1.N) : sProp 𝕄 :=
  iprop((dat1 V out c).Φ t.castSucc ∗ (dat1 V out c).owesAt () t.castSucc
    ∗ (∃ d, owns (c : Thread nD τ) (st1_0 t) fullShare ((dat1 V out c).before 0 t d))
    ∗ (∃ d, owns (c : Thread nD τ) (st1_1 t) fullShare ((dat1 V out c).before 1 t d))
    ∗ (∃ d, owns (c : Thread nD τ) (st1_2 t) fullShare ((dat1 V out c).before 2 t d))
    ∗ (∃ d, owns (c : Thread nD τ) (st1_3 t) fullShare ((dat1 V out c).before 3 t d))
    ∗ (∃ d, owns (c : Thread nD τ) (st1_4 t) fullShare ((dat1 V out c).before 4 t d))
    ∗ (∃ d, owns (c : Thread nD τ) (st1_5 t) fullShare ((dat1 V out c).before 5 t d)))

/-- and what it returns. -/
def bodyPost1 (c : Dev nD) (t : Fin cfg1.N) : sProp 𝕄 :=
  iprop((dat1 V out c).Φ t.succ ∗ (dat1 V out c).owesAt () t.succ
    ∗ owns (c : Thread nD τ) (st1_0 t) fullShare ((dat1 V out c).after 0 t)
    ∗ owns (c : Thread nD τ) (st1_1 t) fullShare ((dat1 V out c).after 1 t)
    ∗ owns (c : Thread nD τ) (st1_2 t) fullShare ((dat1 V out c).after 2 t)
    ∗ owns (c : Thread nD τ) (st1_3 t) fullShare ((dat1 V out c).after 3 t)
    ∗ owns (c : Thread nD τ) (st1_4 t) fullShare ((dat1 V out c).after 4 t)
    ∗ owns (c : Thread nD τ) (st1_5 t) fullShare ((dat1 V out c).after 5 t))

/-- The body at any point: the inputs' buffers hold their blocks, the scratch is taken out of the invariant's scoped rest
    and put back, the invariant's other parts and the core's dues pass through unread. -/
theorem sound_body1 (hrun : BodyRuns out) (c : Dev nD) (t : Fin cfg1.N) :
    bodyPre1 V out c t ⊢ wp frame (wpE (defs₀ (F := F)) Variants.none c none) Set.univ (bodyAt1 t) (fun _ => bodyPost1 V out c t) := by
  unfold bodyPre1 bodyPost1 bodyAt1
  simp only [before1_0, before1_1, before1_2, before1_3, before1_4]
  rw [show (dat1 V out c).Φ t.succ = (dat1 V out c).Φ t.castSucc from rfl,
    show (dat1 V out c).owesAt () t.succ = (dat1 V out c).owesAt () t.castSucc from rfl,
    after1_0, after1_1, after1_2, after1_3, after1_4, after1_5,
    show (dat1 V out c).Φ t.castSucc = Pipeline.ΦA spec1 c from rfl]
  unfold Pipeline.ΦA
  rw [scopedRest1_eq]
  iintro ⟨⟨⟨Hs0, Hs1, Hs2, Hs3, Hs4, Hs5, ⟨%fs, Hscr⟩⟩, Hp⟩, Ho, ⟨%d0, H0⟩, ⟨%d1, H1⟩, ⟨%d2, H2⟩, ⟨%d3, H3⟩, ⟨%d4, H4⟩, ⟨%d5, H5⟩⟩
  iapply (hrun c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [Hscr]
  · iexists fs; rw [owns_whole]; iexact Hscr
  iintro ⟨H0, H1, H2, H3, H4, H5, ⟨%fs', Hscr⟩⟩
  isplitl [Hs0 Hs1 Hs2 Hs3 Hs4 Hs5 Hscr Hp]
  · isplitr [Hp]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexists fs'; rw [owns_whole]; exact .rfl
    iexact Hp
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (hrun : BodyRuns out) (c : Dev nD) :
    BodyObligation (dat1 (F := F) V out c) (defs₀ (F := F)) Variants.none () Set.univ := fun t => by
  rw [bigSep_W1, bigSep_W1]
  exact sound_body1 V out hrun c t

end Cert.KernelIdeal.R1

end
-- ==== Proof.KIRun.lean ====
/-
  The program's run, segment by segment: the host stretch (two transposes, at the ideal values the format changes being the
  identity), the projection region, the attention region. Between segments every unscoped buffer is held at a named
  valuation: `Gen.V1` after the host stretch; then the same with the fused projection's array at what the first
  region's write-backs leave (`ar0`); then that with the result array at what the second region's write-backs leave
  (`ar1`). The first region's arrays are distinct buffers. The second reads ONE array through three windows: at its
  entry the array's full share is dealt among them (left half, and the two halves of the right half) and at its exit,
  the three holding the same unchanged contents, put back together.
-/
import proofs.«161869_j30837865185684_2_alg».proof.Proof.KI0
import proofs.«161869_j30837865185684_2_alg».proof.Proof.KI1Data
import proofs.«161869_j30837865185684_2_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (out : R1.OutFn F)

/-! ## The buffers' contents at each boundary -/

/-- The first region's entry contents, read at the TensorCore's references. -/
abbrev E1 (c : Dev nD) (b : Ref sig .tc) : Buf (Elt F) ((c : Thread nD τ).loc b) := Gen.V1 m c b
/-- What the first region's write-backs leave in the fused projection's array. -/
def ar0 (c : Dev nD) : Buf (Elt F) ((c : Thread nD τ).loc main_v4) := (R0.dat0 (E1 m) c).arrAt 3 cfg0.N
/-- Every unscoped buffer after the first region. -/
abbrev W2 (c : Dev nD) : Valuation τ sig (Elt F) := Function.update (Gen.V1 m c) main_v4 (ar0 m c)
abbrev E2 (c : Dev nD) (b : Ref sig .tc) : Buf (Elt F) ((c : Thread nD τ).loc b) := W2 m c b
/-- What the second region's write-backs leave in the result array. -/
def ar1 (c : Dev nD) : Buf (Elt F) ((c : Thread nD τ).loc main_v5) := (R1.dat1 (E2 m) out c).arrAt 5 cfg1.N
/-- Every unscoped buffer after the second region. -/
abbrev W3 (c : Dev nD) : Valuation τ sig (Elt F) := Function.update (W2 m c) main_v5 (ar1 m out c)
abbrev E3 (c : Dev nD) (b : Ref sig .tc) : Buf (Elt F) ((c : Thread nD τ).loc b) := W3 m out c b

/-! ## The proof data family and what rides along -/

/-- Both pipelines' proof data, each at its region's entry contents. -/
def pdats : (p : Fin 2) → (c : Dev nD) → Dat τ (Elt F) Unit ℕ (UR sig nD τ) ℕ (cfgs p) c
  | ⟨0, _⟩ => fun c => R0.dat0 (E1 m) c
  | ⟨1, _⟩ => fun c => R1.dat1 (E2 m) out c

abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)

/-! ## The first region -/

/-- Off the fused projection's array the first region changes nothing. -/
theorem E2_of_ne (c : Dev nD) (b : Ref sig .tc) (h : b ≠ main_v4) : E2 m c b = E1 m c b :=
  Function.update_of_ne (StableHlo.devRef_ne_of_ne h : (Proc.devRef .tc b : DevRef τ sig) ≠ Proc.devRef .tc main_v4) _ _
theorem E2_v4 (c : Dev nD) : E2 m c main_v4 = ar0 m c := Function.update_self _ _ _

theorem hF0 (c : Dev nD) (w : Fin cfg0.W) : (R0.dat0 (E1 m) c).arrAt w cfg0.N = E2 m c (Pipeline.arrRef spec0 w) := by
  match w with
  | ⟨0, _⟩ => exact ((R0.dat0 (E1 m) c).arrAt_in 0 rfl _).trans ((R0.A_eq0 (E1 m) c 0).trans (E2_of_ne m c _ (by decide)).symm)
  | ⟨1, _⟩ => exact ((R0.dat0 (E1 m) c).arrAt_in 1 rfl _).trans ((R0.A_eq0 (E1 m) c 1).trans (E2_of_ne m c _ (by decide)).symm)
  | ⟨2, _⟩ => exact ((R0.dat0 (E1 m) c).arrAt_in 2 rfl _).trans ((R0.A_eq0 (E1 m) c 2).trans (E2_of_ne m c _ (by decide)).symm)
  | ⟨3, _⟩ => exact (E2_v4 m c).symm

theorem hrest0 (c : Dev nD) : ∀ b, b ∉ Finset.univ.image (Pipeline.arrRef spec0) → E2 m c b = E1 m c b := fun b hb =>
  E2_of_ne m c b fun e => hb (Finset.mem_image.mpr ⟨3, Finset.mem_univ _, e.symm⟩)

set_option backward.isDefEq.respectTransparency.types false in
/-- The first region over the thread state: entered with every unscoped buffer at `Gen.V1`, left with them at `W2`. -/
def reg0 (hrun : R1.BodyRuns out) : Pipeline.RegionSeg (pcfgs (F := F)) Gen.adm (pdats m out) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m out) launch0.win launch0.arr_whole c
      ((pdats m out 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m out 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m out 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m out) ((pdats m out 0 c).share_full fun _ => rfl)
      (E1 m c) (E2 m c) ((pdats m out 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region -/

/-- Off the result array the second region changes nothing. -/
theorem E3_of_ne (c : Dev nD) (b : Ref sig .tc) (h : b ≠ main_v5) : E3 m out c b = E2 m c b :=
  Function.update_of_ne (StableHlo.devRef_ne_of_ne h : (Proc.devRef .tc b : DevRef τ sig) ≠ Proc.devRef .tc main_v5) _ _
theorem E3_v5 (c : Dev nD) : E3 m out c main_v5 = ar1 m out c := Function.update_self _ _ _

/-- The buffers behind the second region's six windows are four: the fused projection (three windows), the output
    weight, the output bias and the result. -/
theorem arrRefs1 : Finset.univ.image (Pipeline.arrRef spec1) = {main_v4, main_v3, main_arg4, main_v5} := by decide

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v4) ↦{fullShare} V main_v4) ∗ (((c : Thread nD τ).loc main_v3) ↦{fullShare} V main_v3)
          ∗ (((c : Thread nD τ).loc main_arg4) ↦{fullShare} V main_arg4) ∗ (((c : Thread nD τ).loc main_v5) ↦{fullShare} V main_v5)) := by
  unfold Pipeline.arrBufs
  rw [arrRefs1, bigSep_insert (by decide), bigSep_insert (by decide), bigSep_insert (by decide), bigSep_singleton]
  rfl

/-- The second region's arrays, window by window, each a whole buffer at the window's share. -/
theorem arrays1_eq (c : Dev nD) (Fn : (w : Fin cfg1.W) → Buf (Elt F) ((cfg1.win w).arr.view.loc (c : Thread nD τ))) :
    (R1.dat1 (E2 m) out c).arrays Fn
      = iprop((((c : Thread nD τ).loc main_v4) ↦{fullShare.left} Fn 0) ∗ (((c : Thread nD τ).loc main_v4) ↦{fullShare.right.left} Fn 1)
          ∗ (((c : Thread nD τ).loc main_v4) ↦{fullShare.right.right} Fn 2) ∗ (((c : Thread nD τ).loc main_v3) ↦{fullShare} Fn 3)
          ∗ (((c : Thread nD τ).loc main_arg4) ↦{fullShare} Fn 4) ∗ (((c : Thread nD τ).loc main_v5) ↦{fullShare} Fn 5)) := by
  unfold Dat.arrays
  rw [bigSep_W1, (arr_whole1 0).set_eq_univ, (arr_whole1 3).set_eq_univ, (arr_whole1 4).set_eq_univ, (arr_whole1 5).set_eq_univ]
  rfl

/-- ENTRY: the unscoped buffers make the second region's arrays at their entry contents — the fused projection's full
    share dealt among its three windows — and the rest. -/
theorem entry1 (c : Dev nD) :
    (unscopedBufs (Ix := Unit) (Name := ℕ) (U := UR sig nD τ) (Lvl := ℕ) c (E2 m c) : sProp 𝕄)
      ⊢ iprop((R1.dat1 (E2 m) out c).arrays ((R1.dat1 (E2 m) out c).arrAt · 0)
          ∗ Pipeline.unscopedRest (Ix := Unit) (Name := ℕ) (U := UR sig nD τ) (Lvl := ℕ) spec1 c (E2 m c)) := by
  rw [Pipeline.unscopedBufs_split₀ cfgs 1 winFacts₀1.arr_unscoped c (E2 m c)]
  refine sep_mono ?_ .rfl
  refine (Entails.of_eq (arrBufs1_eq c (E2 m c))).trans ?_
  rw [arrays1_eq]
  iintro ⟨H4, H3, Ha, H5⟩
  ihave H4 := (pointsTo_share (PosShare.mem_left_op_right fullShare)).1 $$ H4
  icases H4 with ⟨H4l, H4r⟩
  ihave H4r := (pointsTo_share (PosShare.mem_left_op_right fullShare.right)).1 $$ H4r
  icases H4r with ⟨H4rl, H4rr⟩
  isplitl [H4l]; · iexact H4l
  isplitl [H4rl]; · iexact H4rl
  isplitl [H4rr]; · iexact H4rr
  isplitl [H3]; · iexact H3
  isplitl [Ha]; · iexact Ha
  iexact H5

/-- EXIT: the arrays at their final contents — the three windows on the fused projection holding the same unchanged
    contents, their shares put back together; the result array at what the write-backs left — and the rest make the
    unscoped buffers at `W3`. -/
theorem exit1 (c : Dev nD) :
    iprop((R1.dat1 (E2 m) out c).arrays ((R1.dat1 (E2 m) out c).arrAt · cfg1.N)
        ∗ Pipeline.unscopedRest (Ix := Unit) (Name := ℕ) (U := UR sig nD τ) (Lvl := ℕ) spec1 c (E2 m c))
      ⊢ (unscopedBufs (Ix := Unit) (Name := ℕ) (U := UR sig nD τ) (Lvl := ℕ) c (E3 m out c) : sProp 𝕄) := by
  rw [Pipeline.unscopedBufs_split₀ cfgs 1 winFacts₀1.arr_unscoped c (E3 m out c)]
  refine sep_mono ?_ (Entails.of_eq ?_)
  · refine BIBase.Entails.trans ?_ (Entails.of_eq (arrBufs1_eq c (E3 m out c)).symm)
    rw [arrays1_eq,
      show (R1.dat1 (E2 m) out c).arrAt 0 cfg1.N = E3 m out c main_v4 from
        ((R1.dat1 (E2 m) out c).arrAt_in 0 rfl _).trans ((R1.A_eq1 (E2 m) out c 0).trans (E3_of_ne m out c main_v4 (by decide)).symm),
      show (R1.dat1 (E2 m) out c).arrAt 1 cfg1.N = E3 m out c main_v4 from
        ((R1.dat1 (E2 m) out c).arrAt_in 1 rfl _).trans ((R1.A_eq1 (E2 m) out c 1).trans (E3_of_ne m out c main_v4 (by decide)).symm),
      show (R1.dat1 (E2 m) out c).arrAt 2 cfg1.N = E3 m out c main_v4 from
        ((R1.dat1 (E2 m) out c).arrAt_in 2 rfl _).trans ((R1.A_eq1 (E2 m) out c 2).trans (E3_of_ne m out c main_v4 (by decide)).symm),
      show (R1.dat1 (E2 m) out c).arrAt 3 cfg1.N = E3 m out c main_v3 from
        ((R1.dat1 (E2 m) out c).arrAt_in 3 rfl _).trans ((R1.A_eq1 (E2 m) out c 3).trans (E3_of_ne m out c main_v3 (by decide)).symm),
      show (R1.dat1 (E2 m) out c).arrAt 4 cfg1.N = E3 m out c main_arg4 from
        ((R1.dat1 (E2 m) out c).arrAt_in 4 rfl _).trans ((R1.A_eq1 (E2 m) out c 4).trans (E3_of_ne m out c main_arg4 (by decide)).symm),
      show (R1.dat1 (E2 m) out c).arrAt 5 cfg1.N = E3 m out c main_v5 from (E3_v5 m out c).symm]
    iintro ⟨H0, H1, H2, H3, Ha, H5⟩
    ihave H12 := (pointsTo_share (PosShare.mem_left_op_right fullShare.right)).2 $$ [H1 H2]
    · isplitl [H1]; · iexact H1
      iexact H2
    ihave H4 := (pointsTo_share (PosShare.mem_left_op_right fullShare)).2 $$ [H0 H12]
    · isplitl [H0]; · iexact H0
      iexact H12
    isplitl [H4]; · iexact H4
    isplitl [H3]; · iexact H3
    isplitl [Ha]; · iexact Ha
    iexact H5
  · unfold Pipeline.unscopedRest
    exact bigSep_congr fun b hb => by
      rw [E3_of_ne m out c b fun e => (Finset.mem_sdiff.mp hb).2 (Finset.mem_image.mpr ⟨5, Finset.mem_univ _, e.symm⟩)]

set_option backward.isDefEq.respectTransparency.types false in
/-- The second region over the thread state: entered with every unscoped buffer at `W2`, left with them at `W3`. -/
def reg1 (hrun : R1.BodyRuns out) : Pipeline.RegionSeg (pcfgs (F := F)) Gen.adm (pdats m out) () defs₀ 𝒱₀ L lv 1 where
  win := winFacts₀1
  block_pos := block_pos1
  stage_whole := stage_whole1
  K := PEmpty
  osem k := k.elim
  ho := Pipeline.OwnSemFacts.none _
  hbody c := (R1.body_obligation1 (E2 m) out hrun c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m out c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := entry1 m out c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m out 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m out 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m out c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at `W3`, the generator register at some state. -/
abbrev Tₙ (c : Dev nD) : sProp 𝕄 := iprop(StableHlo.held (c : Thread nD τ) (Pipeline.ucRefs τ sig) (W3 m out c) ∗ ∃ r, prngReg c r)

set_option backward.isDefEq.respectTransparency.types false in
/-- THE RUN: from any memory with zero counters every weakly fair execution of the program terminates, nothing faulting,
    and the final memory holds every unscoped buffer at `W3`: the launch contents through the host stretch, the fused
    projection's array at what the first region leaves, the result array at what the second leaves. -/
theorem run_named (hrun : R1.BodyRuns out) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W3 m out c b) :=
  Pipeline.θ_run_regions_kit_dev (pcfgs (F := F)) Gen.adm (pdats m out) () cellOf_inj emb₁ defs₀ 𝒱₀ L lv m ρ main
    (fun _ => [.host (Gen.seg0 m 𝒱₀ L lv (fun _ => R)), .region (reg0 m out hrun), .region (reg1 m out hrun)])
    (fun c Q => by
      rewrite [main_chain c, Pipeline.Seg.run_eq_chain,
        show (([.host (Gen.seg0 m 𝒱₀ L lv (fun _ => R)), .region (reg0 m out hrun), .region (reg1 m out hrun)]
            : List (Pipeline.Seg (pcfgs (F := F)) Gen.adm (pdats m out) () defs₀ 𝒱₀ L lv)).map Pipeline.Seg.prog) = [
          StableHlo.seq hostOps0,
          Prog.lift (.customCall (Pipeline.entry 0) ()),
          Prog.lift (.customCall (Pipeline.entry 1) ()) ] from rfl]
      exact .rfl)
    (fun c => by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m out)
    (hch := fun c => ⟨.rfl, .rfl, .rfl,
      (show (iprop(StableHlo.held (c : Thread nD τ) (Pipeline.ucRefs τ sig) (W3 m out c) ∗ R c) : sProp 𝕄)
          ⊢ iprop(Tₙ m out c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m out c b)
    (hfin := fun c s' => by
      iintro ⟨⟨Hh, -⟩, HSI⟩
      unfold StableHlo.held
      imodintro
      iapply (pointsTo_read_all (Pipeline.ucRefs τ sig) (fun b => (((c : Thread nD τ)).1, b)) (W3 m out c) s')
      isplitl [Hh] <;> iassumption)
    (hQ := fun _ h => h)

/-! ## What the run says of the arguments and of the result -/

theorem W3_arg (c : Dev nD) (b : Ref sig .tc) (h5 : b ≠ main_v5) (h4 : b ≠ main_v4) (hW : b ∉ Gen.hostOps0_W) :
    W3 m out c b = m ((c : Thread nD τ).loc b) :=
  (E3_of_ne m out c b h5).trans ((E2_of_ne m c b h4).trans ((Gen.V1_of m c b hW).trans rfl))

/-- Every argument array ends as launched. -/
theorem frame (hrun : R1.BodyRuns out) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_arg m out c main_arg0 (by decide) (by decide) (by decide)),
     (h c _ (mem_uc main_arg1 (by decide))).trans (W3_arg m out c main_arg1 (by decide) (by decide) (by decide)),
     (h c _ (mem_uc main_arg2 (by decide))).trans (W3_arg m out c main_arg2 (by decide) (by decide) (by decide)),
     (h c _ (mem_uc main_arg3 (by decide))).trans (W3_arg m out c main_arg3 (by decide) (by decide) (by decide)),
     (h c _ (mem_uc main_arg4 (by decide))).trans (W3_arg m out c main_arg4 (by decide) (by decide) (by decide))⟩)
    (run_named m out hrun ρ)

/-- The result array ends at what the second region's write-backs leave, and every argument as launched. -/
theorem run_result (hrun : R1.BodyRuns out) (ρ : Dev nD → PrngReg) :
    θ_run defs (onTc (τ := τ) (main (F := F))) ⟨m, fun _ => 0, ρ⟩ (fun r => ∀ c : Dev nD,
      r.2.mem ((c.tc : Thread nD τ).loc main_v5) = ar1 m out c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v5 (by decide))).trans (E3_v5 m out c),
     (h c _ (mem_uc main_arg0 (by decide))).trans (W3_arg m out c main_arg0 (by decide) (by decide) (by decide)),
     (h c _ (mem_uc main_arg1 (by decide))).trans (W3_arg m out c main_arg1 (by decide) (by decide) (by decide)),
     (h c _ (mem_uc main_arg2 (by decide))).trans (W3_arg m out c main_arg2 (by decide) (by decide) (by decide)),
     (h c _ (mem_uc main_arg3 (by decide))).trans (W3_arg m out c main_arg3 (by decide) (by decide) (by decide)),
     (h c _ (mem_uc main_arg4 (by decide))).trans (W3_arg m out c main_arg4 (by decide) (by decide) (by decide))⟩)
    (run_named m out hrun ρ)

end Cert.KernelIdeal.Run

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibAffineLayer.lean ====
/-
  An affine layer read at an index.

  A bias vector of length B, cast to a [1, B] row and broadcast to [A, B], reads at (p, q) the bias at q. Added to
  the plain product of an [A, K] and a [K, B] matrix into the zero accumulator, it gives at the ideal values and at
  (p, q) the sum over k < K of left(p, k) · right(k, q), plus the bias at q: one row of the left operand through an
  affine map.
-/
import Idealize.ShloMosaic.Lib.ValueLayout
import proofs.«161869_j30837865185684_2_alg».proof.Proof.LibMatmul2

noncomputable section

namespace Cert.Lib

open Idealize.ShloMosaic Idealize.ShloMosaic.ValueIdx

variable {A K B : ℕ} {φ₁ φ₂ : FTy} {α : Type}

/-- A `[B]` vector cast to a `[1, B]` row and broadcast to `[A, B]` reads, at `(p, q)`, the vector at `q`. -/
theorem rowBroadcast_apply (v : (⟨1, ![B]⟩ : Shape).Idx → α) (hc : (⟨1, ![B]⟩ : Shape).ShapeCasts ⟨2, ![1, B]⟩)
    (hb : (⟨2, ![1, B]⟩ : Shape).Broadcasts ⟨2, ![A, B]⟩) (p : Fin A) (q : Fin B) :
    broadcastTo ⟨2, ![A, B]⟩ (shapeCast ⟨2, ![1, B]⟩ v hc) hb (ix2 p q) = v (ix1 q) :=
  (broadcastTo_1b_ab_apply (shapeCast ⟨2, ![1, B]⟩ v hc) hb p q).trans (shapeCast_a_1a_apply v hc (0 : Fin 1) q)

/-- The product into the zero accumulator plus the broadcast bias row, at `(p, q)`, is
    `∑ k, l (p, k) * r (k, q) + v q`. -/
theorem affine_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (v : FVec Ideal ⟨1, ![B]⟩ .f32)
    (hc : (⟨1, ![B]⟩ : Shape).ShapeCasts ⟨2, ![1, B]⟩) (hb : (⟨2, ![1, B]⟩ : Shape).Broadcasts ⟨2, ![A, B]⟩)
    (p : Fin A) (q : Fin B) :
    addf (matmul (plain2 wf) none l r (constant ⟨2, ![A, B]⟩ .f32 0x00000000#32))
        (broadcastTo ⟨2, ![A, B]⟩ (shapeCast ⟨2, ![1, B]⟩ v hc) hb) (ix2 p q)
      = (∑ k : Fin K, l (ix2 p k) * r (ix2 k q)) + v (ix1 q) := by
  show matmul (plain2 wf) none l r (constant ⟨2, ![A, B]⟩ .f32 0x00000000#32) (ix2 p q)
      + broadcastTo ⟨2, ![A, B]⟩ (shapeCast ⟨2, ![1, B]⟩ v hc) hb (ix2 p q) = _
  rw [matmul2_zero_apply wf l r p q, rowBroadcast_apply v hc hb p q]

end Cert.Lib

end
-- ==== Proof.KI0Value.lean ====
/- The fused QKV projection's value at the exact extended reals.

   The payload the body stores, read at row p and column q of the block, is the sum over the 768 features of the
   activation row times the weight column, plus the bias at q: the cut to bf16 is the identity on exact values, the
   leading unit axis is only a relabelling, and the matmul into the zero accumulator is the plain sum.

   Grid point (b, j) takes rows 512·j … 512·j + 511 of batch b of the activations and writes the same rows of batch b
   of the result; the 16 points' blocks tile the [4, 2048, 2304] result, so after the region the whole array holds
   x[b, n, :] · w[:, o] + bias[o] at every (b, n, o), read off the arrays as the region found them. -/
import proofs.«161869_j30837865185684_2_alg».proof.Proof.KI0
import proofs.«161869_j30837865185684_2_alg».proof.Proof.LibAffineLayer
import Idealize.ShloMosaic.Lib.Pipeline.Value
import Idealize.ShloMosaic.Lib.ValueLayout

set_option maxRecDepth 16384

noncomputable section

open scoped BigOperators

namespace Cert.KernelIdeal.R0V

open Cert.KernelIdeal Cert.KernelIdeal.Gen Cert.KernelIdeal.R0
open Idealize.ShloMosaic Idealize.ShloMosaic.TcCoe Idealize.SL.Sem
open Idealize.ShloMosaic.ValueIdx
open Idealize.ShloMosaic.Pipeline (Dat)

/-! ## The payload at an index -/

/-- The stored value at row `p`, column `q`: the activation row `p` against the weight column `q`, plus the bias at `q`. -/
theorem pay0_apply (x0 : Vec Ideal S1x512x768 .f32) (x1 : Vec Ideal S768x2304 .bf16) (x2 : Vec Ideal S2304 .f32)
    (p : Fin 512) (q : Fin 2304) :
    Gen.k0_pay1 (F := Ideal) x0 x1 x2 (ValueIdx.ix3 0 p q)
      = (∑ k : Fin 768, x0 (ValueIdx.ix3 0 p k) * x1 (ValueIdx.ix2 k q)) + x2 (ValueIdx.ix1 q) := by
  unfold Gen.k0_pay1
  refine (shapeCast_ab_1ab_apply _ shapeCasts_S512x2304_S1x512x2304 (0 : Fin 1) p q).trans ?_
  refine (truncf_apply _ bitsLt_bf16_f32 (ix2 p q)).trans ?_
  refine (Cert.Lib.affine_apply dot_S512x768_S768x2304_S512x2304_1_0_0_1_n_n_wf
    (truncf .bf16 (shapeCast S512x768 x0 shapeCasts_S1x512x768_S512x768) bitsLt_bf16_f32)
    (shapeCast S768x2304 x1 shapeCasts_S768x2304_S768x2304) x2
    shapeCasts_S2304_S1x2304 broadcasts_S1x2304_S512x2304 p q).trans ?_
  refine congrArg (· + x2 (ix1 q)) (Finset.sum_congr rfl fun k _ => ?_)
  rw [shapeCast_self]
  exact congrArg (· * x1 (ix2 k q))
    ((truncf_apply _ bitsLt_bf16_f32 (ix2 p k)).trans (shapeCast_1ab_ab_apply x0 shapeCasts_S1x512x768_S512x768 p k))

/-! ## From blocks to the array -/

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The projection as one function of whole arrays: at batch `b`, position `n`, column `o`, the activation row
    (b, n) against the weight column `o`, plus the bias at `o`. -/
def qkvOf (a0 : S4x2048x768.Idx → EReal) (a1 : S768x2304.Idx → EReal) (a2 : S2304.Idx → EReal) :
    S4x2048x2304.Idx → EReal :=
  fun i => (∑ k : Fin 768, a0 (ix3 (i 0 : Fin 4) (i 1 : Fin 2048) k) * a1 (ix2 k (i 2 : Fin 2304))) + a2 (ix1 (i 2 : Fin 2304))

theorem qkvOf_apply (a0 : S4x2048x768.Idx → EReal) (a1 : S768x2304.Idx → EReal) (a2 : S2304.Idx → EReal)
    (b : Fin 4) (n : Fin 2048) (o : Fin 2304) :
    qkvOf a0 a1 a2 (ix3 b n o) = (∑ k : Fin 768, a0 (ix3 b n k) * a1 (ix2 k o)) + a2 (ix1 o) := rfl

/-- The printed index maps over the grid: the activations' block moves with the result's on the batch and row
    axes and both stay at column block 0; the weight's and the bias's blocks never move. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 2) = 0 ∧ win0_1.index t (1 : Fin 2) = 0 ∧ win0_2.index t (0 : Fin 1) = 0
    ∧ win0_3.index t (0 : Fin 3) ≤ 3 ∧ win0_3.index t (1 : Fin 3) ≤ 3 :=
  (by decide +kernel : ∀ t : Fin grid0.N, _)

/-- Every (batch, row block) pair is some point's. -/
theorem idx_onto : ∀ (q0 : Fin 4) (q1 : Fin 4), ∃ t : Fin cfg0.N, win0_3.index t = ![q0.val, q1.val, 0] :=
  (by decide +kernel : ∀ (q0 : Fin 4) (q1 : Fin 4), ∃ t : Fin grid0.N, win0_3.index t = ![q0.val, q1.val, 0])

/-- The activations' block at point `t`, read at row `p` and feature `k`, is the array at batch `b`, position `n`,
    feature `k`, where (b, n) is what the block's place makes of `p`. -/
theorem iblk0_0_apply (c : Dev nD) (t : Fin cfg0.N) (p : Fin 512) (k : Fin 768) (b : Fin 4) (n : Fin 2048)
    (hb : b.val = win0_0.index t (0 : Fin 3)) (hn : n.val = win0_0.index t (1 : Fin 3) * 512 + p.val)
    (h2 : win0_0.index t (2 : Fin 3) = 0) :
    (iblk0 V c 0 t : Vec Ideal S1x512x768 .f32) (ix3 0 p k) = (V c main_arg0 : S4x2048x768.Idx → EReal) (ix3 b n k) := by
  unfold iblk0
  rw [View.read_apply]
  show V c main_arg0 _ = V c main_arg0 _
  congr 1
  funext a
  apply Fin.ext
  match a with
  | ⟨0, _⟩ => show win0_0.index t (0 : Fin 3) * 1 + 1 * 0 = b.val; omega
  | ⟨1, _⟩ => show win0_0.index t (1 : Fin 3) * 512 + 1 * p.val = n.val; omega
  | ⟨2, _⟩ => show win0_0.index t (2 : Fin 3) * 768 + 1 * k.val = k.val; omega

/-- The weight's one block is the whole weight. -/
theorem iblk0_1_apply (c : Dev nD) (t : Fin cfg0.N) (k : Fin 768) (q : Fin 2304)
    (h0 : win0_1.index t (0 : Fin 2) = 0) (h1 : win0_1.index t (1 : Fin 2) = 0) :
    (iblk0 V c 1 t : Vec Ideal S768x2304 .bf16) (ix2 k q) = (V c main_v1 : S768x2304.Idx → EReal) (ix2 k q) := by
  unfold iblk0
  rw [View.read_apply]
  show V c main_v1 _ = V c main_v1 _
  congr 1
  funext a
  apply Fin.ext
  match a with
  | ⟨0, _⟩ => show win0_1.index t (0 : Fin 2) * 768 + 1 * k.val = k.val; omega
  | ⟨1, _⟩ => show win0_1.index t (1 : Fin 2) * 2304 + 1 * q.val = q.val; omega

/-- The bias's one block is the whole bias. -/
theorem iblk0_2_apply (c : Dev nD) (t : Fin cfg0.N) (q : Fin 2304) (h0 : win0_2.index t (0 : Fin 1) = 0) :
    (iblk0 V c 2 t : Vec Ideal S2304 .f32) (ix1 q) = (V c main_arg2 : S2304.Idx → EReal) (ix1 q) := by
  unfold iblk0
  rw [View.read_apply]
  show V c main_arg2 _ = V c main_arg2 _
  congr 1
  funext a
  apply Fin.ext
  match a with
  | ⟨0, _⟩ => show win0_2.index t (0 : Fin 1) * 2304 + 1 * q.val = q.val; omega

/-- What point `t` writes back is block `t` of the projection of the arrays as the region finds them. -/
theorem flushed3_eq (c : Dev nD) (t : Fin cfg0.N) :
    (dat0 (F := Ideal) V c).flushed 3 t
      = ((cfg0.win 3).blk t).view.read (Elt Ideal) (qkvOf (V c main_arg0) (V c main_v1) (V c main_arg2)) := by
  show (cfg0.win 3).cut (grid0.coords t) ((dat0 V c).after 3 t) = _
  rw [after0_3]
  unfold out0_3
  rw [View.canon_unit_zero hz3]
  simp only [View.ld_unit_zero (S := S1x512x768) hz3, View.ld_unit_zero (S := S768x2304) hz2, View.ld_unit_zero (S := S2304) hz1]
  funext j
  obtain ⟨u, p, q, rfl⟩ : ∃ (u : Fin 1) (p : Fin 512) (q : Fin 2304), j = ix3 u p q := ⟨j 0, j 1, j 2, eq_ix3 j⟩
  obtain rfl : u = 0 := Subsingleton.elim _ _
  obtain ⟨e0, e1, e2, e3, e4, e5, e6, e7, e8⟩ := idx_facts t
  rw [View.read_apply]
  have hE : ((cfg0.win 3).blk t).view.emb (ix3 (0 : Fin 1) p q)
      = ix3 (⟨win0_3.index t (0 : Fin 3), by omega⟩ : Fin 4) (⟨win0_3.index t (1 : Fin 3) * 512 + p.val, by omega⟩ : Fin 2048) q := by
    funext a
    apply Fin.ext
    match a with
    | ⟨0, _⟩ => show win0_3.index t (0 : Fin 3) * 1 + 1 * 0 = win0_3.index t (0 : Fin 3); omega
    | ⟨1, _⟩ => show win0_3.index t (1 : Fin 3) * 512 + 1 * p.val = win0_3.index t (1 : Fin 3) * 512 + p.val; omega
    | ⟨2, _⟩ => show win0_3.index t (2 : Fin 3) * 2304 + 1 * q.val = q.val; omega
  show Gen.k0_pay1 (F := Ideal) (iblk0 V c 0 t) (iblk0 V c 1 t) (iblk0 V c 2 t) (ix3 (0 : Fin 1) p q)
    = qkvOf (V c main_arg0) (V c main_v1) (V c main_arg2) (((cfg0.win 3).blk t).view.emb (ix3 (0 : Fin 1) p q))
  rw [hE, qkvOf_apply]
  refine (pay0_apply (iblk0 V c 0 t) (iblk0 V c 1 t) (iblk0 V c 2 t) p q).trans ?_
  refine congrArg₂ (· + ·) (Finset.sum_congr rfl fun k _ => congrArg₂ (· * ·) ?_ ?_) ?_
  · exact iblk0_0_apply V c t p k _ _ e0.symm (by show win0_3.index t (1 : Fin 3) * 512 + p.val = _; omega) e2
  · exact iblk0_1_apply V c t k q e4 e5
  · exact iblk0_2_apply V c t q e6

/-- An index of the result is in point `t`'s block iff each coordinate is in the block's range on its axis. -/
theorem mem_blk3 (t : Fin cfg0.N) (i : S4x2048x2304.Idx) :
    i ∈ ((cfg0.win 3).blk t).view.set ↔ ∀ a : Fin 3, win0_3.index t a * S1x512x2304.size a ≤ (i a).val
      ∧ (i a).val < win0_3.index t a * S1x512x2304.size a + S1x512x2304.size a := by
  show i ∈ ((View.whole main_v4).slice (win0_3.rect t)).set ↔ _
  rw [View.set_slice_whole, Rect.mem_set_unit]
  exact Iff.rfl

/-- The sixteen blocks tile the result: row `n` of batch `b` is in the block of the point (b, n / 512). -/
theorem cover3 (i : S4x2048x2304.Idx) :
    ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 2304 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 2304 ≤ (i 2).val ∧ (i 2).val < win0_3.index t (2 : Fin 3) * 2304 + 2304; omega

/-- The result array after the region: the projection of the activations, the weight and the bias as the region
    found them, at every index. -/
theorem final0 (c : Dev nD) :
    (dat0 (F := Ideal) V c).arrAt 3 cfg0.N = qkvOf (V c main_arg0) (V c main_v1) (V c main_arg2) :=
  (dat0 (F := Ideal) V c).arrAt_eq_of_cover 3 _ (fun t _ => flushed3_eq V c t) cover3

end Cert.KernelIdeal.R0V

end
-- ==== Proof.KI1Value.lean ====
/-
  The arithmetic of the fused attention + output-projection body, read at an index, at the exact extended reals.

  One head: from a `[1,256,64]` slab `q` of queries and `[1,2048,64]` slabs `k`, `v` of keys and values, row `r`
  of the result is the softmax-weighted mean of the value rows: with scores `s j = (∑ e, q r e · k j e) · 2⁻³` and
  their maximum `M` over the 2048 keys, entry `(r, d)` is `(∑ j, exp (s j − M) · v j d) / (∑ j, exp (s j − M))`.
  The twelve heads of the body are this one function of their three slabs. The output projection reads at
  `(r, o)` as `(∑ c, x r c · w c o) + b o`.
-/
import proofs.«161869_j30837865185684_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.R1V

open Cert.KernelIdeal Cert.KernelIdeal.Gen
open Idealize.ShloMosaic Idealize.ShloMosaic.ValueIdx
open scoped BigOperators

/-! ## One head -/

/-- The scaled scores of a head: queries against keys over the head's 64 coordinates, times `2⁻³`. -/
def scores (q : Vec Ideal S1x256x64 .bf16) (k : Vec Ideal S1x2048x64 .bf16) : FVec Ideal S256x2048 .f32 :=
  have v1 : FVec Ideal S256x64 .bf16 := shapeCast S256x64 q shapeCasts_S1x256x64_S256x64
  have v3 : FVec Ideal S2048x64 .bf16 := shapeCast S2048x64 k shapeCasts_S1x2048x64_S2048x64
  have cst : FVec Ideal S256x2048 .f32 := constant S256x2048 .f32 0x00000000#32
  have v6 : FVec Ideal S256x2048 .f32 := matmul dot_S256x64_S2048x64_S256x2048_1_1_0_0_n_n none v1 v3 cst
  have cst_8 : Ideal .f32 := Scalar.ofBits .f32 0x3E000000#32
  have v7 : FVec Ideal S256x2048 .f32 := broadcast S256x2048 cst_8
  mulf v6 v7

/-- The unnormalised softmax weights of a table of scores: each entry less its row's maximum, exponentiated. -/
def weights (s : FVec Ideal S256x2048 .f32) : FVec Ideal S256x2048 .f32 :=
  have v9 : FVec Ideal S256 .f32 := multiReduction .maximumf [1] S256 s 0xFF800000#32 reduces_S256x2048_S256 (.inl rfl) rfl
  have v10 : FVec Ideal S256x1 .f32 := shapeCast S256x1 v9 shapeCasts_S256_S256x1
  have v11 : FVec Ideal S256x2048 .f32 := broadcastTo S256x2048 v10 broadcasts_S256x1_S256x2048
  have v12 : FVec Ideal S256x2048 .f32 := subf s v11
  exp v12

/-- One head's result from its three column slabs: the body's own operations, in the body's order — the scores, the
    weights, their row sums, the weighted sum of the value rows, and the quotient. -/
def head (q : Vec Ideal S1x256x64 .bf16) (k v : Vec Ideal S1x2048x64 .bf16) : FVec Ideal S256x64 .f32 :=
  have v5 : FVec Ideal S2048x64 .bf16 := shapeCast S2048x64 v shapeCasts_S1x2048x64_S2048x64
  have v13 : FVec Ideal S256x2048 .f32 := weights (scores q k)
  have v14 : FVec Ideal S256 .f32 := multiReduction .add [1] S256 v13 0x00000000#32 reduces_S256x2048_S256 (.inl rfl) rfl
  have v15 : FVec Ideal S256x1 .f32 := shapeCast S256x1 v14 shapeCasts_S256_S256x1
  have v16 : FVec Ideal S256x2048 .bf16 := truncf .bf16 v13 bitsLt_bf16_f32
  have cst_11 : FVec Ideal S256x64 .f32 := constant S256x64 .f32 0x00000000#32
  have v17 : FVec Ideal S256x64 .f32 := matmul dot_S256x2048_S2048x64_S256x64_1_0_0_1_n_n none v16 v5 cst_11
  have v18 : FVec Ideal S256x64 .f32 := broadcastTo S256x64 v15 broadcasts_S256x1_S256x64
  have v19 : FVec Ideal S256x64 .f32 := divf v17 v18
  shapeCast S256x64 v19 shapeCasts_S256x64_S256x64

/-! ## The twelve heads of the body are that function -/

theorem pay3_eq : k1_pay3 (F := Ideal) = head := rfl
theorem pay9_eq : k1_pay9 (F := Ideal) = head := rfl
theorem pay15_eq : k1_pay15 (F := Ideal) = head := rfl
theorem pay21_eq : k1_pay21 (F := Ideal) = head := rfl
theorem pay6_eq (q : Vec Ideal S1x256x64 .bf16) (k v : Vec Ideal S1x2048x64 .bf16) :
    k1_pay6 (F := Ideal) (k1_pay4 v) (k1_pay5 q k) (Scalar.ofBits .f32 0x3E000000#32) = head q k v := rfl
theorem pay12_eq (q : Vec Ideal S1x256x64 .bf16) (k v : Vec Ideal S1x2048x64 .bf16) :
    k1_pay12 (F := Ideal) (k1_pay10 v) (k1_pay11 q k) (Scalar.ofBits .f32 0x3E000000#32) = head q k v := rfl
theorem pay18_eq (q : Vec Ideal S1x256x64 .bf16) (k v : Vec Ideal S1x2048x64 .bf16) :
    k1_pay18 (F := Ideal) (k1_pay16 v) (k1_pay17 q k) (Scalar.ofBits .f32 0x3E000000#32) = head q k v := rfl
theorem pay24_eq (q : Vec Ideal S1x256x64 .bf16) (k v : Vec Ideal S1x2048x64 .bf16) :
    k1_pay24 (F := Ideal) (k1_pay22 v) (k1_pay23 q k) (Scalar.ofBits .f32 0x3E000000#32) = head q k v := rfl
theorem pay8_eq (q : Vec Ideal S1x256x64 .bf16) (k v : Vec Ideal S1x2048x64 .bf16) :
    k1_pay8 (F := Ideal) (k1_pay7 q k v) = head q k v := rfl
theorem pay14_eq (q : Vec Ideal S1x256x64 .bf16) (k v : Vec Ideal S1x2048x64 .bf16) :
    k1_pay14 (F := Ideal) (k1_pay13 q k v) = head q k v := rfl
theorem pay20_eq (q : Vec Ideal S1x256x64 .bf16) (k v : Vec Ideal S1x2048x64 .bf16) :
    k1_pay20 (F := Ideal) (k1_pay19 q k v) = head q k v := rfl
theorem pay1_eq (q : Vec Ideal S1x256x64 .bf16) (k v : Vec Ideal S1x2048x64 .bf16) :
    k1_pay1 (F := Ideal) (k1_pay25 q k v) = head q k v := rfl

/-! ## The layout operations of a head, read at an index -/

/-- A `[1,256,64]` slab viewed `[256,64]` reads `(0, r, e)` at `(r, e)`. -/
theorem q_view (x : Vec Ideal S1x256x64 .bf16) (r : Fin 256) (e : Fin 64) :
    shapeCast S256x64 x shapeCasts_S1x256x64_S256x64 (ix2 r e) = x (ix3 0 r e) :=
  (shapeCast_dropUnit_apply ![256, 64] x shapeCasts_S1x256x64_S256x64 (ix2 r e)).trans
    (congrArg x (funext fun a => by match a with | ⟨0, _⟩ => rfl | ⟨1, _⟩ => rfl | ⟨2, _⟩ => rfl))

/-- A `[1,2048,64]` slab viewed `[2048,64]` reads `(0, j, e)` at `(j, e)`. -/
theorem kv_view (x : Vec Ideal S1x2048x64 .bf16) (j : Fin 2048) (e : Fin 64) :
    shapeCast S2048x64 x shapeCasts_S1x2048x64_S2048x64 (ix2 j e) = x (ix3 0 j e) :=
  (shapeCast_dropUnit_apply ![2048, 64] x shapeCasts_S1x2048x64_S2048x64 (ix2 j e)).trans
    (congrArg x (funext fun a => by match a with | ⟨0, _⟩ => rfl | ⟨1, _⟩ => rfl | ⟨2, _⟩ => rfl))

/-- A `[256]` vector viewed as a `[256,1]` column reads `r` at `(r, 0)`. -/
theorem col_view (x : FVec Ideal S256 .f32) (r : Fin 256) (z : Fin 1) :
    shapeCast S256x1 x shapeCasts_S256_S256x1 (ix2 r z) = x (ix1 r) := by
  refine shapeCast_apply x shapeCasts_S256_S256x1 (ix2 r z) (ix1 r) ?_
  rw [Shape.rowMajor_val_one, Shape.rowMajor_val_two]
  show r.val = r.val * 1 + z.val
  omega

/-- A `[256,1]` column broadcast along 2048 columns reads `(r, 0)` at `(r, j)`. -/
theorem col_bcast_2048 (x : FVec Ideal S256x1 .f32) (r : Fin 256) (j : Fin 2048) :
    broadcastTo S256x2048 x broadcasts_S256x1_S256x2048 (ix2 r j) = x (ix2 r 0) := by
  refine broadcastTo_apply x broadcasts_S256x1_S256x2048 (ix2 r j) (ix2 r 0) ?_
  intro a
  match a with
  | ⟨0, _⟩ => rfl
  | ⟨1, _⟩ => rfl

/-- A `[256,1]` column broadcast along 64 columns reads `(r, 0)` at `(r, d)`. -/
theorem col_bcast_64 (x : FVec Ideal S256x1 .f32) (r : Fin 256) (d : Fin 64) :
    broadcastTo S256x64 x broadcasts_S256x1_S256x64 (ix2 r d) = x (ix2 r 0) := by
  refine broadcastTo_apply x broadcasts_S256x1_S256x64 (ix2 r d) (ix2 r 0) ?_
  intro a
  match a with
  | ⟨0, _⟩ => rfl
  | ⟨1, _⟩ => rfl

/-! ## The reductions along the keys, read at a row -/

/-- The sum along the 2048 columns, at row `r`. -/
theorem row_sum (src : FVec Ideal S256x2048 .f32) (hφ : FKind.Formats .f32)
    (hacc : (0x00000000#32 : BitVec 32) = FKind.add.neutral .f32 hφ) (r : Fin 256) :
    multiReduction .add [1] S256 src 0x00000000#32 reduces_S256x2048_S256 hφ hacc (ix1 r)
      = ∑ j : Fin 2048, src (ix2 r j) :=
  (Ideal.multiReduction_add_single src 0x00000000#32 reduces_S256x2048_S256 hφ hacc (ix1 r)).trans
    (Finset.sum_congr rfl fun j _ => congrArg src
      (funext fun a => Fin.ext (by match a with | ⟨0, _⟩ => rfl | ⟨1, _⟩ => rfl)))

/-- The maximum along the 2048 columns, at row `r`: the fold of `max` from `-∞`. -/
theorem row_max (src : FVec Ideal S256x2048 .f32) (hφ : FKind.Formats .f32)
    (hacc : (0xFF800000#32 : BitVec 32) = FKind.maximumf.neutral .f32 hφ) (r : Fin 256) :
    multiReduction .maximumf [1] S256 src 0xFF800000#32 reduces_S256x2048_S256 hφ hacc (ix1 r)
      = (Finset.univ : Finset (Fin 2048)).fold max (Ideal.ofBits .f32 0xFF800000#32) (fun j => src (ix2 r j)) :=
  (Ideal.multiReduction_maximumf_single src 0xFF800000#32 reduces_S256x2048_S256 hφ hacc (ix1 r)).trans
    (congrArg (fun f => (Finset.univ : Finset (Fin 2048)).fold max (Ideal.ofBits .f32 0xFF800000#32) f)
      (funext fun j => congrArg src
        (funext fun a => Fin.ext (by match a with | ⟨0, _⟩ => rfl | ⟨1, _⟩ => rfl))))

/-! ## The three contractions, read at an index -/

theorem qk_lhsN (i : S256x2048.Idx) (p : dot_S256x64_S2048x64_S256x2048_1_1_0_0_n_n.contr.Idx) :
    (dot_S256x64_S2048x64_S256x2048_1_1_0_0_n_n.lhsIdx i p 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem qk_lhsC (i : S256x2048.Idx) (p : dot_S256x64_S2048x64_S256x2048_1_1_0_0_n_n.contr.Idx) :
    (dot_S256x64_S2048x64_S256x2048_1_1_0_0_n_n.lhsIdx i p 1).val = (p ⟨0, by decide⟩).val :=
  dot_S256x64_S2048x64_S256x2048_1_1_0_0_n_n.lhsIdx_val_of_single rfl i p
theorem qk_rhsN (i : S256x2048.Idx) (p : dot_S256x64_S2048x64_S256x2048_1_1_0_0_n_n.contr.Idx) :
    (dot_S256x64_S2048x64_S256x2048_1_1_0_0_n_n.rhsIdx i p 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem qk_rhsC (i : S256x2048.Idx) (p : dot_S256x64_S2048x64_S256x2048_1_1_0_0_n_n.contr.Idx) :
    (dot_S256x64_S2048x64_S256x2048_1_1_0_0_n_n.rhsIdx i p 1).val = (p ⟨0, by decide⟩).val :=
  dot_S256x64_S2048x64_S256x2048_1_1_0_0_n_n.rhsIdx_val_of_single rfl i p

/-- Queries against keys: `(r, j)` is the sum over the 64 head coordinates of `a r e · b j e`. -/
theorem qk_apply (a : FVec Ideal S256x64 .bf16) (b : FVec Ideal S2048x64 .bf16) (r : Fin 256) (j : Fin 2048) :
    matmul dot_S256x64_S2048x64_S256x2048_1_1_0_0_n_n none a b (constant (F := Ideal) S256x2048 .f32 0x00000000#32) (ix2 r j)
      = ∑ e : Fin 64, a (ix2 r e) * b (ix2 j e) := by
  refine (Ideal.matmul_constant_zero_apply dot_S256x64_S2048x64_S256x2048_1_1_0_0_n_n none a b (ix2 r j)).trans ?_
  rw [← Equiv.sum_comp (contrEquiv1 dot_S256x64_S2048x64_S256x2048_1_1_0_0_n_n 64 rfl rfl).symm]
  refine Finset.sum_congr rfl fun e _ => ?_
  have he := contrEquiv1_symm_val dot_S256x64_S2048x64_S256x2048_1_1_0_0_n_n 64 rfl rfl e
  have el : dot_S256x64_S2048x64_S256x2048_1_1_0_0_n_n.lhsIdx (ix2 r j) ((contrEquiv1 dot_S256x64_S2048x64_S256x2048_1_1_0_0_n_n 64 rfl rfl).symm e) = ix2 r e := funext fun c => Fin.ext (by
    match c with
    | ⟨0, _⟩ => exact qk_lhsN _ _
    | ⟨1, _⟩ => exact (qk_lhsC _ _).trans he)
  have er : dot_S256x64_S2048x64_S256x2048_1_1_0_0_n_n.rhsIdx (ix2 r j) ((contrEquiv1 dot_S256x64_S2048x64_S256x2048_1_1_0_0_n_n 64 rfl rfl).symm e) = ix2 j e := funext fun c => Fin.ext (by
    match c with
    | ⟨0, _⟩ => exact qk_rhsN _ _
    | ⟨1, _⟩ => exact (qk_rhsC _ _).trans he)
  rw [el, er]

theorem pv_lhsN (i : S256x64.Idx) (p : dot_S256x2048_S2048x64_S256x64_1_0_0_1_n_n.contr.Idx) :
    (dot_S256x2048_S2048x64_S256x64_1_0_0_1_n_n.lhsIdx i p 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem pv_lhsC (i : S256x64.Idx) (p : dot_S256x2048_S2048x64_S256x64_1_0_0_1_n_n.contr.Idx) :
    (dot_S256x2048_S2048x64_S256x64_1_0_0_1_n_n.lhsIdx i p 1).val = (p ⟨0, by decide⟩).val :=
  dot_S256x2048_S2048x64_S256x64_1_0_0_1_n_n.lhsIdx_val_of_single rfl i p
theorem pv_rhsN (i : S256x64.Idx) (p : dot_S256x2048_S2048x64_S256x64_1_0_0_1_n_n.contr.Idx) :
    (dot_S256x2048_S2048x64_S256x64_1_0_0_1_n_n.rhsIdx i p 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl
theorem pv_rhsC (i : S256x64.Idx) (p : dot_S256x2048_S2048x64_S256x64_1_0_0_1_n_n.contr.Idx) :
    (dot_S256x2048_S2048x64_S256x64_1_0_0_1_n_n.rhsIdx i p 0).val = (p ⟨0, by decide⟩).val :=
  dot_S256x2048_S2048x64_S256x64_1_0_0_1_n_n.rhsIdx_val_of_single rfl i p

/-- Weights against values: `(r, d)` is the sum over the 2048 keys of `a r j · b j d`. -/
theorem pv_apply (a : FVec Ideal S256x2048 .bf16) (b : FVec Ideal S2048x64 .bf16) (r : Fin 256) (d : Fin 64) :
    matmul dot_S256x2048_S2048x64_S256x64_1_0_0_1_n_n none a b (constant (F := Ideal) S256x64 .f32 0x00000000#32) (ix2 r d)
      = ∑ j : Fin 2048, a (ix2 r j) * b (ix2 j d) := by
  refine (Ideal.matmul_constant_zero_apply dot_S256x2048_S2048x64_S256x64_1_0_0_1_n_n none a b (ix2 r d)).trans ?_
  rw [← Equiv.sum_comp (contrEquiv1 dot_S256x2048_S2048x64_S256x64_1_0_0_1_n_n 2048 rfl rfl).symm]
  refine Finset.sum_congr rfl fun j _ => ?_
  have hj := contrEquiv1_symm_val dot_S256x2048_S2048x64_S256x64_1_0_0_1_n_n 2048 rfl rfl j
  have el : dot_S256x2048_S2048x64_S256x64_1_0_0_1_n_n.lhsIdx (ix2 r d) ((contrEquiv1 dot_S256x2048_S2048x64_S256x64_1_0_0_1_n_n 2048 rfl rfl).symm j) = ix2 r j := funext fun c => Fin.ext (by
    match c with
    | ⟨0, _⟩ => exact pv_lhsN _ _
    | ⟨1, _⟩ => exact (pv_lhsC _ _).trans hj)
  have er : dot_S256x2048_S2048x64_S256x64_1_0_0_1_n_n.rhsIdx (ix2 r d) ((contrEquiv1 dot_S256x2048_S2048x64_S256x64_1_0_0_1_n_n 2048 rfl rfl).symm j) = ix2 j d := funext fun c => Fin.ext (by
    match c with
    | ⟨0, _⟩ => exact (pv_rhsC _ _).trans hj
    | ⟨1, _⟩ => exact pv_rhsN _ _)
  rw [el, er]

theorem ow_lhsN (i : S256x768.Idx) (p : dot_S256x768_S768x768_S256x768_1_0_0_1_n_n.contr.Idx) :
    (dot_S256x768_S768x768_S256x768_1_0_0_1_n_n.lhsIdx i p 0).val = (i 0).val := by
  unfold DotDims.lhsIdx
  rw [dif_neg (show ¬(0 : Fin S256x768.rank) ∈ dot_S256x768_S768x768_S256x768_1_0_0_1_n_n.lhsBatch by decide), dif_pos (show (0 : Fin S256x768.rank) ∈ dot_S256x768_S768x768_S256x768_1_0_0_1_n_n.lhsNonContracting by decide)]
  rfl
theorem ow_lhsC (i : S256x768.Idx) (p : dot_S256x768_S768x768_S256x768_1_0_0_1_n_n.contr.Idx) :
    (dot_S256x768_S768x768_S256x768_1_0_0_1_n_n.lhsIdx i p 1).val = (p ⟨0, by decide⟩).val :=
  dot_S256x768_S768x768_S256x768_1_0_0_1_n_n.lhsIdx_val_of_single rfl i p
theorem ow_rhsN (i : S256x768.Idx) (p : dot_S256x768_S768x768_S256x768_1_0_0_1_n_n.contr.Idx) :
    (dot_S256x768_S768x768_S256x768_1_0_0_1_n_n.rhsIdx i p 1).val = (i 1).val := by
  unfold DotDims.rhsIdx
  rw [dif_neg (show ¬(1 : Fin S768x768.rank) ∈ dot_S256x768_S768x768_S256x768_1_0_0_1_n_n.rhsBatch by decide), dif_pos (show (1 : Fin S768x768.rank) ∈ dot_S256x768_S768x768_S256x768_1_0_0_1_n_n.rhsNonContracting by decide)]
  rfl
theorem ow_rhsC (i : S256x768.Idx) (p : dot_S256x768_S768x768_S256x768_1_0_0_1_n_n.contr.Idx) :
    (dot_S256x768_S768x768_S256x768_1_0_0_1_n_n.rhsIdx i p 0).val = (p ⟨0, by decide⟩).val :=
  dot_S256x768_S768x768_S256x768_1_0_0_1_n_n.rhsIdx_val_of_single rfl i p

/-- The output projection: `(r, o)` is the sum over the 768 model coordinates of `a r c · b c o`. -/
theorem ow_apply (a : FVec Ideal S256x768 .bf16) (b : FVec Ideal S768x768 .bf16) (r : Fin 256) (o : Fin 768) :
    matmul dot_S256x768_S768x768_S256x768_1_0_0_1_n_n none a b (constant (F := Ideal) S256x768 .f32 0x00000000#32) (ix2 r o)
      = ∑ c : Fin 768, a (ix2 r c) * b (ix2 c o) := by
  refine (Ideal.matmul_constant_zero_apply dot_S256x768_S768x768_S256x768_1_0_0_1_n_n none a b (ix2 r o)).trans ?_
  rw [← Equiv.sum_comp (contrEquiv1 dot_S256x768_S768x768_S256x768_1_0_0_1_n_n 768 rfl rfl).symm]
  refine Finset.sum_congr rfl fun c _ => ?_
  have hc := contrEquiv1_symm_val dot_S256x768_S768x768_S256x768_1_0_0_1_n_n 768 rfl rfl c
  have el : dot_S256x768_S768x768_S256x768_1_0_0_1_n_n.lhsIdx (ix2 r o) ((contrEquiv1 dot_S256x768_S768x768_S256x768_1_0_0_1_n_n 768 rfl rfl).symm c) = ix2 r c := funext fun c' => Fin.ext (by
    match c' with
    | ⟨0, _⟩ => exact ow_lhsN _ _
    | ⟨1, _⟩ => exact (ow_lhsC _ _).trans hc)
  have er : dot_S256x768_S768x768_S256x768_1_0_0_1_n_n.rhsIdx (ix2 r o) ((contrEquiv1 dot_S256x768_S768x768_S256x768_1_0_0_1_n_n 768 rfl rfl).symm c) = ix2 c o := funext fun c' => Fin.ext (by
    match c' with
    | ⟨0, _⟩ => exact (ow_rhsC _ _).trans hc
    | ⟨1, _⟩ => exact ow_rhsN _ _)
  rw [el, er]

/-! ## A head at an index -/

/-- The score of query row `r` against key row `j`: their inner product over the head's 64 coordinates, scaled by `2⁻³`. -/
def score (q : Vec Ideal S1x256x64 .bf16) (k : Vec Ideal S1x2048x64 .bf16) (r : Fin 256) (j : Fin 2048) : EReal :=
  (∑ e : Fin 64, q (ix3 0 r e) * k (ix3 0 j e)) * Ideal.ofBits .f32 0x3E000000#32

/-- The maximum of row `r`'s scores over the 2048 keys (from `-∞`). -/
def rowMax (q : Vec Ideal S1x256x64 .bf16) (k : Vec Ideal S1x2048x64 .bf16) (r : Fin 256) : EReal :=
  (Finset.univ : Finset (Fin 2048)).fold max (Ideal.ofBits .f32 0xFF800000#32) (score q k r)

/-- The row reductions with the neutral-element facts in the very form they have in the body. -/
theorem row_sum' (src : FVec Ideal S256x2048 .f32) (r : Fin 256) :
    multiReduction .add [1] S256 src 0x00000000#32 reduces_S256x2048_S256 (.inl rfl) rfl (ix1 r)
      = ∑ j : Fin 2048, src (ix2 r j) :=
  row_sum src (.inl rfl) rfl r
theorem row_max' (src : FVec Ideal S256x2048 .f32) (r : Fin 256) :
    multiReduction .maximumf [1] S256 src 0xFF800000#32 reduces_S256x2048_S256 (.inl rfl) rfl (ix1 r)
      = (Finset.univ : Finset (Fin 2048)).fold max (Ideal.ofBits .f32 0xFF800000#32) (fun j => src (ix2 r j)) :=
  row_max src (.inl rfl) rfl r

/-- The scaled scores at `(r, j)`. -/
theorem scores_apply (q : Vec Ideal S1x256x64 .bf16) (k : Vec Ideal S1x2048x64 .bf16) (r : Fin 256) (j : Fin 2048) :
    scores q k (ix2 r j) = score q k r j := by
  unfold scores score
  show (matmul dot_S256x64_S2048x64_S256x2048_1_1_0_0_n_n none (shapeCast S256x64 q shapeCasts_S1x256x64_S256x64) (shapeCast S2048x64 k shapeCasts_S1x2048x64_S2048x64)
      (constant (F := Ideal) S256x2048 .f32 0x00000000#32) (ix2 r j)) * Ideal.ofBits .f32 0x3E000000#32 = _
  rw [qk_apply]
  exact congrArg (· * Ideal.ofBits .f32 0x3E000000#32)
    (Finset.sum_congr rfl fun e _ => congrArg₂ (· * ·) (q_view q r e) (kv_view k j e))

/-- The weights at `(r, j)`: the entry less its row's maximum, exponentiated. -/
theorem weights_apply (s : FVec Ideal S256x2048 .f32) (r : Fin 256) (j : Fin 2048) :
    weights s (ix2 r j)
      = Ideal.exp (s (ix2 r j) - (Finset.univ : Finset (Fin 2048)).fold max (Ideal.ofBits .f32 0xFF800000#32) (fun j => s (ix2 r j))) := by
  unfold weights
  show Ideal.exp (s (ix2 r j) - broadcastTo S256x2048 (shapeCast S256x1
      (multiReduction .maximumf [1] S256 s 0xFF800000#32 reduces_S256x2048_S256 (.inl rfl) rfl) shapeCasts_S256_S256x1)
      broadcasts_S256x1_S256x2048 (ix2 r j)) = _
  rw [col_bcast_2048, col_view, row_max']

/-- One head at `(r, d)`: the softmax-weighted mean of the value rows' coordinate `d`. -/
theorem head_apply (q : Vec Ideal S1x256x64 .bf16) (k v : Vec Ideal S1x2048x64 .bf16) (r : Fin 256) (d : Fin 64) :
    head q k v (ix2 r d)
      = Ideal.div (∑ j : Fin 2048, Ideal.exp (score q k r j - rowMax q k r) * v (ix3 0 j d))
          (∑ j : Fin 2048, Ideal.exp (score q k r j - rowMax q k r)) := by
  unfold head
  show shapeCast S256x64 (divf (matmul dot_S256x2048_S2048x64_S256x64_1_0_0_1_n_n none (truncf .bf16 (weights (scores q k)) bitsLt_bf16_f32)
        (shapeCast S2048x64 v shapeCasts_S1x2048x64_S2048x64) (constant (F := Ideal) S256x64 .f32 0x00000000#32))
      (broadcastTo S256x64 (shapeCast S256x1
        (multiReduction .add [1] S256 (weights (scores q k)) 0x00000000#32 reduces_S256x2048_S256 (.inl rfl) rfl) shapeCasts_S256_S256x1)
        broadcasts_S256x1_S256x64)) shapeCasts_S256x64_S256x64 (ix2 r d) = _
  rw [shapeCast_self]
  show Ideal.div (matmul dot_S256x2048_S2048x64_S256x64_1_0_0_1_n_n none (truncf .bf16 (weights (scores q k)) bitsLt_bf16_f32)
        (shapeCast S2048x64 v shapeCasts_S1x2048x64_S2048x64) (constant (F := Ideal) S256x64 .f32 0x00000000#32) (ix2 r d))
      (broadcastTo S256x64 (shapeCast S256x1
        (multiReduction .add [1] S256 (weights (scores q k)) 0x00000000#32 reduces_S256x2048_S256 (.inl rfl) rfl) shapeCasts_S256_S256x1)
        broadcasts_S256x1_S256x64 (ix2 r d)) = _
  rw [pv_apply, col_bcast_64, col_view, row_sum']
  have hw : ∀ j : Fin 2048, weights (scores q k) (ix2 r j) = Ideal.exp (score q k r j - rowMax q k r) := fun j => by
    rw [weights_apply]
    simp only [scores_apply]
    rfl
  refine congrArg₂ Ideal.div (Finset.sum_congr rfl fun j _ => ?_) (Finset.sum_congr rfl fun j _ => hw j)
  exact congrArg₂ (· * ·) (hw j) (kv_view v j d)

/-! ## The output projection at an index -/

/-- A `[768]` vector viewed as a `[1,768]` row reads `o` at `(0, o)`. -/
theorem row_view (x : FVec Ideal S768 .f32) (z : Fin 1) (o : Fin 768) :
    shapeCast S1x768 x shapeCasts_S768_S1x768 (ix2 z o) = x (ix1 o) :=
  (shapeCast_addUnit_apply ![768] x shapeCasts_S768_S1x768 (ix2 z o)).trans
    (congrArg x (funext fun a => by match a with | ⟨0, _⟩ => rfl))

/-- A `[1,768]` row broadcast down 256 rows reads `(0, o)` at `(r, o)`. -/
theorem row_bcast (x : FVec Ideal S1x768 .f32) (r : Fin 256) (o : Fin 768) :
    broadcastTo S256x768 x broadcasts_S1x768_S256x768 (ix2 r o) = x (ix2 0 o) := by
  refine broadcastTo_apply x broadcasts_S1x768_S256x768 (ix2 r o) (ix2 0 o) ?_
  intro a
  match a with
  | ⟨0, _⟩ => rfl
  | ⟨1, _⟩ => rfl

/-- A `[256,768]` table stored as a `[1,256,768]` block reads `(r, o)` at `(0, r, o)`. -/
theorem out_view (x : FVec Ideal S256x768 .f32) (z : Fin 1) (r : Fin 256) (o : Fin 768) :
    shapeCast S1x256x768 x shapeCasts_S256x768_S1x256x768 (ix3 z r o) = x (ix2 r o) :=
  (shapeCast_addUnit_apply ![256, 768] x shapeCasts_S256x768_S1x256x768 (ix3 z r o)).trans
    (congrArg x (funext fun a => by match a with | ⟨0, _⟩ => rfl | ⟨1, _⟩ => rfl))

/-- The output block at `(0, r, o)`: row `r` of the scratch against column `o` of the weight, plus the bias at `o`. -/
theorem pay2_apply (s : Vec Ideal S256x768 .f32) (w : Vec Ideal S768x768 .bf16) (b : Vec Ideal S768 .f32) (r : Fin 256) (o : Fin 768) :
    k1_pay2 (F := Ideal) s w b (ix3 0 r o) = (∑ c : Fin 768, s (ix2 r c) * w (ix2 c o)) + b (ix1 o) := by
  unfold k1_pay2
  show shapeCast S1x256x768 (addf (matmul dot_S256x768_S768x768_S256x768_1_0_0_1_n_n none (truncf .bf16 s bitsLt_bf16_f32) (shapeCast S768x768 w shapeCasts_S768x768_S768x768)
        (constant (F := Ideal) S256x768 .f32 0x00000000#32))
      (broadcastTo S256x768 (shapeCast S1x768 b shapeCasts_S768_S1x768) broadcasts_S1x768_S256x768)) shapeCasts_S256x768_S1x256x768 (ix3 0 r o) = _
  rw [out_view]
  show (matmul dot_S256x768_S768x768_S256x768_1_0_0_1_n_n none (truncf .bf16 s bitsLt_bf16_f32) (shapeCast S768x768 w shapeCasts_S768x768_S768x768)
        (constant (F := Ideal) S256x768 .f32 0x00000000#32) (ix2 r o))
      + broadcastTo S256x768 (shapeCast S1x768 b shapeCasts_S768_S1x768) broadcasts_S1x768_S256x768 (ix2 r o) = _
  rw [ow_apply, row_bcast, row_view, shapeCast_self]
  rfl

end Cert.KernelIdeal.R1V

end
-- ==== Proof.KI1Out.lean ====
/-
  The result block of the fused attention + output-projection body, read at an index, at the exact extended reals.

  Column `64 h + d` of the scratch holds head `h`'s coordinate `d`: the softmax-weighted mean, over the 2048 keys, of
  the value block's column `64 h + d`, the weights being the exponentials of the scaled inner products of the query
  row with the key rows over columns `64 h … 64 h + 63`, less their maximum. The twelve slabs tile the scratch, so the
  scratch is that one function of its index; the output block is its projection by the weight block plus the bias.
-/
import proofs.«161869_j30837865185684_2_alg».proof.Proof.KI1Body
import proofs.«161869_j30837865185684_2_alg».proof.Proof.KI1Value

set_option maxRecDepth 16384

noncomputable section

namespace Cert.KernelIdeal.R1O

open Cert.KernelIdeal Cert.KernelIdeal.Gen
open Idealize.ShloMosaic Idealize.ShloMosaic.ValueIdx
open Cert.KernelIdeal.R1V
open scoped BigOperators

/-! ## The closed form -/

/-- The scaled score of query row `r` against key row `j` in head `h`: over columns `64 h … 64 h + 63`. -/
def sB (x0 : Vec Ideal S1x256x768 .bf16) (x1 : Vec Ideal S1x2048x768 .bf16) (r : Fin 256) (h : Fin 12) (j : Fin 2048) : EReal :=
  (∑ e : Fin 64, x0 (ix3 0 r ⟨64 * h.val + e.val, by omega⟩) * x1 (ix3 0 j ⟨64 * h.val + e.val, by omega⟩)) * Ideal.ofBits .f32 0x3E000000#32

/-- The maximum of row `r`'s scores in head `h` over the 2048 keys (from `-∞`). -/
def mB (x0 : Vec Ideal S1x256x768 .bf16) (x1 : Vec Ideal S1x2048x768 .bf16) (r : Fin 256) (h : Fin 12) : EReal :=
  (Finset.univ : Finset (Fin 2048)).fold max (Ideal.ofBits .f32 0xFF800000#32) (sB x0 x1 r h)

/-- Head `h`'s coordinate `d` at query row `r`. -/
def ctxBlk (x0 : Vec Ideal S1x256x768 .bf16) (x1 x2 : Vec Ideal S1x2048x768 .bf16) (r : Fin 256) (h : Fin 12) (d : Fin 64) : EReal :=
  Ideal.div (∑ j : Fin 2048, Ideal.exp (sB x0 x1 r h j - mB x0 x1 r h) * x2 (ix3 0 j ⟨64 * h.val + d.val, by omega⟩))
    (∑ j : Fin 2048, Ideal.exp (sB x0 x1 r h j - mB x0 x1 r h))

/-- The scratch as one function of its index: at `(r, c)`, head `c / 64`'s coordinate `c % 64`. -/
def ctxRow (x0 : Vec Ideal S1x256x768 .bf16) (x1 x2 : Vec Ideal S1x2048x768 .bf16) (y : S256x768.Idx) : EReal :=
  ctxBlk x0 x1 x2 ⟨(y 0).val, idx2_lt0 y⟩ ⟨(y 1).val / 64, by have := idx2_lt1 y; omega⟩ ⟨(y 1).val % 64, by omega⟩

/-! ## A column slab read at an index -/

/-- The query block's slab at column offset `64 h`, at `(0, r, e)`: the block at column `64 h + e`. -/
theorem ld_q (x0 : Vec Ideal S1x256x768 .bf16) (h : Fin 12)
    (iq : ∀ a, (![0, 0, 64 * h.val] : Fin 3 → Nat) a + S1x256x64.size a ≤ S1x256x768.size a) (r : Fin 256) (e : Fin 64) :
    View.ld x0 (Rect.unit (s := S1x256x768) ![0, 0, 64 * h.val] S1x256x64.size iq) (ix3 0 r e)
      = x0 (ix3 0 r ⟨64 * h.val + e.val, by omega⟩) :=
  congrArg x0 (funext fun a => Fin.ext (by
    match a with
    | ⟨0, _⟩ => rfl
    | ⟨1, _⟩ => show 0 + 1 * r.val = r.val; omega
    | ⟨2, _⟩ => show 64 * h.val + 1 * e.val = 64 * h.val + e.val; omega))

/-- A key or value block's slab at column offset `64 h`, at `(0, j, e)`: the block at column `64 h + e`. -/
theorem ld_kv (x1 : Vec Ideal S1x2048x768 .bf16) (h : Fin 12)
    (ik : ∀ a, (![0, 0, 64 * h.val] : Fin 3 → Nat) a + S1x2048x64.size a ≤ S1x2048x768.size a) (j : Fin 2048) (e : Fin 64) :
    View.ld x1 (Rect.unit (s := S1x2048x768) ![0, 0, 64 * h.val] S1x2048x64.size ik) (ix3 0 j e)
      = x1 (ix3 0 j ⟨64 * h.val + e.val, by omega⟩) :=
  congrArg x1 (funext fun a => Fin.ext (by
    match a with
    | ⟨0, _⟩ => rfl
    | ⟨1, _⟩ => show 0 + 1 * j.val = j.val; omega
    | ⟨2, _⟩ => show 64 * h.val + 1 * e.val = 64 * h.val + e.val; omega))

/-! ## Each slab store's payload is the closed form on its rectangle -/

/-- Head `h` over the three slabs at column offset `64 h`, at a local index, is the closed form at the scratch index
    the slab's rectangle puts it at. -/
theorem slab_eq (x0 : Vec Ideal S1x256x768 .bf16) (x1 x2 : Vec Ideal S1x2048x768 .bf16) (h : Fin 12)
    (iq : ∀ a, (![0, 0, 64 * h.val] : Fin 3 → Nat) a + S1x256x64.size a ≤ S1x256x768.size a)
    (ik : ∀ a, (![0, 0, 64 * h.val] : Fin 3 → Nat) a + S1x2048x64.size a ≤ S1x2048x768.size a)
    (is : ∀ a, (![0, 64 * h.val] : Fin 2 → Nat) a + S256x64.size a ≤ S256x768.size a)
    (x : S256x64.Idx) :
    head (View.ld x0 (Rect.unit (s := S1x256x768) ![0, 0, 64 * h.val] S1x256x64.size iq))
        (View.ld x1 (Rect.unit (s := S1x2048x768) ![0, 0, 64 * h.val] S1x2048x64.size ik))
        (View.ld x2 (Rect.unit (s := S1x2048x768) ![0, 0, 64 * h.val] S1x2048x64.size ik)) x
      = ctxRow x0 x1 x2 ((Rect.unit (s := S256x768) ![0, 64 * h.val] S256x64.size is).emb x) := by
  obtain ⟨r, d, rfl⟩ : ∃ (r : Fin 256) (d : Fin 64), x = ix2 r d := ⟨x 0, x 1, eq_ix2 x⟩
  have hrow : ctxRow x0 x1 x2 ((Rect.unit (s := S256x768) ![0, 64 * h.val] S256x64.size is).emb (ix2 r d))
      = ctxBlk x0 x1 x2 r h d := by
    unfold ctxRow
    congr 1
    · exact Fin.ext (by show 0 + 1 * r.val = r.val; omega)
    · exact Fin.ext (by show (64 * h.val + 1 * d.val) / 64 = h.val; omega)
    · exact Fin.ext (by show (64 * h.val + 1 * d.val) % 64 = d.val; omega)
  rw [hrow, head_apply]
  unfold ctxBlk
  have hs : ∀ j : Fin 2048,
      score (View.ld x0 (Rect.unit (s := S1x256x768) ![0, 0, 64 * h.val] S1x256x64.size iq))
        (View.ld x1 (Rect.unit (s := S1x2048x768) ![0, 0, 64 * h.val] S1x2048x64.size ik)) r j = sB x0 x1 r h j := fun j => by
    unfold score sB
    exact congrArg (· * Ideal.ofBits .f32 0x3E000000#32)
      (Finset.sum_congr rfl fun e _ => congrArg₂ (· * ·) (ld_q x0 h iq r e) (ld_kv x1 h ik j e))
  have hm : rowMax (View.ld x0 (Rect.unit (s := S1x256x768) ![0, 0, 64 * h.val] S1x256x64.size iq))
        (View.ld x1 (Rect.unit (s := S1x2048x768) ![0, 0, 64 * h.val] S1x2048x64.size ik)) r = mB x0 x1 r h := by
    unfold rowMax mB
    exact congrArg (fun f => (Finset.univ : Finset (Fin 2048)).fold max (Ideal.ofBits .f32 0xFF800000#32) f) (funext hs)
  refine congrArg₂ Ideal.div (Finset.sum_congr rfl fun j _ => ?_) (Finset.sum_congr rfl fun j _ => ?_)
  · rw [hs j, hm]
    exact congrArg (Ideal.exp (sB x0 x1 r h j - mB x0 x1 r h) * ·) (ld_kv x2 h ik j d)
  · rw [hs j, hm]

/-! ## The scratch and the output block at an index -/

/-- The twelve slab stores tile the scratch and each leaves the closed form on its rectangle: the scratch is the
    closed form. -/
theorem scr1_eq_ctxRow (x0 : Vec Ideal S1x256x768 .bf16) (x1 x2 : Vec Ideal S1x2048x768 .bf16) (y : S256x768.Idx) :
    Cert.KernelIdeal.R1.scr1 x0 x1 x2 y = ctxRow x0 x1 x2 y := by
  unfold Cert.KernelIdeal.R1.scr1
  refine View.canon_apply_of_pieces (Val := Elt Ideal) (S := S256x768) (e := .f32) (ctxRow x0 x1 x2) _ ?_ y (View.cover_of_tiled (s := S256x768) _ S256x64.size (by rfl) y)
  intro p hp
  simp only [List.mem_cons, List.not_mem_nil, or_false] at hp
  rcases hp with rfl | rfl | rfl | rfl | rfl | rfl | rfl | rfl | rfl | rfl | rfl | rfl
  · intro x; exact (congrFun (pay1_eq _ _ _) x).trans (slab_eq x0 x1 x2 11 (by decide) (by decide) (by decide) x)
  · intro x; exact (congrFun (pay24_eq _ _ _) x).trans (slab_eq x0 x1 x2 10 (by decide) (by decide) (by decide) x)
  · intro x; exact (congrFun (congrFun (congrFun (congrFun pay21_eq _) _) _) x).trans (slab_eq x0 x1 x2 9 (by decide) (by decide) (by decide) x)
  · intro x; exact (congrFun (pay20_eq _ _ _) x).trans (slab_eq x0 x1 x2 8 (by decide) (by decide) (by decide) x)
  · intro x; exact (congrFun (pay18_eq _ _ _) x).trans (slab_eq x0 x1 x2 7 (by decide) (by decide) (by decide) x)
  · intro x; exact (congrFun (congrFun (congrFun (congrFun pay15_eq _) _) _) x).trans (slab_eq x0 x1 x2 6 (by decide) (by decide) (by decide) x)
  · intro x; exact (congrFun (pay14_eq _ _ _) x).trans (slab_eq x0 x1 x2 5 (by decide) (by decide) (by decide) x)
  · intro x; exact (congrFun (pay12_eq _ _ _) x).trans (slab_eq x0 x1 x2 4 (by decide) (by decide) (by decide) x)
  · intro x; exact (congrFun (congrFun (congrFun (congrFun pay9_eq _) _) _) x).trans (slab_eq x0 x1 x2 3 (by decide) (by decide) (by decide) x)
  · intro x; exact (congrFun (pay8_eq _ _ _) x).trans (slab_eq x0 x1 x2 2 (by decide) (by decide) (by decide) x)
  · intro x; exact (congrFun (pay6_eq _ _ _) x).trans (slab_eq x0 x1 x2 1 (by decide) (by decide) (by decide) x)
  · intro x; exact (congrFun (congrFun (congrFun (congrFun pay3_eq _) _) _) x).trans (slab_eq x0 x1 x2 0 (by decide) (by decide) (by decide) x)

theorem scr1_apply (x0 : Vec Ideal S1x256x768 .bf16) (x1 x2 : Vec Ideal S1x2048x768 .bf16) (r : Fin 256) (h : Fin 12) (d : Fin 64) :
    Cert.KernelIdeal.R1.scr1 x0 x1 x2 (ix2 r ⟨64 * h.val + d.val, by omega⟩) = ctxBlk x0 x1 x2 r h d := by
  rw [scr1_eq_ctxRow]
  unfold ctxRow
  congr 1
  · exact Fin.ext (by show (64 * h.val + d.val) / 64 = h.val; omega)
  · exact Fin.ext (by show (64 * h.val + d.val) % 64 = d.val; omega)

theorem hz3 : (![0, 0, 0] : Fin 3 → Nat) = fun _ => 0 := by funext a; fin_cases a <;> rfl
theorem hz2 : (![0, 0] : Fin 2 → Nat) = fun _ => 0 := by funext a; fin_cases a <;> rfl
theorem hz1 : (![0] : Fin 1 → Nat) = fun _ => 0 := by funext a; fin_cases a; rfl

/-- The output block at `(0, r, o)`: row `r` of the scratch against column `o` of the weight block, plus the bias. -/
theorem out1_5_apply (x0 : Vec Ideal S1x256x768 .bf16) (x1 x2 : Vec Ideal S1x2048x768 .bf16) (x3 : Vec Ideal S768x768 .bf16)
    (x4 : Vec Ideal S768 .f32) (r : Fin 256) (o : Fin 768) :
    Cert.KernelIdeal.R1.out1_5 x0 x1 x2 x3 x4 (ix3 0 r o)
      = (∑ c : Fin 768, ctxBlk x0 x1 x2 r ⟨c.val / 64, by omega⟩ ⟨c.val % 64, by omega⟩ * x3 (ix2 c o)) + x4 (ix1 o) := by
  unfold Cert.KernelIdeal.R1.out1_5
  rw [View.canon_unit_zero hz3]
  refine (pay2_apply _ _ _ r o).trans ?_
  rw [View.ld_unit_zero hz2, View.ld_unit_zero hz2, View.ld_unit_zero hz1]
  refine congrArg (· + x4 (ix1 o)) (Finset.sum_congr rfl fun c _ => congrArg (· * x3 (ix2 c o)) ?_)
  rw [scr1_eq_ctxRow]
  rfl

end Cert.KernelIdeal.R1O

end
-- ==== Proof.Spec.lean ====
/-
  The mathematics both programs compute, stated once over plain coordinate functions on the extended reals.

  A multi-head self-attention over 4 batches of 2048 positions and 768 features, in 12 heads of 64 components:
  the fused projection `qkv b n o = Σ_k x b n k · w o k + bias o` (2304 = 3 · 768 columns: the query, key and value
  parts, each 12 · 64 wide), per batch, head and query position the scaled scores against every key position, their
  maximum, the exponentials of the differences and their sum; the context is the weighted sum of the value rows divided
  by that sum — normalised AFTER the sum (`ctxK`) or with each weight divided first (`ctxR`) —; and the output
  projection `Σ_c ctx · wo o c + bo o`. The two arrangements agree when every weight and the normaliser are real
  numbers with the normaliser nonzero, which finite inputs give.
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-- The scale 1/8 = 1/sqrt 64 as the printed f32 word, and the lattice's bottom as the printed word of minus infinity. -/
abbrev scale : EReal := Ideal.ofBits .f32 0x3E000000#32
abbrev negInf : EReal := Ideal.ofBits .f32 0xFF800000#32

/-- The column of the fused projection that holds component `d` of head `h` of part `s` (0 query, 1 key, 2 value). -/
def col (s : Fin 3) (h : Fin 12) (d : Fin 64) : Fin 2304 := ⟨s.val * 768 + h.val * 64 + d.val, by omega⟩
/-- The feature that holds component `d` of head `h` of a context row. -/
def ccol (h : Fin 12) (d : Fin 64) : Fin 768 := ⟨h.val * 64 + d.val, by omega⟩

/-- The fused projection. `w` is the weight in its [out, in] layout. -/
def qkv (x : Fin 4 → Fin 2048 → Fin 768 → EReal) (w : Fin 2304 → Fin 768 → EReal) (bias : Fin 2304 → EReal) :
    Fin 4 → Fin 2048 → Fin 2304 → EReal :=
  fun b n o => (∑ k : Fin 768, x b n k * w o k) + bias o

section Attention

variable (Q : Fin 4 → Fin 2048 → Fin 2304 → EReal)

/-- The scaled score of query position `i` against key position `j`, in batch `b` and head `h`. -/
def score (b : Fin 4) (h : Fin 12) (i j : Fin 2048) : EReal :=
  (∑ d : Fin 64, Q b i (col 0 h d) * Q b j (col 1 h d)) * scale
/-- A query row's largest score (the fold of `max` from minus infinity). -/
def rowMax (b : Fin 4) (h : Fin 12) (i : Fin 2048) : EReal :=
  (Finset.univ : Finset (Fin 2048)).fold max negInf (fun j => score Q b h i j)
/-- The unnormalised weight of key position `j`. -/
def wgt (b : Fin 4) (h : Fin 12) (i j : Fin 2048) : EReal := Ideal.exp (score Q b h i j - rowMax Q b h i)
/-- The normaliser: the sum of a row's weights. -/
def den (b : Fin 4) (h : Fin 12) (i : Fin 2048) : EReal := ∑ j : Fin 2048, wgt Q b h i j
/-- The context, normalised after the weighted sum of the value rows. -/
def ctxK (b : Fin 4) (i : Fin 2048) (h : Fin 12) (d : Fin 64) : EReal :=
  Ideal.div (∑ j : Fin 2048, wgt Q b h i j * Q b j (col 2 h d)) (den Q b h i)
/-- The context, each weight normalised before the sum. -/
def ctxR (b : Fin 4) (i : Fin 2048) (h : Fin 12) (d : Fin 64) : EReal :=
  ∑ j : Fin 2048, Ideal.div (wgt Q b h i j) (den Q b h i) * Q b j (col 2 h d)

end Attention

/-- The output projection of a context given by head and component. `wo` is the weight in its [out, in] layout. -/
def proj (ctx : Fin 4 → Fin 2048 → Fin 12 → Fin 64 → EReal) (wo : Fin 768 → Fin 768 → EReal) (bo : Fin 768 → EReal) :
    Fin 4 → Fin 2048 → Fin 768 → EReal :=
  fun b n o => (∑ c : Fin 768, ctx b n ⟨c.val / 64, by omega⟩ ⟨c.val % 64, by omega⟩ * wo o c) + bo o

/-- The whole layer, in the two arrangements. -/
def outK (x : Fin 4 → Fin 2048 → Fin 768 → EReal) (w : Fin 2304 → Fin 768 → EReal) (bias : Fin 2304 → EReal)
    (wo : Fin 768 → Fin 768 → EReal) (bo : Fin 768 → EReal) : Fin 4 → Fin 2048 → Fin 768 → EReal :=
  proj (ctxK (qkv x w bias)) wo bo
def outR (x : Fin 4 → Fin 2048 → Fin 768 → EReal) (w : Fin 2304 → Fin 768 → EReal) (bias : Fin 2304 → EReal)
    (wo : Fin 768 → Fin 768 → EReal) (bo : Fin 768 → EReal) : Fin 4 → Fin 2048 → Fin 768 → EReal :=
  proj (ctxR (qkv x w bias)) wo bo

end Cert.Spec

end
-- ==== Proof.KI1Final.lean ====
/- The fused attention + output projection's value at the exact extended reals, from blocks to the whole array.

   Grid point (b, t) takes rows 256·t … 256·t + 255 of batch b of the projection's query columns (0 … 767), the whole
   key columns (768 … 1535) and value columns (1536 … 2303) of batch b, the transposed output weight and the bias.
   Read at row r and feature o, the block the body leaves is the output projection of a context row plus the bias,
   the context of head h at component d being the softmax-weighted sum of the value rows normalised after the sum,
   written over the entries of the three blocks. Reading the three blocks as the columns of the projection array turns
   that context into the specification's at batch b, position 256·t + r — the scores, their maximum, the weights and
   the normaliser are the same sums entry by entry — so the block is the specification's layer at the point's rows.
   The 32 points' output blocks tile the [4, 2048, 768] result, so the whole array ends holding the layer. -/
import proofs.«161869_j30837865185684_2_alg».proof.Proof.KI1Data
import proofs.«161869_j30837865185684_2_alg».proof.Proof.KI1Body
import proofs.«161869_j30837865185684_2_alg».proof.Proof.KI1Value
import proofs.«161869_j30837865185684_2_alg».proof.Proof.KI1Out
import proofs.«161869_j30837865185684_2_alg».proof.Proof.Spec
import Idealize.ShloMosaic.Lib.Pipeline.Value
import Idealize.ShloMosaic.Lib.ValueLayout

set_option maxRecDepth 16384

noncomputable section

open scoped BigOperators

namespace Cert.KernelIdeal.R1F

open Cert.KernelIdeal Cert.KernelIdeal.Gen Cert.KernelIdeal.R1 Cert.KernelIdeal.R1V
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The layer as one function of whole arrays -/

/-- Column `cc` of part `s` (0 query, 1 key, 2 value) of the fused projection. -/
def partCol (s : Fin 3) (cc : Fin 768) : Fin 2304 := ⟨s.val * 768 + cc.val, by omega⟩

theorem partCol_ccol (s : Fin 3) (h : Fin 12) (d : Fin 64) : partCol s (Cert.Spec.ccol h d) = Cert.Spec.col s h d :=
  Fin.ext (Nat.add_assoc _ _ _).symm

/-- The attention layer of the projection array `q`, the transposed output weight `wo` ([in, out]) and the bias. -/
def attnOf (q : S4x2048x2304.Idx → EReal) (wo : S768x768.Idx → EReal) (bo : S768.Idx → EReal) : S4x2048x768.Idx → EReal :=
  fun i => Cert.Spec.proj (Cert.Spec.ctxK (fun b n o => q (ix3 b n o))) (fun o c' => wo (ix2 c' o)) (fun o => bo (ix1 o))
    (i 0 : Fin 4) (i 1 : Fin 2048) (i 2 : Fin 768)

theorem attnOf_apply (q : S4x2048x2304.Idx → EReal) (wo : S768x768.Idx → EReal) (bo : S768.Idx → EReal)
    (b : Fin 4) (n : Fin 2048) (o : Fin 768) :
    attnOf q wo bo (ix3 b n o)
      = Cert.Spec.proj (Cert.Spec.ctxK (fun b n o => q (ix3 b n o))) (fun o c' => wo (ix2 c' o)) (fun o => bo (ix1 o)) b n o := rfl

/-! ## The index maps over the grid -/

/-- The query and result blocks move together over (batch, row block) at column block 0; the key and value blocks
    follow the batch at row block 0 and column blocks 1 and 2; the weight's and the bias's blocks never move. -/
theorem idx_facts : ∀ t : Fin cfg1.N,
    win1_0.index t (0 : Fin 3) = win1_5.index t (0 : Fin 3) ∧ win1_0.index t (1 : Fin 3) = win1_5.index t (1 : Fin 3)
    ∧ win1_0.index t (2 : Fin 3) = 0
    ∧ win1_1.index t (0 : Fin 3) = win1_5.index t (0 : Fin 3) ∧ win1_1.index t (1 : Fin 3) = 0 ∧ win1_1.index t (2 : Fin 3) = 1
    ∧ win1_2.index t (0 : Fin 3) = win1_5.index t (0 : Fin 3) ∧ win1_2.index t (1 : Fin 3) = 0 ∧ win1_2.index t (2 : Fin 3) = 2
    ∧ win1_3.index t (0 : Fin 2) = 0 ∧ win1_3.index t (1 : Fin 2) = 0 ∧ win1_4.index t (0 : Fin 1) = 0
    ∧ win1_5.index t (2 : Fin 3) = 0 ∧ win1_5.index t (0 : Fin 3) ≤ 3 ∧ win1_5.index t (1 : Fin 3) ≤ 7 :=
  (by decide +kernel : ∀ t : Fin grid1.N, _)

/-- Every (batch, row block) pair is some point's. -/
theorem idx_onto : ∀ (q0 : Fin 4) (q1 : Fin 8), ∃ t : Fin cfg1.N, win1_5.index t = ![q0.val, q1.val, 0] :=
  (by decide +kernel : ∀ (q0 : Fin 4) (q1 : Fin 8), ∃ t : Fin grid1.N, win1_5.index t = ![q0.val, q1.val, 0])

/-! ## The blocks read at an index -/

/-- The query block at point `t`, row `r`, column `cc`: the projection array at the block's batch, its row, its column. -/
theorem iblk1_0_apply (c : Dev nD) (t : Fin cfg1.N) (r : Fin 256) (cc : Fin 768) (b : Fin 4) (n : Fin 2048) (o : Fin 2304)
    (hb : b.val = win1_0.index t (0 : Fin 3)) (hn : n.val = win1_0.index t (1 : Fin 3) * 256 + r.val)
    (ho : o.val = win1_0.index t (2 : Fin 3) * 768 + cc.val) :
    (iblk1 V c 0 t : Vec Ideal S1x256x768 .bf16) (ix3 0 r cc) = (V c main_v4 : S4x2048x2304.Idx → EReal) (ix3 b n o) := by
  unfold iblk1
  rw [View.read_apply]
  show V c main_v4 _ = V c main_v4 _
  congr 1
  funext a
  apply Fin.ext
  match a with
  | ⟨0, _⟩ => show win1_0.index t (0 : Fin 3) * 1 + 1 * 0 = b.val; omega
  | ⟨1, _⟩ => show win1_0.index t (1 : Fin 3) * 256 + 1 * r.val = n.val; omega
  | ⟨2, _⟩ => show win1_0.index t (2 : Fin 3) * 768 + 1 * cc.val = o.val; omega

/-- The key block. -/
theorem iblk1_1_apply (c : Dev nD) (t : Fin cfg1.N) (j : Fin 2048) (cc : Fin 768) (b : Fin 4) (n : Fin 2048) (o : Fin 2304)
    (hb : b.val = win1_1.index t (0 : Fin 3)) (hn : n.val = win1_1.index t (1 : Fin 3) * 2048 + j.val)
    (ho : o.val = win1_1.index t (2 : Fin 3) * 768 + cc.val) :
    (iblk1 V c 1 t : Vec Ideal S1x2048x768 .bf16) (ix3 0 j cc) = (V c main_v4 : S4x2048x2304.Idx → EReal) (ix3 b n o) := by
  unfold iblk1
  rw [View.read_apply]
  show V c main_v4 _ = V c main_v4 _
  congr 1
  funext a
  apply Fin.ext
  match a with
  | ⟨0, _⟩ => show win1_1.index t (0 : Fin 3) * 1 + 1 * 0 = b.val; omega
  | ⟨1, _⟩ => show win1_1.index t (1 : Fin 3) * 2048 + 1 * j.val = n.val; omega
  | ⟨2, _⟩ => show win1_1.index t (2 : Fin 3) * 768 + 1 * cc.val = o.val; omega

/-- The value block. -/
theorem iblk1_2_apply (c : Dev nD) (t : Fin cfg1.N) (j : Fin 2048) (cc : Fin 768) (b : Fin 4) (n : Fin 2048) (o : Fin 2304)
    (hb : b.val = win1_2.index t (0 : Fin 3)) (hn : n.val = win1_2.index t (1 : Fin 3) * 2048 + j.val)
    (ho : o.val = win1_2.index t (2 : Fin 3) * 768 + cc.val) :
    (iblk1 V c 2 t : Vec Ideal S1x2048x768 .bf16) (ix3 0 j cc) = (V c main_v4 : S4x2048x2304.Idx → EReal) (ix3 b n o) := by
  unfold iblk1
  rw [View.read_apply]
  show V c main_v4 _ = V c main_v4 _
  congr 1
  funext a
  apply Fin.ext
  match a with
  | ⟨0, _⟩ => show win1_2.index t (0 : Fin 3) * 1 + 1 * 0 = b.val; omega
  | ⟨1, _⟩ => show win1_2.index t (1 : Fin 3) * 2048 + 1 * j.val = n.val; omega
  | ⟨2, _⟩ => show win1_2.index t (2 : Fin 3) * 768 + 1 * cc.val = o.val; omega

/-- The output weight's one block is the whole (transposed) weight. -/
theorem iblk1_3_apply (c : Dev nD) (t : Fin cfg1.N) (k o : Fin 768)
    (h0 : win1_3.index t (0 : Fin 2) = 0) (h1 : win1_3.index t (1 : Fin 2) = 0) :
    (iblk1 V c 3 t : Vec Ideal S768x768 .bf16) (ix2 k o) = (V c main_v3 : S768x768.Idx → EReal) (ix2 k o) := by
  unfold iblk1
  rw [View.read_apply]
  show V c main_v3 _ = V c main_v3 _
  congr 1
  funext a
  apply Fin.ext
  match a with
  | ⟨0, _⟩ => show win1_3.index t (0 : Fin 2) * 768 + 1 * k.val = k.val; omega
  | ⟨1, _⟩ => show win1_3.index t (1 : Fin 2) * 768 + 1 * o.val = o.val; omega

/-- The bias's one block is the whole bias. -/
theorem iblk1_4_apply (c : Dev nD) (t : Fin cfg1.N) (o : Fin 768) (h0 : win1_4.index t (0 : Fin 1) = 0) :
    (iblk1 V c 4 t : Vec Ideal S768 .f32) (ix1 o) = (V c main_arg4 : S768.Idx → EReal) (ix1 o) := by
  unfold iblk1
  rw [View.read_apply]
  show V c main_arg4 _ = V c main_arg4 _
  congr 1
  funext a
  apply Fin.ext
  match a with
  | ⟨0, _⟩ => show win1_4.index t (0 : Fin 1) * 768 + 1 * o.val = o.val; omega

/-! ## The cover -/

/-- An index of the result is in point `t`'s block iff each coordinate is in the block's range on its axis. -/
theorem mem_blk5 (t : Fin cfg1.N) (i : S4x2048x768.Idx) :
    i ∈ ((cfg1.win 5).blk t).view.set ↔ ∀ a : Fin 3, win1_5.index t a * S1x256x768.size a ≤ (i a).val
      ∧ (i a).val < win1_5.index t a * S1x256x768.size a + S1x256x768.size a := by
  show i ∈ ((View.whole main_v5).slice (win1_5.rect t)).set ↔ _
  rw [View.set_slice_whole, Rect.mem_set_unit]
  exact Iff.rfl

/-- The 32 blocks tile the result: row `n` of batch `b` is in the block of the point (b, n / 256). -/
theorem cover5 (i : S4x2048x768.Idx) :
    ∃ t : Fin cfg1.N, (cfg1.win 5).flush t = true ∧ i ∈ ((cfg1.win 5).blk t).view.set := by
  have hi0 : (i 0).val < 4 := (i 0).isLt
  have hi1 : (i 1).val < 2048 := (i 1).isLt
  have hi2 : (i 2).val < 768 := (i 2).isLt
  obtain ⟨t, ht⟩ := idx_onto ⟨(i 0).val, hi0⟩ ⟨(i 1).val / 256, by omega⟩
  have q0 : win1_5.index t (0 : Fin 3) = (i 0).val := congrFun ht 0
  have q1 : win1_5.index t (1 : Fin 3) = (i 1).val / 256 := congrFun ht 1
  have q2 : win1_5.index t (2 : Fin 3) = 0 := congrFun ht 2
  refine ⟨t, flush1_5 t, ?_⟩
  rw [mem_blk5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 768 ≤ (i 2).val ∧ (i 2).val < win1_5.index t (2 : Fin 3) * 768 + 768; omega

/-! ## A point's result is the specification's layer at the point's rows -/

/-- The context a block-level head computes is the specification's, once the three blocks are read as the query, key
    and value columns of the projection at batch `b` and position `n`: the scores, their maximum, the weights and the
    normaliser are the same sums entry by entry. -/
theorem ctxBlk_eq (x0 : Vec Ideal S1x256x768 .bf16) (x1 x2 : Vec Ideal S1x2048x768 .bf16)
    (Q : Fin 4 → Fin 2048 → Fin 2304 → EReal) (b : Fin 4) (n : Fin 2048) (r : Fin 256)
    (h0 : ∀ cc : Fin 768, x0 (ix3 0 r cc) = Q b n (partCol 0 cc))
    (h1 : ∀ (j : Fin 2048) (cc : Fin 768), x1 (ix3 0 j cc) = Q b j (partCol 1 cc))
    (h2 : ∀ (j : Fin 2048) (cc : Fin 768), x2 (ix3 0 j cc) = Q b j (partCol 2 cc))
    (h : Fin 12) (d : Fin 64) :
    Cert.KernelIdeal.R1O.ctxBlk x0 x1 x2 r h d = Cert.Spec.ctxK Q b n h d := by
  have hh := h.isLt
  have hc : ∀ (s : Fin 3) (e : Fin 64) (hlt : 64 * h.val + e.val < 768), partCol s ⟨64 * h.val + e.val, hlt⟩ = Cert.Spec.col s h e :=
    fun s e hlt => Fin.ext (by show s.val * 768 + (64 * h.val + e.val) = s.val * 768 + h.val * 64 + e.val; omega)
  have hs : ∀ j, Cert.KernelIdeal.R1O.sB x0 x1 r h j = Cert.Spec.score Q b h n j := fun j => by
    unfold Cert.KernelIdeal.R1O.sB Cert.Spec.score
    simp only [h0, h1, hc]
  have hm : Cert.KernelIdeal.R1O.mB x0 x1 r h = Cert.Spec.rowMax Q b h n := by
    unfold Cert.KernelIdeal.R1O.mB Cert.Spec.rowMax
    rw [show Cert.KernelIdeal.R1O.sB x0 x1 r h = fun j => Cert.Spec.score Q b h n j from funext hs]
  unfold Cert.KernelIdeal.R1O.ctxBlk Cert.Spec.ctxK Cert.Spec.den Cert.Spec.wgt
  simp only [hs, hm, h2, hc]

/-- The body's result at row `r`, feature `o` of the block is the specification's layer at batch `b`, position `n`,
    feature `o`, when the five blocks are read as the projection's columns, the transposed weight and the bias. -/
theorem out_spec (x0 : Vec Ideal S1x256x768 .bf16) (x1 x2 : Vec Ideal S1x2048x768 .bf16) (x3 : Vec Ideal S768x768 .bf16)
    (x4 : Vec Ideal S768 .f32) (Q : Fin 4 → Fin 2048 → Fin 2304 → EReal) (wo : Fin 768 → Fin 768 → EReal) (bo : Fin 768 → EReal)
    (b : Fin 4) (n : Fin 2048) (r : Fin 256) (o : Fin 768)
    (h0 : ∀ cc : Fin 768, x0 (ix3 0 r cc) = Q b n (partCol 0 cc))
    (h1 : ∀ (j : Fin 2048) (cc : Fin 768), x1 (ix3 0 j cc) = Q b j (partCol 1 cc))
    (h2 : ∀ (j : Fin 2048) (cc : Fin 768), x2 (ix3 0 j cc) = Q b j (partCol 2 cc))
    (h3 : ∀ c' o' : Fin 768, x3 (ix2 c' o') = wo o' c') (h4 : ∀ o' : Fin 768, x4 (ix1 o') = bo o') :
    Cert.KernelIdeal.R1.out1_5 (F := Ideal) x0 x1 x2 x3 x4 (ix3 0 r o) = Cert.Spec.proj (Cert.Spec.ctxK Q) wo bo b n o := by
  rw [Cert.KernelIdeal.R1O.out1_5_apply]
  unfold Cert.Spec.proj
  rw [h4]
  refine congrArg (· + bo o) (Finset.sum_congr rfl fun c' _ => ?_)
  rw [h3, ctxBlk_eq x0 x1 x2 Q b n r h0 h1 h2]

/-! ## From blocks to the array -/

/-- What point `t` writes back is block `t` of the layer of the arrays as the region finds them. -/
theorem flushed5_eq (c : Dev nD) (t : Fin cfg1.N) :
    (dat1 (F := Ideal) V out1_5 c).flushed 5 t
      = ((cfg1.win 5).blk t).view.read (Elt Ideal) (attnOf (V c main_v4) (V c main_v3) (V c main_arg4)) := by
  show (cfg1.win 5).cut (grid1.coords t) ((dat1 V out1_5 c).after 5 t) = _
  rw [after1_5]
  funext j
  obtain ⟨u, r, o, rfl⟩ : ∃ (u : Fin 1) (r : Fin 256) (o : Fin 768), j = ix3 u r o := ⟨j 0, j 1, j 2, eq_ix3 j⟩
  obtain rfl : u = 0 := Subsingleton.elim _ _
  obtain ⟨e0, e1, e2, e3, e4, e5, e6, e7, e8, e9, e10, e11, e12, e13, e14⟩ := idx_facts t
  rw [View.read_apply]
  have hE : ((cfg1.win 5).blk t).view.emb (ix3 (0 : Fin 1) r o)
      = ix3 (⟨win1_5.index t (0 : Fin 3), by omega⟩ : Fin 4) (⟨win1_5.index t (1 : Fin 3) * 256 + r.val, by omega⟩ : Fin 2048) o := by
    funext a
    apply Fin.ext
    match a with
    | ⟨0, _⟩ => show win1_5.index t (0 : Fin 3) * 1 + 1 * 0 = win1_5.index t (0 : Fin 3); omega
    | ⟨1, _⟩ => show win1_5.index t (1 : Fin 3) * 256 + 1 * r.val = win1_5.index t (1 : Fin 3) * 256 + r.val; omega
    | ⟨2, _⟩ => show win1_5.index t (2 : Fin 3) * 768 + 1 * o.val = o.val; omega
  show Cert.KernelIdeal.R1.out1_5 (F := Ideal) (iblk1 V c 0 t) (iblk1 V c 1 t) (iblk1 V c 2 t) (iblk1 V c 3 t) (iblk1 V c 4 t) (ix3 (0 : Fin 1) r o)
    = attnOf (V c main_v4) (V c main_v3) (V c main_arg4) (((cfg1.win 5).blk t).view.emb (ix3 (0 : Fin 1) r o))
  rw [hE, attnOf_apply]
  refine out_spec (iblk1 V c 0 t) (iblk1 V c 1 t) (iblk1 V c 2 t) (iblk1 V c 3 t) (iblk1 V c 4 t)
    (fun b n o => V c main_v4 (ix3 b n o)) (fun o c' => V c main_v3 (ix2 c' o)) (fun o => V c main_arg4 (ix1 o))
    _ _ r o ?_ ?_ ?_ ?_ ?_
  · intro cc
    exact iblk1_0_apply V c t r cc _ _ (partCol 0 cc) e0.symm
      (by show win1_5.index t (1 : Fin 3) * 256 + r.val = _; omega) (by show 0 * 768 + cc.val = _; omega)
  · intro j cc
    exact iblk1_1_apply V c t j cc _ j (partCol 1 cc) e3.symm (by omega) (by show 1 * 768 + cc.val = _; omega)
  · intro j cc
    exact iblk1_2_apply V c t j cc _ j (partCol 2 cc) e6.symm (by omega) (by show 2 * 768 + cc.val = _; omega)
  · intro c' o'
    exact iblk1_3_apply V c t c' o' e9 e10
  · intro o'
    exact iblk1_4_apply V c t o' e11

/-- The result array after the region: the attention layer of the projection array, the transposed output weight and
    the bias as the region found them, at every index. -/
theorem final1 (c : Dev nD) :
    (Cert.KernelIdeal.R1.dat1 (F := Ideal) V Cert.KernelIdeal.R1.out1_5 c).arrAt 5 cfg1.N
      = attnOf (V c main_v4) (V c main_v3) (V c main_arg4) :=
  (dat1 (F := Ideal) V out1_5 c).arrAt_eq_of_cover 5 _ (fun t _ => flushed5_eq V c t) cover5

end Cert.KernelIdeal.R1F

end
-- ==== Proof.RefValue.lean ====
/-
  The reference's result, read index by index, is the specification's `outR`.

  The reference computes the fused projection `qkv = x · wᵀ + bias` as a [4, 2048, 2304] array, reshapes it to
  [4, 2048, 3, 12, 64] and slices the third axis into the query, key and value parts: in row-major order the entry
  (b, n, s, h, d) of the reshaped array is the entry (b, n, s·768 + h·64 + d) of the projection — the column `col s h d`.
  Each part is transposed to [4, 12, 2048, 64]. The scores are the contraction of query and key over the 64
  components, times one eighth; a row's maximum is the fold of `max` over the key positions from minus infinity
  (taking the maximum with minus infinity once more changes nothing); the weights are the exponentials of the
  differences, the normaliser their sum from zero, and each weight is divided by the normaliser before it multiplies
  the value row. The context [4, 12, 2048, 64] is transposed back and flattened to [4, 2048, 768]: feature `c` is
  component `c % 64` of head `c / 64`. The output projection contracts it with the second weight and adds the bias.
-/
import proofs.«161869_j30837865185684_2_alg».proof.Proof.Gen.ReferenceIdeal.Read
import proofs.«161869_j30837865185684_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-! ### The composed index maps at coordinates -/

theorem tr_v7 (b : Fin 4) (h : Fin 12) (n : Fin 2048) (d : Fin 64) :
    idx_main_v7 (ix4 b h n d) = ix4 b n h d :=
  funext fun a => by match a with | ⟨0, _⟩ => rfl | ⟨1, _⟩ => rfl | ⟨2, _⟩ => rfl | ⟨3, _⟩ => rfl
theorem tr_v10 (b : Fin 4) (h : Fin 12) (n : Fin 2048) (d : Fin 64) :
    idx_main_v10 (ix4 b h n d) = ix4 b n h d :=
  funext fun a => by match a with | ⟨0, _⟩ => rfl | ⟨1, _⟩ => rfl | ⟨2, _⟩ => rfl | ⟨3, _⟩ => rfl
theorem tr_v13 (b : Fin 4) (h : Fin 12) (n : Fin 2048) (d : Fin 64) :
    idx_main_v13 (ix4 b h n d) = ix4 b n h d :=
  funext fun a => by match a with | ⟨0, _⟩ => rfl | ⟨1, _⟩ => rfl | ⟨2, _⟩ => rfl | ⟨3, _⟩ => rfl

theorem unflat_v6 (b : Fin 4) (n : Fin 2048) (h : Fin 12) (d : Fin 64) :
    idx_main_v6 (ix4 b n h d) = ix5 b n (0 : Fin 1) h d := by
  have hb := b.isLt; have hn := n.isLt; have hh := h.isLt; have hd := d.isLt
  funext a
  match a with
  | ⟨0, _⟩ => exact Fin.ext (by show (((b.val * 2048 + n.val) * 12 + h.val) * 64 + d.val) / 1572864 = b.val; omega)
  | ⟨1, _⟩ => exact Fin.ext (by show (((b.val * 2048 + n.val) * 12 + h.val) * 64 + d.val) / 768 % 2048 = n.val; omega)
  | ⟨2, _⟩ => rfl
  | ⟨3, _⟩ => exact Fin.ext (by show (((b.val * 2048 + n.val) * 12 + h.val) * 64 + d.val) / 64 % 12 = h.val; omega)
  | ⟨4, _⟩ => exact Fin.ext (by show (((b.val * 2048 + n.val) * 12 + h.val) * 64 + d.val) % 64 = d.val; omega)
theorem unflat_v9 (b : Fin 4) (n : Fin 2048) (h : Fin 12) (d : Fin 64) :
    idx_main_v9 (ix4 b n h d) = ix5 b n (0 : Fin 1) h d := by
  have hb := b.isLt; have hn := n.isLt; have hh := h.isLt; have hd := d.isLt
  funext a
  match a with
  | ⟨0, _⟩ => exact Fin.ext (by show (((b.val * 2048 + n.val) * 12 + h.val) * 64 + d.val) / 1572864 = b.val; omega)
  | ⟨1, _⟩ => exact Fin.ext (by show (((b.val * 2048 + n.val) * 12 + h.val) * 64 + d.val) / 768 % 2048 = n.val; omega)
  | ⟨2, _⟩ => rfl
  | ⟨3, _⟩ => exact Fin.ext (by show (((b.val * 2048 + n.val) * 12 + h.val) * 64 + d.val) / 64 % 12 = h.val; omega)
  | ⟨4, _⟩ => exact Fin.ext (by show (((b.val * 2048 + n.val) * 12 + h.val) * 64 + d.val) % 64 = d.val; omega)
theorem unflat_v12 (b : Fin 4) (n : Fin 2048) (h : Fin 12) (d : Fin 64) :
    idx_main_v12 (ix4 b n h d) = ix5 b n (0 : Fin 1) h d := by
  have hb := b.isLt; have hn := n.isLt; have hh := h.isLt; have hd := d.isLt
  funext a
  match a with
  | ⟨0, _⟩ => exact Fin.ext (by show (((b.val * 2048 + n.val) * 12 + h.val) * 64 + d.val) / 1572864 = b.val; omega)
  | ⟨1, _⟩ => exact Fin.ext (by show (((b.val * 2048 + n.val) * 12 + h.val) * 64 + d.val) / 768 % 2048 = n.val; omega)
  | ⟨2, _⟩ => rfl
  | ⟨3, _⟩ => exact Fin.ext (by show (((b.val * 2048 + n.val) * 12 + h.val) * 64 + d.val) / 64 % 12 = h.val; omega)
  | ⟨4, _⟩ => exact Fin.ext (by show (((b.val * 2048 + n.val) * 12 + h.val) * 64 + d.val) % 64 = d.val; omega)

theorem slice_v5 (b : Fin 4) (n : Fin 2048) (h : Fin 12) (d : Fin 64) :
    idx_main_v5 (ix5 b n (0 : Fin 1) h d) = ix5 b n (0 : Fin 3) h d :=
  funext fun a => by match a with | ⟨0, _⟩ => rfl | ⟨1, _⟩ => rfl | ⟨2, _⟩ => rfl | ⟨3, _⟩ => rfl | ⟨4, _⟩ => rfl
theorem slice_v8 (b : Fin 4) (n : Fin 2048) (h : Fin 12) (d : Fin 64) :
    idx_main_v8 (ix5 b n (0 : Fin 1) h d) = ix5 b n (1 : Fin 3) h d :=
  funext fun a => by match a with | ⟨0, _⟩ => rfl | ⟨1, _⟩ => rfl | ⟨2, _⟩ => rfl | ⟨3, _⟩ => rfl | ⟨4, _⟩ => rfl
theorem slice_v11 (b : Fin 4) (n : Fin 2048) (h : Fin 12) (d : Fin 64) :
    idx_main_v11 (ix5 b n (0 : Fin 1) h d) = ix5 b n (2 : Fin 3) h d :=
  funext fun a => by match a with | ⟨0, _⟩ => rfl | ⟨1, _⟩ => rfl | ⟨2, _⟩ => rfl | ⟨3, _⟩ => rfl | ⟨4, _⟩ => rfl

/-- Row-major: entry (b, n, s, h, d) of the five-axis view is entry (b, n, s·768 + h·64 + d) of the projection. -/
theorem flat_v4 (b : Fin 4) (n : Fin 2048) (s : Fin 3) (h : Fin 12) (d : Fin 64) :
    idx_main_v4 (ix5 b n s h d) = ix3 b n (Cert.Spec.col s h d) := by
  have hb := b.isLt; have hn := n.isLt; have hs := s.isLt; have hh := h.isLt; have hd := d.isLt
  funext a
  match a with
  | ⟨0, _⟩ => exact Fin.ext (by show ((((b.val * 2048 + n.val) * 3 + s.val) * 12 + h.val) * 64 + d.val) / 4718592 = b.val; omega)
  | ⟨1, _⟩ => exact Fin.ext (by show ((((b.val * 2048 + n.val) * 3 + s.val) * 12 + h.val) * 64 + d.val) / 2304 % 2048 = n.val; omega)
  | ⟨2, _⟩ => exact Fin.ext (by show ((((b.val * 2048 + n.val) * 3 + s.val) * 12 + h.val) * 64 + d.val) % 2304 = s.val * 768 + h.val * 64 + d.val; omega)

/-- Row-major: feature `c` of a flattened context row is component `c % 64` of head `c / 64`. -/
theorem unflat_v30 (b : Fin 4) (n : Fin 2048) (c : Fin 768) :
    idx_main_v30 (ix3 b n c) = ix4 b n (⟨c.val / 64, by omega⟩ : Fin 12) (⟨c.val % 64, by omega⟩ : Fin 64) := by
  have hb := b.isLt; have hn := n.isLt; have hc := c.isLt
  funext a
  match a with
  | ⟨0, _⟩ => exact Fin.ext (by show ((b.val * 2048 + n.val) * 768 + c.val) / 1572864 = b.val; omega)
  | ⟨1, _⟩ => exact Fin.ext (by show ((b.val * 2048 + n.val) * 768 + c.val) / 768 % 2048 = n.val; omega)
  | ⟨2, _⟩ => exact Fin.ext (by show ((b.val * 2048 + n.val) * 768 + c.val) / 64 % 12 = c.val / 64; omega)
  | ⟨3, _⟩ => exact Fin.ext (by show ((b.val * 2048 + n.val) * 768 + c.val) % 64 = c.val % 64; omega)

/-! ### The stages -/

section Stages

variable (a0 : (⟨S4x2048x768, .f32⟩ : BufTy).Contents (Elt Ideal)) (a1 : (⟨S2304x768, .f32⟩ : BufTy).Contents (Elt Ideal))
  (a2 : (⟨S2304, .f32⟩ : BufTy).Contents (Elt Ideal))

/-- The fused projection of the first three arguments, by coordinates. -/
abbrev Qf : Fin 4 → Fin 2048 → Fin 2304 → EReal :=
  Cert.Spec.qkv (fun b n k => a0 (ix3 b n k)) (fun o k => a1 (ix2 o k)) (fun o => a2 (ix1 o))

/-- The projection plus its bias is `qkv`. -/
theorem v3_eq (b : Fin 4) (n : Fin 2048) (o : Fin 2304) :
    val_main_v3 (F := Ideal) a0 a1 a2 (ix3 b n o) = Qf a0 a1 a2 b n o := by
  rw [val_main_v3_apply, val_main_v0_apply, val_main_v2_apply, val_main_v1_apply]
  have e1 : ∀ k : Fin 768, lidx_main_v0 (ix3 b n o) k = ix3 b n k := fun k =>
    funext fun a => by match a with | ⟨0, _⟩ => rfl | ⟨1, _⟩ => rfl | ⟨2, _⟩ => rfl
  have e2 : ∀ k : Fin 768, ridx_main_v0 (ix3 b n o) k = ix2 o k := fun k =>
    funext fun a => by match a with | ⟨0, _⟩ => rfl | ⟨1, _⟩ => rfl
  have e3 : idx_main_v1 (idx_main_v2 (ix3 b n o)) = ix1 o :=
    funext fun a => by match a with | ⟨0, _⟩ => rfl
  simp only [e1, e2, e3]
  rfl

/-- The five-axis view of the projection. -/
theorem v4_eq (b : Fin 4) (n : Fin 2048) (s : Fin 3) (h : Fin 12) (d : Fin 64) :
    val_main_v4 (F := Ideal) a0 a1 a2 (ix5 b n s h d) = Qf a0 a1 a2 b n (Cert.Spec.col s h d) := by
  rw [val_main_v4_apply, flat_v4 b n s h d, v3_eq]

/-- The query part, by batch, head, position and component, is the fused projection's column `col 0 h d`. -/
theorem q_eq (b : Fin 4) (h : Fin 12) (n : Fin 2048) (d : Fin 64) :
    val_main_v7 (F := Ideal) a0 a1 a2 (ix4 b h n d) = Qf a0 a1 a2 b n (Cert.Spec.col 0 h d) := by
  rw [val_main_v7_apply, tr_v7 b h n d, val_main_v6_apply, unflat_v6 b n h d, val_main_v5_apply,
    slice_v5 b n h d, v4_eq]

/-- The key part, by batch, head, position and component, is the fused projection's column `col 1 h d`. -/
theorem k_eq (b : Fin 4) (h : Fin 12) (n : Fin 2048) (d : Fin 64) :
    val_main_v10 (F := Ideal) a0 a1 a2 (ix4 b h n d) = Qf a0 a1 a2 b n (Cert.Spec.col 1 h d) := by
  rw [val_main_v10_apply, tr_v10 b h n d, val_main_v9_apply, unflat_v9 b n h d, val_main_v8_apply,
    slice_v8 b n h d, v4_eq]

/-- The value part, by batch, head, position and component, is the fused projection's column `col 2 h d`. -/
theorem v_eq (b : Fin 4) (h : Fin 12) (n : Fin 2048) (d : Fin 64) :
    val_main_v13 (F := Ideal) a0 a1 a2 (ix4 b h n d) = Qf a0 a1 a2 b n (Cert.Spec.col 2 h d) := by
  rw [val_main_v13_apply, tr_v13 b h n d, val_main_v12_apply, unflat_v12 b n h d, val_main_v11_apply,
    slice_v11 b n h d, v4_eq]

/-- The scaled scores. -/
theorem score_eq (b : Fin 4) (h : Fin 12) (i j : Fin 2048) :
    val_main_v16 (F := Ideal) a0 a1 a2 (ix4 b h i j) = Cert.Spec.score (Qf a0 a1 a2) b h i j := by
  rw [val_main_v16_apply, val_main_v14_apply, val_main_v15_apply, val_main_cst_apply]
  have el : ∀ k : Fin 64, lidx_main_v14 (ix4 b h i j) k = ix4 b h i k := fun k =>
    funext fun a => by match a with | ⟨0, _⟩ => rfl | ⟨1, _⟩ => rfl | ⟨2, _⟩ => rfl | ⟨3, _⟩ => rfl
  have er : ∀ k : Fin 64, ridx_main_v14 (ix4 b h i j) k = ix4 b h j k := fun k =>
    funext fun a => by match a with | ⟨0, _⟩ => rfl | ⟨1, _⟩ => rfl | ⟨2, _⟩ => rfl | ⟨3, _⟩ => rfl
  simp only [el, er, q_eq a0 a1 a2, k_eq a0 a1 a2]
  rfl

/-- A row's maximum: the reduction over the key positions is the fold of `max` from minus infinity, and the maximum of
    that with minus infinity is itself. -/
theorem rowMax_eq (b : Fin 4) (h : Fin 12) (i : Fin 2048) :
    val_main_v19 (F := Ideal) a0 a1 a2 (ix3 b h i) = Cert.Spec.rowMax (Qf a0 a1 a2) b h i := by
  have hfold : val_main_v17 (F := Ideal) a0 a1 a2 (ix3 b h i) = Cert.Spec.rowMax (Qf a0 a1 a2) b h i := by
    unfold val_main_v17
    rw [Host.reduce_eq_fold_single (FloatOps.maximumf (F := Ideal) (φ := .f32)) (val_main_v16 (F := Ideal) a0 a1 a2)
      (val_main_cst_0 (F := Ideal)) reducesTo_S4x12x2048x2048_S4x12x2048_d3 (by decide) h_S_ (ix3 b h i)]
    refine (Finset.fold_congr (g := fun j : Fin 2048 => Cert.Spec.score (Qf a0 a1 a2) b h i j) fun j _ => ?_).trans ?_
    · exact (congrArg (val_main_v16 (F := Ideal) a0 a1 a2)
        (funext fun a => Fin.ext (by match a with | ⟨0, _⟩ => rfl | ⟨1, _⟩ => rfl | ⟨2, _⟩ => rfl | ⟨3, _⟩ => rfl))).trans (score_eq a0 a1 a2 b h i j)
    · rfl
  rw [val_main_v19_apply, val_main_v18_apply, val_main_cst_1_apply, hfold]
  show max Cert.Spec.negInf (Cert.Spec.rowMax (Qf a0 a1 a2) b h i) = _
  exact max_eq_right (by unfold Cert.Spec.rowMax; exact (Finset.le_fold_max _).2 (Or.inl le_rfl))

/-- The unnormalised weights. -/
theorem wgt_eq (b : Fin 4) (h : Fin 12) (i j : Fin 2048) :
    val_main_v23 (F := Ideal) a0 a1 a2 (ix4 b h i j) = Cert.Spec.wgt (Qf a0 a1 a2) b h i j := by
  rw [val_main_v23_apply, val_main_v22_apply, val_main_v21_apply, val_main_v20_apply, score_eq,
    show idx_main_v20 (idx_main_v21 (ix4 b h i j)) = ix3 b h i from
      funext fun a => by match a with | ⟨0, _⟩ => rfl | ⟨1, _⟩ => rfl | ⟨2, _⟩ => rfl,
    rowMax_eq]
  rfl

/-- The normaliser: the sum of a row's weights, started from zero. -/
theorem den_eq (b : Fin 4) (h : Fin 12) (i : Fin 2048) :
    val_main_v24 (F := Ideal) a0 a1 a2 (ix3 b h i) = Cert.Spec.den (Qf a0 a1 a2) b h i := by
  rw [val_main_v24_apply, val_main_cst_2_apply]
  have e : ∀ k : Fin 2048, idx_main_v24 (ix3 b h i) k = ix4 b h i k := fun k =>
    funext fun a => by match a with | ⟨0, _⟩ => rfl | ⟨1, _⟩ => rfl | ⟨2, _⟩ => rfl | ⟨3, _⟩ => rfl
  simp only [e, wgt_eq a0 a1 a2]
  show Ideal.ofBits .f32 0x00000000#32 + _ = _
  rw [Ideal.ofBits_zero_f32, zero_add]
  rfl

/-- The normalised weights. -/
theorem attn_eq (b : Fin 4) (h : Fin 12) (i j : Fin 2048) :
    val_main_v27 (F := Ideal) a0 a1 a2 (ix4 b h i j)
      = Ideal.div (Cert.Spec.wgt (Qf a0 a1 a2) b h i j) (Cert.Spec.den (Qf a0 a1 a2) b h i) := by
  rw [val_main_v27_apply, val_main_v26_apply, val_main_v25_apply, wgt_eq,
    show idx_main_v25 (idx_main_v26 (ix4 b h i j)) = ix3 b h i from
      funext fun a => by match a with | ⟨0, _⟩ => rfl | ⟨1, _⟩ => rfl | ⟨2, _⟩ => rfl,
    den_eq]
  rfl

/-- The context: the value rows weighted by the normalised weights. -/
theorem ctx_eq (b : Fin 4) (h : Fin 12) (i : Fin 2048) (d : Fin 64) :
    val_main_v28 (F := Ideal) a0 a1 a2 (ix4 b h i d) = Cert.Spec.ctxR (Qf a0 a1 a2) b i h d := by
  rw [val_main_v28_apply]
  have el : ∀ k : Fin 2048, lidx_main_v28 (ix4 b h i d) k = ix4 b h i k := fun k =>
    funext fun a => by match a with | ⟨0, _⟩ => rfl | ⟨1, _⟩ => rfl | ⟨2, _⟩ => rfl | ⟨3, _⟩ => rfl
  have er : ∀ k : Fin 2048, ridx_main_v28 (ix4 b h i d) k = ix4 b h k d := fun k =>
    funext fun a => by match a with | ⟨0, _⟩ => rfl | ⟨1, _⟩ => rfl | ⟨2, _⟩ => rfl | ⟨3, _⟩ => rfl
  simp only [el, er, attn_eq a0 a1 a2, v_eq a0 a1 a2]
  rfl

/-- The context flattened to 768 features. -/
theorem ctxflat_eq (b : Fin 4) (n : Fin 2048) (c : Fin 768) :
    val_main_v30 (F := Ideal) a0 a1 a2 (ix3 b n c)
      = Cert.Spec.ctxR (Qf a0 a1 a2) b n (⟨c.val / 64, by omega⟩ : Fin 12) (⟨c.val % 64, by omega⟩ : Fin 64) := by
  rw [val_main_v30_apply, unflat_v30 b n c, val_main_v29_apply,
    show idx_main_v29 (ix4 b n (⟨c.val / 64, by omega⟩ : Fin 12) (⟨c.val % 64, by omega⟩ : Fin 64))
        = ix4 b (⟨c.val / 64, by omega⟩ : Fin 12) n (⟨c.val % 64, by omega⟩ : Fin 64) from
      funext fun a => by match a with | ⟨0, _⟩ => rfl | ⟨1, _⟩ => rfl | ⟨2, _⟩ => rfl | ⟨3, _⟩ => rfl,
    ctx_eq]

end Stages

/-- The reference's result is `outR` of its five arguments read by coordinates. -/
theorem ref_value (a0 : (⟨S4x2048x768, .f32⟩ : BufTy).Contents (Elt Ideal)) (a1 : (⟨S2304x768, .f32⟩ : BufTy).Contents (Elt Ideal))
    (a2 : (⟨S2304, .f32⟩ : BufTy).Contents (Elt Ideal)) (a3 : (⟨S768x768, .f32⟩ : BufTy).Contents (Elt Ideal))
    (a4 : (⟨S768, .f32⟩ : BufTy).Contents (Elt Ideal)) :
    val_main_v34 (F := Ideal) a0 a1 a2 a3 a4
      = fun i => Cert.Spec.outR (fun b n k => a0 (ix3 b n k)) (fun o k => a1 (ix2 o k)) (fun o => a2 (ix1 o))
          (fun o c => a3 (ix2 o c)) (fun o => a4 (ix1 o)) (i 0) (i 1) (i 2) := by
  funext i
  obtain ⟨b, n, o, rfl⟩ : ∃ (b : Fin 4) (n : Fin 2048) (o : Fin 768), i = ix3 b n o := ⟨i 0, i 1, i 2, eq_ix3 i⟩
  rw [val_main_v34_apply, val_main_v31_apply, val_main_v33_apply, val_main_v32_apply]
  have el : ∀ k : Fin 768, lidx_main_v31 (ix3 b n o) k = ix3 b n k := fun k =>
    funext fun a => by match a with | ⟨0, _⟩ => rfl | ⟨1, _⟩ => rfl | ⟨2, _⟩ => rfl
  have er : ∀ k : Fin 768, ridx_main_v31 (ix3 b n o) k = ix2 o k := fun k =>
    funext fun a => by match a with | ⟨0, _⟩ => rfl | ⟨1, _⟩ => rfl
  have e3 : idx_main_v32 (idx_main_v33 (ix3 b n o)) = ix1 o :=
    funext fun a => by match a with | ⟨0, _⟩ => rfl
  simp only [el, er, e3, ctxflat_eq a0 a1 a2]
  rfl

end Cert.ReferenceIdeal.RefValue

end
-- ==== Proof.LibERealSum.lean ====
/-
  Finite sums on the extended reals.

  The extended reals are not a semiring: `(a + b) · c = a · c + b · c` fails when `a` and `b` are opposite
  infinities. Two facts survive and are what a proof needs when a quotient by a positive real has to cross a
  finite sum: a sum of real numbers, read in the extended reals, is the real sum; and multiplication by a
  NONNEGATIVE REAL distributes over a finite sum of arbitrary extended reals.
-/
import Mathlib.Data.EReal.Inv

namespace Cert.Lib

open scoped BigOperators

/-- A finite sum of reals, read in the extended reals, is the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Multiplication by a nonnegative real distributes over a finite sum of arbitrary extended reals. -/
theorem sum_mul_coe {ι : Type*} (s : Finset ι) (x : ι → EReal) {c : ℝ} (hc : 0 ≤ c) :
    (∑ i ∈ s, x i) * (c : EReal) = ∑ i ∈ s, x i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

end Cert.Lib
-- ==== Proof.Softmax.lean ====
/-
  The law between the two arrangements of the softmax-weighted sum.

  With every entry of the fused projection a real number, every score is a real number; a row's maximum, the fold of
  `max` over the 2048 key positions started from minus infinity, is then a real number as well (the row is not empty);
  every weight is the exponential of a real number, hence a positive real; and the normaliser, a sum of 2048 positive
  reals, is a positive real `D`. Division by `D` is multiplication by the nonnegative real `1 / D`, and multiplication
  by a nonnegative real distributes over a finite sum of extended reals whatever the summands are. So dividing the
  weighted sum of the value rows by `D` (normalising after the sum) is the sum of the value rows weighted by the
  quotients (normalising each weight first): `(Σ_j w_j · v_j) · (1/D) = Σ_j (w_j · (1/D)) · v_j`, term by term by
  commutativity of the product.
-/
import proofs.«161869_j30837865185684_2_alg».proof.Proof.Spec
import proofs.«161869_j30837865185684_2_alg».proof.Proof.LibERealSum

noncomputable section

open scoped BigOperators

namespace Cert.Spec

open Idealize.ShloMosaic

/-! ### Real numbers are closed under the operations used -/

theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

theorem real_add {a b : EReal} (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

theorem real_sub {a b : EReal} (ha : ∃ r : ℝ, a = (r : EReal)) (hb : ∃ r : ℝ, b = (r : EReal)) :
    ∃ r : ℝ, a - b = (r : EReal) := by
  obtain ⟨x, rfl⟩ := ha
  obtain ⟨y, rfl⟩ := hb
  exact ⟨x - y, (EReal.coe_sub x y).symm⟩

/-- A finite sum of real numbers is a real number. -/
theorem real_sum {ι : Type*} (s : Finset ι) (x : ι → EReal) (h : ∀ i ∈ s, ∃ r : ℝ, x i = (r : EReal)) :
    ∃ r : ℝ, ∑ i ∈ s, x i = (r : EReal) := by
  classical
  choose! f hf using h
  exact ⟨∑ i ∈ s, f i, by rw [Finset.sum_congr rfl hf, Cert.Lib.sum_coe]⟩

/-- The fold of `max` from the bottom element over a nonempty finite family of real numbers is a real number. -/
theorem real_fold_max {ι : Type*} (s : Finset ι) (hs : s.Nonempty) (x : ι → EReal)
    (h : ∀ i ∈ s, ∃ r : ℝ, x i = (r : EReal)) : ∃ r : ℝ, s.fold max ⊥ x = (r : EReal) := by
  induction hs using Finset.Nonempty.cons_induction with
  | singleton a =>
    rw [Finset.fold_singleton, max_bot_right]
    exact h a (Finset.mem_singleton_self a)
  | cons a s ha hs ih =>
    rw [Finset.fold_cons]
    obtain ⟨u, hu⟩ := h a (Finset.mem_cons_self a s)
    obtain ⟨v, hv⟩ := ih fun i hi => h i (Finset.mem_cons.2 (Or.inr hi))
    rw [hu, hv]
    exact ⟨max u v, (EReal.coe_strictMono.monotone.map_max).symm⟩

/-! ### The two printed constants -/

/-- The scale is a real number (one eighth). -/
theorem scale_real : ∃ r : ℝ, scale = (r : EReal) := by
  unfold scale
  simp [Ideal.ofBits, Ideal.ieee]
  exact ⟨_, (EReal.coe_mul _ _).symm⟩

/-- The printed word of minus infinity is the bottom element. -/
theorem negInf_eq_bot : negInf = ⊥ := by
  simp [negInf, Ideal.ofBits, Ideal.ieee]

/-! ### Scores, weights and the normaliser over a real projection -/

section Attention

variable (Q : Fin 4 → Fin 2048 → Fin 2304 → EReal) (hQ : ∀ b n o, ∃ r : ℝ, Q b n o = (r : EReal))
include hQ

theorem score_real (b : Fin 4) (h : Fin 12) (i j : Fin 2048) : ∃ r : ℝ, score Q b h i j = (r : EReal) :=
  real_mul (real_sum _ _ fun d _ => real_mul (hQ b i (col 0 h d)) (hQ b j (col 1 h d))) scale_real

theorem rowMax_real (b : Fin 4) (h : Fin 12) (i : Fin 2048) : ∃ r : ℝ, rowMax Q b h i = (r : EReal) := by
  unfold rowMax
  rw [negInf_eq_bot]
  exact real_fold_max _ Finset.univ_nonempty _ fun j _ => score_real Q hQ b h i j

/-- Every weight is a positive real number. -/
theorem wgt_pos (b : Fin 4) (h : Fin 12) (i j : Fin 2048) : ∃ r : ℝ, 0 < r ∧ wgt Q b h i j = (r : EReal) := by
  obtain ⟨s, hs⟩ := score_real Q hQ b h i j
  obtain ⟨m, hm⟩ := rowMax_real Q hQ b h i
  refine ⟨Real.exp (s - m), Real.exp_pos _, ?_⟩
  rw [wgt, hs, hm, ← EReal.coe_sub, Ideal.exp_coe]

/-- The normaliser is a positive real number. -/
theorem den_pos (b : Fin 4) (h : Fin 12) (i : Fin 2048) : ∃ r : ℝ, 0 < r ∧ den Q b h i = (r : EReal) := by
  choose w hw0 hw using fun j => wgt_pos Q hQ b h i j
  refine ⟨∑ j, w j, Finset.sum_pos (fun j _ => hw0 j) Finset.univ_nonempty, ?_⟩
  rw [den, Finset.sum_congr rfl fun j _ => hw j, Cert.Lib.sum_coe]

/-- Normalising after the weighted sum of the value rows, or each weight first, gives the same context. -/
theorem ctxK_eq_ctxR : ctxK Q = ctxR Q := by
  funext b i h d
  obtain ⟨D, hD, hden⟩ := den_pos Q hQ b h i
  have hc : (0 : ℝ) ≤ 1 / D := by positivity
  unfold ctxK ctxR
  rw [hden, Ideal.div_coe hD.ne', Cert.Lib.sum_mul_coe _ _ hc]
  refine Finset.sum_congr rfl fun j _ => ?_
  rw [Ideal.div_coe hD.ne', mul_right_comm]

end Attention

/-! ### The fused projection of real inputs is real, and the whole layer -/

theorem qkv_real (x : Fin 4 → Fin 2048 → Fin 768 → EReal) (w : Fin 2304 → Fin 768 → EReal) (bias : Fin 2304 → EReal)
    (hx : ∀ b n k, ∃ r : ℝ, x b n k = (r : EReal)) (hw : ∀ o k, ∃ r : ℝ, w o k = (r : EReal))
    (hb : ∀ o, ∃ r : ℝ, bias o = (r : EReal)) : ∀ b n o, ∃ r : ℝ, qkv x w bias b n o = (r : EReal) :=
  fun b n o => real_add (real_sum _ _ fun k _ => real_mul (hx b n k) (hw o k)) (hb o)

theorem outK_eq_outR (x : Fin 4 → Fin 2048 → Fin 768 → EReal) (w : Fin 2304 → Fin 768 → EReal) (bias : Fin 2304 → EReal)
    (wo : Fin 768 → Fin 768 → EReal) (bo : Fin 768 → EReal)
    (hx : ∀ b n k, ∃ r : ℝ, x b n k = (r : EReal)) (hw : ∀ o k, ∃ r : ℝ, w o k = (r : EReal))
    (hb : ∀ o, ∃ r : ℝ, bias o = (r : EReal)) : outK x w bias wo bo = outR x w bias wo bo := by
  unfold outK outR
  rw [ctxK_eq_ctxR _ (qkv_real x w bias hx hw hb)]

end Cert.Spec

end
-- ==== Proof.LibFiniteEntries.lean ====
/-
  Finite entries: from an and-reduction of |v| < +∞ to real numbers.

  A precondition "every entry of v is finite" is printed as the and-reduction, over all axes, of the entrywise
  comparison |v| < +∞, where |v| is max(v, −v) and +∞ is the f32 word 0x7F800000, and is asserted to be 1. Then the
  comparison is 1 at every entry, and an extended real whose absolute value is below +∞ is a real number. Stated for
  an array of any shape, so that one conjunct of a conjunction of such tests is read with one application.
-/
import Idealize.ShloMosaic.PureOps.Ideal
import Idealize.ShloMosaic.Lib.ReduceAll
import Idealize.ShloMosaic.Lib.ValueIdx

noncomputable section

namespace Cert.Lib

open Idealize.ShloMosaic Idealize.ShloMosaic.ValueIdx

/-- The scalar shape has one index. -/
instance scalarIdx_subsingleton : Subsingleton (⟨0, ![]⟩ : Shape).Idx := ⟨fun _ _ => funext fun d => d.elim0⟩

/-- An extended real whose absolute value max(v, −v) is below +∞ is a real number. -/
theorem exists_real_of_abs_lt_top (v : EReal) (h : max v (-v) < ⊤) : ∃ r : ℝ, v = (r : EReal) := by
  induction v using EReal.rec with
  | bot => simp at h
  | coe r => exact ⟨r, rfl⟩
  | top => simp at h

/-- On one value: the ordered comparison |v| < +∞ (the word 0x7F800000) coming out 1 says that v is a real number. -/
theorem real_of_abs_olt_inf (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  unfold Ideal.cmp at h
  refine exists_real_of_abs_lt_top v ?_
  by_contra hn
  simp [hn] at h

/-- One "all entries finite" test: if the and-reduction over all axes of |v| < +∞ (the bound a scalar constant repeated
    over the shape, the reduction started from the constant 1) is 1, every entry of v is a real number. -/
theorem real_of_all_finite {s : Shape} {axes : List (Fin s.rank)} (v : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi (cmpf .olt (Host.absf v) (broadcastInDim s ![] hb (constant (F := Ideal) ⟨0, ![]⟩ .f32 0x7F800000#32)))
        (constantI ⟨0, ![]⟩ 1 1#1) hr hu ix0 = 1#1) (i : s.Idx) : ∃ r : ℝ, v i = (r : EReal) :=
  real_of_abs_olt_inf (v i) (Host.reduce_andi_all _ _ hr hu ix0 h i)

end Cert.Lib

end
-- ==== Proof.Finite.lean ====
/-
  From the precondition to real numbers.

  The precondition is the conjunction, over the five argument arrays, of the test "every entry is finite": the
  and-reduction over all axes of the entrywise comparison |v| < +∞, asserted to come out 1. A conjunction of bits is 1
  exactly when each bit is, so each of the five tests comes out 1; and an array that passes the test has a real number
  at every index, since an extended real whose absolute value is below +∞ is neither infinity.
-/
import proofs.«161869_j30837865185684_2_alg».proof.Pre_finite_inputs
import proofs.«161869_j30837865185684_2_alg».proof.Proof.Gen.Pre_finite_inputs
import proofs.«161869_j30837865185684_2_alg».proof.Proof.LibFiniteEntries

noncomputable section

namespace Cert.Finite

open Idealize.ShloMosaic Idealize.ShloMosaic.ValueIdx Cert.Pre_finite_inputs

/-- Under the precondition every entry of each of the five argument arrays is a real number. -/
theorem reals_of_pre [Cert.Pre_finite_inputs.Facts]
    (a0 : FVec Ideal S4x2048x768 .f32) (a1 : FVec Ideal S2304x768 .f32) (a2 : FVec Ideal S2304 .f32)
    (a3 : FVec Ideal S768x768 .f32) (a4 : FVec Ideal S768 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [fn, fn_part1, andi] at h0
  simp only [IntOp.andi_eq_one] at h0
  obtain ⟨⟨⟨⟨t0, t1⟩, t2⟩, t3⟩, t4⟩ := h0
  exact ⟨Cert.Lib.real_of_all_finite a0 _ _ _ t0, Cert.Lib.real_of_all_finite a1 _ _ _ t1,
    Cert.Lib.real_of_all_finite a2 _ _ _ t2, Cert.Lib.real_of_all_finite a3 _ _ _ t3,
    Cert.Lib.real_of_all_finite a4 _ _ _ t4⟩

end Cert.Finite

end
-- ==== Proof.Bridge.lean ====
/-
  The kernel's value and the reference's value are one function of the five arguments.

  Before its two regions the kernel transposes each weight from its [out, in] layout to [in, out] and cuts it to
  bf16; on exact values the cut is the identity, and the transposed matrix at (k, o) is the matrix at (o, k). So the
  fused projection the first region computes over the transposed weight, Σ_k x[b, n, k] · wᵀ[k, o] + bias[o], is the
  specification's `qkv` of the arguments read by coordinates, and projecting the context with the transposed output
  weight read at (c, o) is projecting it with the output weight at (o, c): the kernel's value is the specification's
  `outK`, the attention normalised after the weighted sum. The reference's value is `outR`, each weight normalised
  first. Under the precondition every entry of every argument is a real number, and then the two arrangements agree.
-/
import proofs.«161869_j30837865185684_2_alg».proof.Proof.RefValue
import proofs.«161869_j30837865185684_2_alg».proof.Proof.Softmax
import proofs.«161869_j30837865185684_2_alg».proof.Proof.Finite
import proofs.«161869_j30837865185684_2_alg».proof.Proof.Spec
import proofs.«161869_j30837865185684_2_alg».proof.Proof.KI0Value
import Idealize.ShloMosaic.Lib.ValueLayout

noncomputable section

open scoped BigOperators

namespace Cert.Bridge

open Cert.KernelIdeal Cert.KernelIdeal.Gen
open Idealize.ShloMosaic Idealize.ShloMosaic.ValueIdx

/-- The fused projection's weight as the first region finds it: transposed to [in, out], then cut to bf16. -/
def wqT (a1 : FVec Ideal S2304x768 .f32) : FVec Ideal S768x2304 .bf16 :=
  truncf .bf16 (transpose S768x2304 [1, 0] a1 transposes_S2304x768_S768x2304_1_0) bitsLt_bf16_f32

/-- The output projection's weight as the second region finds it: transposed to [in, out], then cut to bf16. -/
def woT (a3 : FVec Ideal S768x768 .f32) : FVec Ideal S768x768 .bf16 :=
  truncf .bf16 (transpose S768x768 [1, 0] a3 transposes_S768x768_S768x768_1_0) bitsLt_bf16_f32

/-- On exact values the transposed and cut weight at (k, o) is the weight at (o, k). -/
theorem wqT_apply (a1 : FVec Ideal S2304x768 .f32) (k : Fin 768) (o : Fin 2304) : wqT a1 (ix2 k o) = a1 (ix2 o k) :=
  (truncf_apply _ bitsLt_bf16_f32 (ix2 k o)).trans (transpose_ix2_apply a1 transposes_S2304x768_S768x2304_1_0 k o)

theorem woT_apply (a3 : FVec Ideal S768x768 .f32) (c o : Fin 768) : woT a3 (ix2 c o) = a3 (ix2 o c) :=
  (truncf_apply _ bitsLt_bf16_f32 (ix2 c o)).trans (transpose_ix2_apply a3 transposes_S768x768_S768x768_1_0 c o)

/-- What the kernel's two regions leave: the attention normalised after the weighted sum, over the fused projection
    of the activations, the transposed weight and the bias, projected with the transposed output weight. -/
def kernelValue (a0 : FVec Ideal S4x2048x768 .f32) (a1 : FVec Ideal S2304x768 .f32) (a2 : FVec Ideal S2304 .f32)
    (a3 : FVec Ideal S768x768 .f32) (a4 : FVec Ideal S768 .f32) : S4x2048x768.Idx → EReal :=
  fun i => Cert.Spec.proj (Cert.Spec.ctxK (fun b n o => Cert.KernelIdeal.R0V.qkvOf a0 (wqT a1) a2 (ix3 b n o)))
    (fun o c' => woT a3 (ix2 c' o)) (fun o => a4 (ix1 o)) (i 0 : Fin 4) (i 1 : Fin 2048) (i 2 : Fin 768)

/-- The kernel's value is the specification's `outK` of the five arguments read by coordinates. -/
theorem kernelValue_eq_outK (a0 : FVec Ideal S4x2048x768 .f32) (a1 : FVec Ideal S2304x768 .f32) (a2 : FVec Ideal S2304 .f32)
    (a3 : FVec Ideal S768x768 .f32) (a4 : FVec Ideal S768 .f32) :
    kernelValue a0 a1 a2 a3 a4
      = fun i => Cert.Spec.outK (fun b n k => a0 (ix3 b n k)) (fun o k => a1 (ix2 o k)) (fun o => a2 (ix1 o))
          (fun o c => a3 (ix2 o c)) (fun o => a4 (ix1 o)) (i 0) (i 1) (i 2) := by
  have hq : (fun (b : Fin 4) (n : Fin 2048) (o : Fin 2304) => Cert.KernelIdeal.R0V.qkvOf a0 (wqT a1) a2 (ix3 b n o))
      = Cert.Spec.qkv (fun b n k => a0 (ix3 b n k)) (fun o k => a1 (ix2 o k)) (fun o => a2 (ix1 o)) := by
    funext b n o
    rw [Cert.KernelIdeal.R0V.qkvOf_apply]
    unfold Cert.Spec.qkv
    simp only [wqT_apply]
  have hw : (fun (o c' : Fin 768) => woT a3 (ix2 c' o)) = fun o c => a3 (ix2 o c) := by
    funext o c
    exact woT_apply a3 c o
  unfold kernelValue Cert.Spec.outK
  rw [hq, hw]

/-- Under the precondition the kernel's value is the reference's result. -/
theorem kernelValue_eq_ref [Cert.Pre_finite_inputs.Facts] (a0 : FVec Ideal S4x2048x768 .f32) (a1 : FVec Ideal S2304x768 .f32)
    (a2 : FVec Ideal S2304 .f32) (a3 : FVec Ideal S768x768 .f32) (a4 : FVec Ideal S768 .f32)
    (hpre : Cert.Pre_finite_inputs.fn (F := Ideal) a0 a1 a2 a3 a4 = fun _ => 1#1) :
    kernelValue a0 a1 a2 a3 a4 = Cert.ReferenceIdeal.Read.val_main_v34 (F := Ideal) a0 a1 a2 a3 a4 := by
  obtain ⟨h0, h1, h2, _, _⟩ := Cert.Finite.reals_of_pre a0 a1 a2 a3 a4 hpre
  rw [kernelValue_eq_outK, Cert.ReferenceIdeal.RefValue.ref_value,
    Cert.Spec.outK_eq_outR _ _ _ _ _ (fun b n k => h0 _) (fun o k => h1 _) (fun o => h2 _)]

end Cert.Bridge

end
-- ==== Proof.KIValue.lean ====
/-
  What the idealized kernel's result array holds, as one function of the five argument arrays: the result array after
  the attention region is the attention arrangement (normalise after the value sum) of the fused projection's array,
  projected with the transposed output weight and the output bias; the fused projection's array after the first region
  is the projection of x with the transposed QKV weight and bias; and the two transposed weights are what the host
  stretch wrote before the regions (at the ideal values the conversion to the narrower format is the identity).
-/
import proofs.«161869_j30837865185684_2_alg».proof.Proof.KIRun
import proofs.«161869_j30837865185684_2_alg».proof.Proof.KI1Body
import proofs.«161869_j30837865185684_2_alg».proof.Proof.KI0Value
import proofs.«161869_j30837865185684_2_alg».proof.Proof.KI1Final
import proofs.«161869_j30837865185684_2_alg».proof.Proof.Bridge
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The host stretch leaves the transposed (and converted) QKV weight in its buffer, -/
theorem V1_v1 (c : Dev nD) : (Gen.V1 m c main_v1 : S768x2304.Idx → EReal) = Cert.Bridge.wqT (m ((c : Thread nD τ).loc main_arg1)) := by
  dsimp only [Gen.V1, Gen.V0, Gen.hostOps0]; after_results; rfl
/-- and the transposed (and converted) output weight in its. -/
theorem V1_v3 (c : Dev nD) : (Gen.V1 m c main_v3 : S768x768.Idx → EReal) = Cert.Bridge.woT (m ((c : Thread nD τ).loc main_arg3)) := by
  dsimp only [Gen.V1, Gen.V0, Gen.hostOps0]; after_results; rfl

/-- The result array after the run is the kernel's value of the launch arguments. -/
theorem result_eq (c : Dev nD) :
    Run.ar1 m R1.out1_5 c = Cert.Bridge.kernelValue (m ((c : Thread nD τ).loc main_arg0)) (m ((c : Thread nD τ).loc main_arg1))
      (m ((c : Thread nD τ).loc main_arg2)) (m ((c : Thread nD τ).loc main_arg3)) (m ((c : Thread nD τ).loc main_arg4)) := by
  unfold Run.ar1
  rw [R1F.final1 (Run.E2 m) c]
  have h4 : Run.E2 m c main_v4 = R0V.qkvOf (m ((c : Thread nD τ).loc main_arg0)) (Cert.Bridge.wqT (m ((c : Thread nD τ).loc main_arg1))) (m ((c : Thread nD τ).loc main_arg2)) := by
    rw [Run.E2_v4]; unfold Run.ar0
    rw [R0V.final0 (Run.E1 m) c, show Run.E1 m c main_v1 = Cert.Bridge.wqT (m ((c : Thread nD τ).loc main_arg1)) from V1_v1 m c,
      show Run.E1 m c main_arg0 = m ((c : Thread nD τ).loc main_arg0) from Gen.V1_of m c main_arg0 (by decide),
      show Run.E1 m c main_arg2 = m ((c : Thread nD τ).loc main_arg2) from Gen.V1_of m c main_arg2 (by decide)]
  have h3 : Run.E2 m c main_v3 = Cert.Bridge.woT (m ((c : Thread nD τ).loc main_arg3)) :=
    (Run.E2_of_ne m c main_v3 (by decide)).trans (V1_v3 m c)
  have ha : Run.E2 m c main_arg4 = m ((c : Thread nD τ).loc main_arg4) :=
    (Run.E2_of_ne m c main_arg4 (by decide)).trans (Gen.V1_of m c main_arg4 (by decide))
  rw [h4, h3, ha]
  rfl

end Cert.KernelIdeal.KValue

end
-- ==== Proof.lean ====
/-
  The certificate of a multi-head self-attention layer (4 batches of 2048 positions, 768 features, 12 heads of 64
  components) written as two kernel regions — the fused QKV projection, then per query block the twelve heads' scores,
  row maxima, exponentials, row sums and value sums, each head's context divided by its row sum, and the output projection
  — against the host program that normalises every weight before the value sum.

  FRAMES. Each of the two kernel programs (the word-level one and its reading at the extended reals: the same text) runs as
  three segments: a host stretch that transposes the two weights, the projection region on a 4 × 4 grid, the attention
  region on a 4 × 8 grid. Region by region the body is run once at a symbolic grid point; every input window's buffer
  holds its block there whether or not that point fetched it; the output window's buffer ends at one function of the
  blocks. The attention region reads the fused projection's array through three windows, so the array's share is dealt
  among them at entry and put back together at exit. No segment writes an argument array. The host program's frame is its
  run with the result dropped.

  PRESERVES. The ideal reading rewrote no operation.

  ALGEBRAIC. At the extended reals a change of float format is the identity, a matrix product into a zero accumulator
  is the plain sum of products and a lane reduction the plain sum or maximum. The kernel's result array is, entry by
  entry, the output projection of  (Σ_j w_j · v_j) / (Σ_j w_j)  with  w_j = exp (s_j − max_j s_j)  and
  s_j = (q · k_j) / 8; the host program's is the output projection of  Σ_j (w_j / Σ_j w_j) · v_j . With finite inputs
  every score is a real number, every weight a positive real and the normaliser a positive real, so the division moves
  through the finite sum and the two agree.
-/
import proofs.«161869_j30837865185684_2_alg».proof.Defs
import proofs.«161869_j30837865185684_2_alg».proof.Proof.Gen.Kernel
import proofs.«161869_j30837865185684_2_alg».proof.Proof.Gen.KernelIdeal
import proofs.«161869_j30837865185684_2_alg».proof.Proof.Gen.ReferenceIdeal
import proofs.«161869_j30837865185684_2_alg».proof.Proof.Gen.ReferenceIdeal.Run
import proofs.«161869_j30837865185684_2_alg».proof.Proof.Gen.ReferenceIdeal.Read
import proofs.«161869_j30837865185684_2_alg».proof.Proof.Gen.Pre_finite_inputs
import proofs.«161869_j30837865185684_2_alg».proof.Proof.K1Body
import proofs.«161869_j30837865185684_2_alg».proof.Proof.KRun
import proofs.«161869_j30837865185684_2_alg».proof.Proof.KI1Body
import proofs.«161869_j30837865185684_2_alg».proof.Proof.KIRun
import proofs.«161869_j30837865185684_2_alg».proof.Proof.KIValue
import proofs.«161869_j30837865185684_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments unchanged. -/
theorem frame_k : Cert.frame_Kernel := fun m ρ _ =>
  Cert.Kernel.Run.frame m Cert.Kernel.R1.out1_5 Cert.Kernel.R1.sound_kernel1 ρ

/-- So does its reading at the extended reals. -/
theorem frame_ki : Cert.frame_KernelIdeal := fun m ρ _ =>
  Cert.KernelIdeal.Run.frame m Cert.KernelIdeal.R1.out1_5 Cert.KernelIdeal.R1.sound_kernel1 ρ

/-- The host program's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal reading rewrote nothing. -/
theorem preserves : Cert.preserves_Kernel_KernelIdeal := trivial

/-- From memories agreeing on the five arguments, finite, both programs end with the same result array: the kernel's is
    its value of the arguments (the run read region by region), the host program's its composed term, and the two are one
    function of finite arguments. -/
theorem algebraic : Cert.algebraic_KernelIdeal_ReferenceIdeal := by
  intro m ρ m' ρ' hpre hagree
  refine ⟨fun c => Cert.KernelIdeal.Run.ar1 m Cert.KernelIdeal.R1.out1_5 c,
    Cert.KernelIdeal.Run.run_result m Cert.KernelIdeal.R1.out1_5 Cert.KernelIdeal.R1.sound_kernel1 ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2.1, (hagree c).2.2.1, (hagree c).2.2.2.1, (hagree c).2.2.2.2]
  show _ = Cert.KernelIdeal.Run.ar1 m Cert.KernelIdeal.R1.out1_5 c
  rw [Cert.KernelIdeal.KValue.result_eq m c]
  exact (Cert.Bridge.kernelValue_eq_ref _ _ _ _ _ (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
